-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x768x768 : Shape := ⟨4, ![32, 1, 768, 768]⟩
abbrev S32x2 : Shape := ⟨2, ![32, 2]⟩
abbrev S_ : Shape := ⟨0, ![]⟩

class Facts : Prop where
  bcast_S_S32x1x768x768 : S_.BroadcastsInDim S32x1x768x768 (![] : Fin 0 → Fin S32x1x768x768.rank)
  reducesTo_S32x1x768x768_S_d0_1_2_3 : S32x1x768x768.ReducesTo [0, 1, 2, 3] S_
  h_S_ : 0 < S_.numel
  bcast_S_S32x2 : S_.BroadcastsInDim S32x2 (![] : Fin 0 → Fin S32x2.rank)
  reducesTo_S32x2_S_d0_1 : S32x2.ReducesTo [0, 1] S_

variable [Facts]

def fn_part1 {F : FTy → Type} [FloatOps F] (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  main_v18

def fn {F : FTy → Type} [FloatOps F] (main_arg0 : FVec F S32x1x768x768 .f32) (main_arg1 : FVec F S32x1x768x768 .f32) (main_arg2 : FVec F S32x2 .f32) (main_arg3 : FVec F S32x2 .f32) : IVec S_ 1 :=
  let main_v0 : FVec F S32x1x768x768 .f32 := Host.absf main_arg0
  let main_cst : FVec F S_ .f32 := constant S_ .f32 0x7F800000#32
  let main_v1 : FVec F S32x1x768x768 .f32 := broadcastInDim S32x1x768x768 ![] bcast_S_S32x1x768x768 main_cst
  let main_v2 : IVec S32x1x768x768 1 := cmpf .olt main_v0 main_v1
  let main_c : IVec S_ 1 := constantI S_ 1 1#1
  let main_v3 : IVec S_ 1 := (fun x v => Host.reduce IntOp.andi x v reducesTo_S32x1x768x768_S_d0_1_2_3 h_S_) main_v2 main_c
  let main_v4 : FVec F S32x1x768x768 .f32 := Host.absf main_arg1
  let main_cst_0 : FVec F S_ .f32 := constant S_ .f32 0x7F800000#32
  let main_v5 : FVec F S32x1x768x768 .f32 := broadcastInDim S32x1x768x768 ![] bcast_S_S32x1x768x768 main_cst_0
  let main_v6 : IVec S32x1x768x768 1 := cmpf .olt main_v4 main_v5
  let main_c_1 : IVec S_ 1 := constantI S_ 1 1#1
  let main_v7 : IVec S_ 1 := (fun x v => Host.reduce IntOp.andi x v reducesTo_S32x1x768x768_S_d0_1_2_3 h_S_) main_v6 main_c_1
  let main_v8 : IVec S_ 1 := andi main_v3 main_v7
  let main_v9 : FVec F S32x2 .f32 := Host.absf main_arg2
  let main_cst_2 : FVec F S_ .f32 := constant S_ .f32 0x7F800000#32
  let main_v10 : FVec F S32x2 .f32 := broadcastInDim S32x2 ![] bcast_S_S32x2 main_cst_2
  let main_v11 : IVec S32x2 1 := cmpf .olt main_v9 main_v10
  let main_c_3 : IVec S_ 1 := constantI S_ 1 1#1
  let main_v12 : IVec S_ 1 := (fun x v => Host.reduce IntOp.andi x v reducesTo_S32x2_S_d0_1 h_S_) main_v11 main_c_3
  let main_v13 : IVec S_ 1 := andi main_v8 main_v12
  let main_v14 : FVec F S32x2 .f32 := Host.absf main_arg3
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_v13 main_v16
-- ==== Kernel.lean ====
abbrev S32x1x768x768 : Shape := ⟨4, ![32, 1, 768, 768]⟩
abbrev S32x2 : Shape := ⟨2, ![32, 2]⟩
abbrev S768 : Shape := ⟨1, ![768]⟩
abbrev S768x1 : Shape := ⟨2, ![768, 1]⟩
abbrev S_ : Shape := ⟨0, ![]⟩
abbrev S8 : Shape := ⟨1, ![8]⟩
abbrev S1x8 : Shape := ⟨2, ![1, 8]⟩
abbrev S768x8 : Shape := ⟨2, ![768, 8]⟩
abbrev S32x3x8x8 : Shape := ⟨4, ![32, 3, 8, 8]⟩
abbrev S1x1x768x768 : Shape := ⟨4, ![1, 1, 768, 768]⟩
abbrev S1x3x8x8 : Shape := ⟨4, ![1, 3, 8, 8]⟩
abbrev S768x768 : Shape := ⟨2, ![768, 768]⟩
abbrev S1 : Shape := ⟨1, ![1]⟩
abbrev S1x1 : Shape := ⟨2, ![1, 1]⟩
abbrev S8x96x768 : Shape := ⟨3, ![8, 96, 768]⟩
abbrev S8x768 : Shape := ⟨2, ![8, 768]⟩
abbrev S8x8 : Shape := ⟨2, ![8, 8]⟩
abbrev S1x1x8x8 : Shape := ⟨4, ![1, 1, 8, 8]⟩
abbrev S32x1x8x8 : Shape := ⟨4, ![32, 1, 8, 8]⟩
abbrev S32x8x8 : Shape := ⟨3, ![32, 8, 8]⟩
abbrev S32x1x1 : Shape := ⟨3, ![32, 1, 1]⟩
abbrev S32 : Shape := ⟨1, ![32]⟩
abbrev S32x2x4x2x4 : Shape := ⟨5, ![32, 2, 4, 2, 4]⟩
abbrev S32x2x2 : Shape := ⟨3, ![32, 2, 2]⟩
abbrev S2x2 : Shape := ⟨2, ![2, 2]⟩
abbrev S32x4x2x4x2 : Shape := ⟨5, ![32, 4, 2, 4, 2]⟩
abbrev S32x4x4 : Shape := ⟨3, ![32, 4, 4]⟩
abbrev S4x4 : Shape := ⟨2, ![4, 4]⟩
abbrev S32x1 : Shape := ⟨2, ![32, 1]⟩
abbrev S1x1x1 : Shape := ⟨3, ![1, 1, 1]⟩

abbrev nBuf : Space → Nat
  | .hbm => 202
  | .vmem => 7
  | .smem => 0
  | _ => 0

abbrev hbmTy0_0 (i : Nat) : BufTy := match i % 128 with
  | 0 => ⟨S32x1x768x768, .f32⟩
  | 1 => ⟨S32x1x768x768, .f32⟩
  | 2 => ⟨S32x2, .f32⟩
  | 3 => ⟨S32x2, .f32⟩
  | 4 => ⟨S768, .i32⟩
  | 5 => ⟨S768x1, .i32⟩
  | 6 => ⟨S_, .i32⟩
  | 7 => ⟨S_, .i32⟩
  | 8 => ⟨S768x1, .i32⟩
  | 9 => ⟨S768x1, .i32⟩
  | 10 => ⟨S768x1, .i32⟩
  | 11 => ⟨S_, .i32⟩
  | 12 => ⟨S768x1, .i32⟩
  | 13 => ⟨S768x1, .i1⟩
  | 14 => ⟨S768x1, .i32⟩
  | 15 => ⟨S768x1, .i32⟩
  | 16 => ⟨S_, .i32⟩
  | 17 => ⟨S768x1, .i32⟩
  | 18 => ⟨S768x1, .i1⟩
  | 19 => ⟨S768x1, .i1⟩
  | 20 => ⟨S_, .i32⟩
  | 21 => ⟨S768x1, .i32⟩
  | 22 => ⟨S768x1, .i32⟩
  | 23 => ⟨S768x1, .i32⟩
  | 24 => ⟨S8, .i32⟩
  | 25 => ⟨S1x8, .i32⟩
  | 26 => ⟨S768x8, .i32⟩
  | 27 => ⟨S768x8, .i32⟩
  | 28 => ⟨S768x8, .i1⟩
  | 29 => ⟨S768x8, .f32⟩
  | 30 => ⟨S32x3x8x8, .f32⟩
  | 31 => ⟨S32x1x8x8, .f32⟩
  | 32 => ⟨S32x8x8, .f32⟩
  | 33 => ⟨S32x1x8x8, .f32⟩
  | 34 => ⟨S32x8x8, .f32⟩
  | 35 => ⟨S32x1x8x8, .f32⟩
  | 36 => ⟨S32x8x8, .f32⟩
  | 37 => ⟨S32x1x1, .f32⟩
  | 38 => ⟨S32, .f32⟩
  | 39 => ⟨S_, .f32⟩
  | 40 => ⟨S_, .f32⟩
  | 41 => ⟨S32x1x1, .f32⟩
  | 42 => ⟨S32, .f32⟩
  | 43 => ⟨S32x1x1, .f32⟩
  | 44 => ⟨S32, .f32⟩
  | 45 => ⟨S_, .f32⟩
  | 46 => ⟨S_, .f32⟩
  | 47 => ⟨S32, .f32⟩
  | 48 => ⟨S32, .f32⟩
  | 49 => ⟨S_, .f32⟩
  | 50 => ⟨S_, .f32⟩
  | 51 => ⟨S_, .f32⟩
  | 52 => ⟨S_, .f32⟩
  | 53 => ⟨S32x2x4x2x4, .f32⟩
  | 54 => ⟨S_, .f32⟩
  | 55 => ⟨S32x2x2, .f32⟩
  | 56 => ⟨S32x2x4x2x4, .f32⟩
  | 57 => ⟨S_, .f32⟩
  | 58 => ⟨S32x2x2, .f32⟩
  | 59 => ⟨S32x2x2, .f32⟩
  | 60 => ⟨S32x2x2, .f32⟩
  | 61 => ⟨S_, .f32⟩
  | 62 => ⟨S2x2, .f32⟩
  | 63 => ⟨S_, .f32⟩
  | 64 => ⟨S2x2, .f32⟩
  | 65 => ⟨S2x2, .f32⟩
  | 66 => ⟨S_, .f32⟩
  | 67 => ⟨S_, .f32⟩
  | 68 => ⟨S_, .f32⟩
  | 69 => ⟨S_, .f32⟩
  | 70 => ⟨S32x4x2x4x2, .f32⟩
  | 71 => ⟨S_, .f32⟩
  | 72 => ⟨S32x4x4, .f32⟩
  | 73 => ⟨S32x4x2x4x2, .f32⟩
  | 74 => ⟨S_, .f32⟩
  | 75 => ⟨S32x4x4, .f32⟩
  | 76 => ⟨S32x4x4, .f32⟩
  | 77 => ⟨S32x4x4, .f32⟩
  | 78 => ⟨S_, .f32⟩
  | 79 => ⟨S4x4, .f32⟩
  | 80 => ⟨S_, .f32⟩
  | 81 => ⟨S4x4, .f32⟩
  | 82 => ⟨S4x4, .f32⟩
  | 83 => ⟨S_, .f32⟩
  | 84 => ⟨S_, .f32⟩
  | 85 => ⟨S_, .f32⟩
  | 86 => ⟨S32x8x8, .f32⟩
  | 87 => ⟨S32x8x8, .f32⟩
  | 88 => ⟨S_, .f32⟩
  | 89 => ⟨S8x8, .f32⟩
  | 90 => ⟨S_, .f32⟩
  | 91 => ⟨S8x8, .f32⟩
  | 92 => ⟨S8x8, .f32⟩
  | 93 => ⟨S_, .f32⟩
  | 94 => ⟨S_, .f32⟩
  | 95 => ⟨S_, .f32⟩
  | 96 => ⟨S_, .f32⟩
  | 97 => ⟨S_, .f32⟩
  | 98 => ⟨S_, .i32⟩
  | 99 => ⟨S32, .i32⟩
  | 100 => ⟨S_, .i32⟩
  | 101 => ⟨S32, .i32⟩
  | 102 => ⟨S_, .f32⟩
  | 103 => ⟨S32, .f32⟩
  | 104 => ⟨S_, .f32⟩
  | 105 => ⟨S32, .f32⟩
  | 106 => ⟨S32, .f32⟩
  | 107 => ⟨S32x1, .f32⟩
  | 108 => ⟨S32x2, .f32⟩
  | 109 => ⟨S32x2, .f32⟩
  | 110 => ⟨S32x2, .f32⟩
  | 111 => ⟨S_, .f32⟩
  | 112 => ⟨S32, .f32⟩
  | 113 => ⟨S32x1, .f32⟩
  | 114 => ⟨S32x1, .f32⟩
  | 115 => ⟨S32x2, .f32⟩
  | 116 => ⟨S32x2, .f32⟩
  | 117 => ⟨S32x1, .i32⟩
  | 118 => ⟨S_, .i32⟩
  | 119 => ⟨S32x1, .i32⟩
  | 120 => ⟨S32x1, .i1⟩
  | 121 => ⟨S_, .i32⟩
  | 122 => ⟨S32x1, .i32⟩
  | 123 => ⟨S32x1, .i32⟩
  | 124 => ⟨S32x1, .i32⟩
  | 125 => ⟨S32x1x1, .i32⟩
  | 126 => ⟨S1, .i32⟩
  | 127 => ⟨S_, .i32⟩
  | _ => ⟨S32x1x768x768, .f32⟩

abbrev hbmTy0_1 (i : Nat) : BufTy := match i % 128 with
  | 0 => ⟨S32x1x1, .i32⟩
  | 1 => ⟨S32x1x1, .i1⟩
  | 2 => ⟨S1x1x1, .i32⟩
  | 3 => ⟨S32x1x1, .i32⟩
  | 4 => ⟨S32x1x1, .i1⟩
  | 5 => ⟨S32x1x1, .i1⟩
  | 6 => ⟨S_, .i1⟩
  | 7 => ⟨S32x1, .i1⟩
  | 8 => ⟨S32x1, .f32⟩
  | 9 => ⟨S_, .f32⟩
  | 10 => ⟨S32x1, .f32⟩
  | 11 => ⟨S32x1, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S32, .f32⟩
  | 19 => ⟨S_, .f32⟩
  | 20 => ⟨S32, .f32⟩
  | 21 => ⟨S32, .f32⟩
  | 22 => ⟨S32x1, .f32⟩
  | 23 => ⟨S32x2, .f32⟩
  | 24 => ⟨S32x2, .f32⟩
  | 25 => ⟨S32x2, .f32⟩
  | 26 => ⟨S_, .f32⟩
  | 27 => ⟨S32, .f32⟩
  | 28 => ⟨S32x1, .f32⟩
  | 29 => ⟨S32x1, .f32⟩
  | 30 => ⟨S32x2, .f32⟩
  | 31 => ⟨S32x2, .f32⟩
  | 32 => ⟨S32x1, .i32⟩
  | 33 => ⟨S_, .i32⟩
  | 34 => ⟨S32x1, .i32⟩
  | 35 => ⟨S32x1, .i1⟩
  | 36 => ⟨S_, .i32⟩
  | 37 => ⟨S32x1, .i32⟩
  | 38 => ⟨S32x1, .i32⟩
  | 39 => ⟨S32x1, .i32⟩
  | 40 => ⟨S32x1x1, .i32⟩
  | 41 => ⟨S1, .i32⟩
  | 42 => ⟨S_, .i32⟩
  | 43 => ⟨S32x1x1, .i32⟩
  | 44 => ⟨S32x1x1, .i1⟩
  | 45 => ⟨S1x1x1, .i32⟩
  | 46 => ⟨S32x1x1, .i32⟩
  | 47 => ⟨S32x1x1, .i1⟩
  | 48 => ⟨S32x1x1, .i1⟩
  | 49 => ⟨S_, .i1⟩
  | 50 => ⟨S32x1, .i1⟩
  | 51 => ⟨S32x1, .f32⟩
  | 52 => ⟨S_, .f32⟩
  | 53 => ⟨S32x1, .f32⟩
  | 54 => ⟨S32x1, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | _ => ⟨S32x1x768x768, .f32⟩

abbrev hbmTy (i : Nat) : BufTy := match i / 128 with
  | 0 => hbmTy0_0 i
  | 1 => hbmTy0_1 i
  | _ => ⟨S32x1x768x768, .f32⟩

abbrev bufTy : (tb : Table) → Fin (tcTables nBuf tb) → BufTy
  | .hbm, ⟨i, _⟩ => hbmTy i
  | .local _ .vmem, ⟨0, _⟩ => ⟨S1x1x768x768, .f32⟩
  | .local _ .vmem, ⟨1, _⟩ => ⟨S1x1x768x768, .f32⟩
  | .local _ .vmem, ⟨2, _⟩ => ⟨S1x1x768x768, .f32⟩
  | .local _ .vmem, ⟨3, _⟩ => ⟨S1x1x768x768, .f32⟩
  | .local _ .vmem, ⟨4, _⟩ => ⟨S768x8, .f32⟩
  | .local _ .vmem, ⟨5, _⟩ => ⟨S1x3x8x8, .f32⟩
  | .local _ .vmem, ⟨6, _⟩ => ⟨S1x3x8x8, .f32⟩
  | _, _ => ⟨S32x1x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_v41 : Ref sig .tc := ⟨.hbm, 73, rfl⟩
abbrev main_cst_10 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_11 : Ref sig .tc := ⟨.hbm, 78, rfl⟩
abbrev main_v45 : Ref sig .tc := ⟨.hbm, 79, rfl⟩
abbrev main_cst_12 : Ref sig .tc := ⟨.hbm, 80, rfl⟩
abbrev main_v46 : Ref sig .tc := ⟨.hbm, 81, rfl⟩
abbrev main_v47 : Ref sig .tc := ⟨.hbm, 82, rfl⟩
abbrev main_cst_13 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_14 : Ref sig .tc := ⟨.hbm, 88, rfl⟩
abbrev main_v52 : Ref sig .tc := ⟨.hbm, 89, rfl⟩
abbrev main_cst_15 : Ref sig .tc := ⟨.hbm, 90, rfl⟩
abbrev main_v53 : Ref sig .tc := ⟨.hbm, 91, rfl⟩
abbrev main_v54 : Ref sig .tc := ⟨.hbm, 92, rfl⟩
abbrev main_cst_16 : Ref sig .tc := ⟨.hbm, 93, rfl⟩
abbrev main_v55 : Ref sig .tc := ⟨.hbm, 94, rfl⟩
abbrev main_v56 : Ref sig .tc := ⟨.hbm, 95, rfl⟩
abbrev main_cst_17 : Ref sig .tc := ⟨.hbm, 96, rfl⟩
abbrev main_v57 : Ref sig .tc := ⟨.hbm, 97, rfl⟩
abbrev main_c_18 : Ref sig .tc := ⟨.hbm, 98, rfl⟩
abbrev main_v58 : Ref sig .tc := ⟨.hbm, 99, rfl⟩
abbrev main_c_19 : Ref sig .tc := ⟨.hbm, 100, rfl⟩
abbrev main_v59 : Ref sig .tc := ⟨.hbm, 101, rfl⟩
abbrev main_call1_cst : Ref sig .tc := ⟨.hbm, 102, rfl⟩
abbrev main_call1_v0 : Ref sig .tc := ⟨.hbm, 103, rfl⟩
abbrev main_call1_cst_0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_cst_1 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_v60 : Ref sig .tc := ⟨.hbm, 116, rfl⟩
abbrev main_v61 : Ref sig .tc := ⟨.hbm, 117, rfl⟩
abbrev main_call2_c : Ref sig .tc := ⟨.hbm, 118, rfl⟩
abbrev main_call2_v0 : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_c_1 : Ref sig .tc := ⟨.hbm, 126, rfl⟩
abbrev main_call2_c_2 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_3 : Ref sig .tc := ⟨.hbm, 134, rfl⟩
abbrev main_call2_v12 : Ref sig .tc := ⟨.hbm, 135, rfl⟩
abbrev main_call2_v13 : Ref sig .tc := ⟨.hbm, 136, rfl⟩
abbrev main_call2_cst : Ref sig .tc := ⟨.hbm, 137, rfl⟩
abbrev main_call2_v14 : Ref sig .tc := ⟨.hbm, 138, rfl⟩
abbrev main_v62 : Ref sig .tc := ⟨.hbm, 139, rfl⟩
abbrev main_cst_20 : Ref sig .tc := ⟨.hbm, 140, rfl⟩
abbrev main_v63 : Ref sig .tc := ⟨.hbm, 141, rfl⟩
abbrev main_cst_21 : Ref sig .tc := ⟨.hbm, 142, rfl⟩
abbrev main_v64 : Ref sig .tc := ⟨.hbm, 143, rfl⟩
abbrev main_v65 : Ref sig .tc := ⟨.hbm, 144, rfl⟩
abbrev main_call3_cst : Ref sig .tc := ⟨.hbm, 145, rfl⟩
abbrev main_call3_v0 : Ref sig .tc := ⟨.hbm, 146, rfl⟩
abbrev main_call3_cst_0 : Ref sig .tc := ⟨.hbm, 147, rfl⟩
abbrev main_call3_v1 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_v6 : Ref sig .tc := ⟨.hbm, 153, rfl⟩
abbrev main_call3_cst_1 : Ref sig .tc := ⟨.hbm, 154, rfl⟩
abbrev main_call3_v7 : Ref sig .tc := ⟨.hbm, 155, rfl⟩
abbrev main_call3_v8 : Ref sig .tc := ⟨.hbm, 156, rfl⟩
abbrev main_call3_v9 : Ref sig .tc := ⟨.hbm, 157, rfl⟩
abbrev main_call3_v10 : Ref sig .tc := ⟨.hbm, 158, rfl⟩
abbrev main_v66 : Ref sig .tc := ⟨.hbm, 159, rfl⟩
abbrev main_v67 : Ref sig .tc := ⟨.hbm, 160, rfl⟩
abbrev main_call4_c : Ref sig .tc := ⟨.hbm, 161, rfl⟩
abbrev main_call4_v0 : Ref sig .tc := ⟨.hbm, 162, rfl⟩
abbrev main_call4_v1 : Ref sig .tc := ⟨.hbm, 163, rfl⟩
abbrev main_call4_c_0 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_c_1 : Ref sig .tc := ⟨.hbm, 169, rfl⟩
abbrev main_call4_c_2 : Ref sig .tc := ⟨.hbm, 170, rfl⟩
abbrev main_call4_v6 : Ref sig .tc := ⟨.hbm, 171, rfl⟩
abbrev main_call4_v7 : Ref sig .tc := ⟨.hbm, 172, rfl⟩
abbrev main_call4_v8 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_c_3 : Ref sig .tc := ⟨.hbm, 177, rfl⟩
abbrev main_call4_v12 : Ref sig .tc := ⟨.hbm, 178, rfl⟩
abbrev main_call4_v13 : Ref sig .tc := ⟨.hbm, 179, rfl⟩
abbrev main_call4_cst : Ref sig .tc := ⟨.hbm, 180, rfl⟩
abbrev main_call4_v14 : Ref sig .tc := ⟨.hbm, 181, rfl⟩
abbrev main_v68 : Ref sig .tc := ⟨.hbm, 182, rfl⟩
abbrev main_cst_22 : Ref sig .tc := ⟨.hbm, 183, rfl⟩
abbrev main_v69 : Ref sig .tc := ⟨.hbm, 184, rfl⟩
abbrev main_cst_23 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_cst_24 : Ref sig .tc := ⟨.hbm, 189, rfl⟩
abbrev main_v73 : Ref sig .tc := ⟨.hbm, 190, rfl⟩
abbrev main_cst_25 : Ref sig .tc := ⟨.hbm, 191, rfl⟩
abbrev main_v74 : Ref sig .tc := ⟨.hbm, 192, rfl⟩
abbrev main_cst_26 : Ref sig .tc := ⟨.hbm, 193, rfl⟩
abbrev main_v75 : Ref sig .tc := ⟨.hbm, 194, rfl⟩
abbrev main_v76 : Ref sig .tc := ⟨.hbm, 195, rfl⟩
abbrev main_cst_27 : Ref sig .tc := ⟨.hbm, 196, rfl⟩
abbrev main_v77 : Ref sig .tc := ⟨.hbm, 197, rfl⟩
abbrev main_v78 : Ref sig .tc := ⟨.hbm, 198, rfl⟩
abbrev main_cst_28 : Ref sig .tc := ⟨.hbm, 199, rfl⟩
abbrev main_v79 : Ref sig .tc := ⟨.hbm, 200, rfl⟩
abbrev main_v80 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x8x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S768_S768x1_0 : S768.BroadcastsInDim S768x1 (![0] : Fin 1 → Fin S768x1.rank)
  bcast_S_S768x1 : S_.BroadcastsInDim S768x1 (![] : Fin 0 → Fin S768x1.rank)
  bcast_S8_S1x8_1 : S8.BroadcastsInDim S1x8 (![1] : Fin 1 → Fin S1x8.rank)
  bcast_S768x1_S768x8_0_1 : S768x1.BroadcastsInDim S768x8 (![0, 1] : Fin 2 → Fin S768x8.rank)
  bcast_S1x8_S768x8_0_1 : S1x8.BroadcastsInDim S768x8 (![0, 1] : Fin 2 → Fin S768x8.rank)
  inb_S1x1x768x768_S1x1x768x768_0_0_0_0 : ∀ a, (![0, 0, 0, 0] : Fin 4 → Nat) a + S1x1x768x768.size a ≤ S1x1x768x768.size a
  h_S1x1x768x768 : 0 < S1x1x768x768.numel
  shapeCasts_S1x1x768x768_S768x768 : S1x1x768x768.ShapeCasts S768x768
  reduces_S768x768_S768 : S768x768.Reduces [1] S768
  shapeCasts_S768_S768x1 : S768.ShapeCasts S768x1
  reduces_S768x1_S1 : S768x1.Reduces [0] S1
  shapeCasts_S1_S1x1 : S1.ShapeCasts S1x1
  shapeCasts_S768x768_S8x96x768 : S768x768.ShapeCasts S8x96x768
  reduces_S8x96x768_S8x768 : S8x96x768.Reduces [1] S8x768
  inb_S768x8_S768x8_0_0 : ∀ a, (![0, 0] : Fin 2 → Nat) a + S768x8.size a ≤ S768x8.size a
  h_S768x8 : 0 < S768x8.numel
  shapeCasts_S768x8_S768x8 : S768x8.ShapeCasts S768x8
  iota_S8x8_d0_w32 : S8x8.Iotas .tc 32 [0]
  iota_S8x8_d1_w32 : S8x8.Iotas .tc 32 [1]
  shapeCasts_S1x1_S1x1 : S1x1.ShapeCasts S1x1
  broadcasts_S1x1_S8x8 : S1x1.Broadcasts S8x8
  inb_S1x3x8x8_S1x1x8x8_0_0_0_0 : ∀ a, (![0, 0, 0, 0] : Fin 4 → Nat) a + S1x1x8x8.size a ≤ S1x3x8x8.size a
  h_S1x1x8x8 : 0 < S1x1x8x8.numel
  shapeCasts_S1x1x8x8_S8x8 : S1x1x8x8.ShapeCasts S8x8
  shapeCasts_S8x8_S1x1x8x8 : S8x8.ShapeCasts S1x1x8x8
  inb_S1x3x8x8_S1x1x8x8_0_1_0_0 : ∀ a, (![0, 1, 0, 0] : Fin 4 → Nat) a + S1x1x8x8.size a ≤ S1x3x8x8.size a
  inb_S1x3x8x8_S1x1x8x8_0_2_0_0 : ∀ a, (![0, 2, 0, 0] : Fin 4 → Nat) a + S1x1x8x8.size a ≤ S1x3x8x8.size a
  slices_S32x3x8x8_S32x1x8x8_0_0_0_0 : S32x3x8x8.Slices ![0, 0, 0, 0] S32x1x8x8
  shapeCasts_S32x1x8x8_S32x8x8 : S32x1x8x8.ShapeCasts S32x8x8
  slices_S32x3x8x8_S32x1x8x8_0_1_0_0 : S32x3x8x8.Slices ![0, 1, 0, 0] S32x1x8x8
  slices_S32x3x8x8_S32x1x8x8_0_2_0_0 : S32x3x8x8.Slices ![0, 2, 0, 0] S32x1x8x8
  slices_S32x8x8_S32x1x1_0_0_0 : S32x8x8.Slices ![0, 0, 0] S32x1x1
  shapeCasts_S32x1x1_S32 : S32x1x1.ShapeCasts S32
  reducesTo_S32_S_d0 : S32.ReducesTo [0] S_
  h_S_ : 0 < S_.numel
  slices_S32x8x8_S32x1x1_0_0_1 : S32x8x8.Slices ![0, 0, 1] S32x1x1
  slices_S32x8x8_S32x1x1_0_0_2 : S32x8x8.Slices ![0, 0, 2] S32x1x1
  shapeCasts_S32x8x8_S32x2x4x2x4 : S32x8x8.ShapeCasts S32x2x4x2x4
  reducesTo_S32x2x4x2x4_S32x2x2_d2_4 : S32x2x4x2x4.ReducesTo [2, 4] S32x2x2
  reducesTo_S32x2x2_S2x2_d0 : S32x2x2.ReducesTo [0] S2x2
  bcast_S_S2x2 : S_.BroadcastsInDim S2x2 (![] : Fin 0 → Fin S2x2.rank)
  reducesTo_S2x2_S_d0_1 : S2x2.ReducesTo [0, 1] S_
  shapeCasts_S32x8x8_S32x4x2x4x2 : S32x8x8.ShapeCasts S32x4x2x4x2
  reducesTo_S32x4x2x4x2_S32x4x4_d2_4 : S32x4x2x4x2.ReducesTo [2, 4] S32x4x4
  reducesTo_S32x4x4_S4x4_d0 : S32x4x4.ReducesTo [0] S4x4
  bcast_S_S4x4 : S_.BroadcastsInDim S4x4 (![] : Fin 0 → Fin S4x4.rank)
  reducesTo_S4x4_S_d0_1 : S4x4.ReducesTo [0, 1] S_
  reducesTo_S32x8x8_S8x8_d0 : S32x8x8.ReducesTo [0] S8x8
  bcast_S_S8x8 : S_.BroadcastsInDim S8x8 (![] : Fin 0 → Fin S8x8.rank)
  reducesTo_S8x8_S_d0_1 : S8x8.ReducesTo [0, 1] S_
  bcast_S_S32 : S_.BroadcastsInDim S32 (![] : Fin 0 → Fin S32.rank)
  reducesTo_S32x2_S32_d1 : S32x2.ReducesTo [1] S32
  bcast_S32_S32x1_0 : S32.BroadcastsInDim S32x1 (![0] : Fin 1 → Fin S32x1.rank)
  bcast_S32x1_S32x2_0_1 : S32x1.BroadcastsInDim S32x2 (![0, 1] : Fin 2 → Fin S32x2.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  reducesTo_S32x1_S_d0_1 : S32x1.ReducesTo [0, 1] S_
  dot_S8x768_S768x8_S8x8_1_0_0_1_n_n_wf : DotDims.WF S8x768 S768x8 S8x8 [1] [0] [0] [1] [] []
  gather_S32x2_S32x1x1_S32x1_n_1_0_0_1_2_11_wf : GatherDims.WF S32x2 S32x1x1 S32x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x768x768.size a ≤ S32x1x768x768.size a
  hwx0_0 : ∀ i : grid0.Coords, EltTy.bits .f32 = 32 ∨ (Rect.block (s := S32x1x768x768) S1x1x768x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x768x768.size a ≤ S32x1x768x768.size a
  hwx0_1 : ∀ i : grid0.Coords, EltTy.bits .f32 = 32 ∨ (Rect.block (s := S32x1x768x768) S1x1x768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x8.size a ≤ S768x8.size a
  hwx0_2 : ∀ i : grid0.Coords, EltTy.bits .f32 = 32 ∨ (Rect.block (s := S768x8) S768x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x8x8.size a ≤ S32x3x8x8.size a
  hwx0_3 : ∀ i : grid0.Coords, EltTy.bits .f32 = 32 ∨ (Rect.block (s := S32x3x8x8) S1x3x8x8.size (cc0_transform_3 i) (hinb0_3 i)).WholeWords (EltTy.packing .f32)

variable [Facts₀]

def dot_S8x768_S768x8_S8x8_1_0_0_1_n_n : DotDims S8x768 S768x8 S8x8 where
  lhsContracting := [1]
  rhsContracting := [0]
  lhsNonContracting := [0]
  rhsNonContracting := [1]
  lhsBatch := []
  rhsBatch := []
  wf := dot_S8x768_S768x8_S8x8_1_0_0_1_n_n_wf
def gather_S32x2_S32x1x1_S32x1_n_1_0_0_1_2_11 : GatherDims S32x2 S32x1x1 S32x1 where
  offsetDims := []
  collapsedSliceDims := [1]
  operandBatchingDims := [0]
  startIndicesBatchingDims := [0]
  startIndexMap := [1]
  indexVectorDim := 2
  sliceSizes := ![1, 1]
  wf := gather_S32x2_S32x1x1_S32x1_n_1_0_0_1_2_11_wf

abbrev win0_0 : Pipeline.Window sig grid0 :=
  Pipeline.Window.ofSpec (Memref.whole main_arg0) S1x1x768x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x768x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S768x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x3x8x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1x768x768 : Shape := ⟨4, ![32, 1, 768, 768]⟩
abbrev S32x2 : Shape := ⟨2, ![32, 2]⟩
abbrev S_ : Shape := ⟨0, ![]⟩
abbrev S32x1 : Shape := ⟨2, ![32, 1]⟩
abbrev S32 : Shape := ⟨1, ![32]⟩
abbrev S32x1x2x384x2x384 : Shape := ⟨6, ![32, 1, 2, 384, 2, 384]⟩
abbrev S32x1x2x2 : Shape := ⟨4, ![32, 1, 2, 2]⟩
abbrev S2x2 : Shape := ⟨2, ![2, 2]⟩
abbrev S32x1x4x192x4x192 : Shape := ⟨6, ![32, 1, 4, 192, 4, 192]⟩
abbrev S32x1x4x4 : Shape := ⟨4, ![32, 1, 4, 4]⟩
abbrev S4x4 : Shape := ⟨2, ![4, 4]⟩
abbrev S32x1x8x96x8x96 : Shape := ⟨6, ![32, 1, 8, 96, 8, 96]⟩
abbrev S32x1x8x8 : Shape := ⟨4, ![32, 1, 8, 8]⟩
abbrev S8x8 : Shape := ⟨2, ![8, 8]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 177
  | .vmem => 0
  | .smem => 0
  | _ => 0

abbrev hbmTy0_0 (i : Nat) : BufTy := match i % 128 with
  | 0 => ⟨S32x1x768x768, .f32⟩
  | 1 => ⟨S32x1x768x768, .f32⟩
  | 2 => ⟨S32x2, .f32⟩
  | 3 => ⟨S32x2, .f32⟩
  | 4 => ⟨S32x1x768x768, .f32⟩
  | 5 => ⟨S32x1x768x768, .f32⟩
  | 6 => ⟨S_, .f32⟩
  | 7 => ⟨S_, .f32⟩
  | 8 => ⟨S_, .f32⟩
  | 9 => ⟨S_, .f32⟩
  | 10 => ⟨S_, .f32⟩
  | 11 => ⟨S32x1, .f32⟩
  | 12 => ⟨S32, .f32⟩
  | 13 => ⟨S_, .f32⟩
  | 14 => ⟨S32x1, .f32⟩
  | 15 => ⟨S32, .f32⟩
  | 16 => ⟨S32, .f32⟩
  | 17 => ⟨S32, .f32⟩
  | 18 => ⟨S_, .f32⟩
  | 19 => ⟨S_, .f32⟩
  | 20 => ⟨S_, .f32⟩
  | 21 => ⟨S_, .f32⟩
  | 22 => ⟨S32x1x2x384x2x384, .f32⟩
  | 23 => ⟨S_, .f32⟩
  | 24 => ⟨S32x1x2x2, .f32⟩
  | 25 => ⟨S32x1x2x384x2x384, .f32⟩
  | 26 => ⟨S_, .f32⟩
  | 27 => ⟨S32x1x2x2, .f32⟩
  | 28 => ⟨S32x1x2x2, .f32⟩
  | 29 => ⟨S32x1x2x2, .f32⟩
  | 30 => ⟨S_, .f32⟩
  | 31 => ⟨S2x2, .f32⟩
  | 32 => ⟨S_, .f32⟩
  | 33 => ⟨S2x2, .f32⟩
  | 34 => ⟨S2x2, .f32⟩
  | 35 => ⟨S_, .f32⟩
  | 36 => ⟨S_, .f32⟩
  | 37 => ⟨S_, .f32⟩
  | 38 => ⟨S_, .f32⟩
  | 39 => ⟨S32x1x4x192x4x192, .f32⟩
  | 40 => ⟨S_, .f32⟩
  | 41 => ⟨S32x1x4x4, .f32⟩
  | 42 => ⟨S32x1x4x192x4x192, .f32⟩
  | 43 => ⟨S_, .f32⟩
  | 44 => ⟨S32x1x4x4, .f32⟩
  | 45 => ⟨S32x1x4x4, .f32⟩
  | 46 => ⟨S32x1x4x4, .f32⟩
  | 47 => ⟨S_, .f32⟩
  | 48 => ⟨S4x4, .f32⟩
  | 49 => ⟨S_, .f32⟩
  | 50 => ⟨S4x4, .f32⟩
  | 51 => ⟨S4x4, .f32⟩
  | 52 => ⟨S_, .f32⟩
  | 53 => ⟨S_, .f32⟩
  | 54 => ⟨S_, .f32⟩
  | 55 => ⟨S32x1x8x96x8x96, .f32⟩
  | 56 => ⟨S_, .f32⟩
  | 57 => ⟨S32x1x8x8, .f32⟩
  | 58 => ⟨S32x1x8x96x8x96, .f32⟩
  | 59 => ⟨S_, .f32⟩
  | 60 => ⟨S32x1x8x8, .f32⟩
  | 61 => ⟨S32x1x8x8, .f32⟩
  | 62 => ⟨S32x1x8x8, .f32⟩
  | 63 => ⟨S_, .f32⟩
  | 64 => ⟨S8x8, .f32⟩
  | 65 => ⟨S_, .f32⟩
  | 66 => ⟨S8x8, .f32⟩
  | 67 => ⟨S8x8, .f32⟩
  | 68 => ⟨S_, .f32⟩
  | 69 => ⟨S_, .f32⟩
  | 70 => ⟨S_, .f32⟩
  | 71 => ⟨S_, .f32⟩
  | 72 => ⟨S_, .f32⟩
  | 73 => ⟨S_, .i32⟩
  | 74 => ⟨S32, .i32⟩
  | 75 => ⟨S_, .i32⟩
  | 76 => ⟨S32, .i32⟩
  | 77 => ⟨S_, .f32⟩
  | 78 => ⟨S32, .f32⟩
  | 79 => ⟨S_, .f32⟩
  | 80 => ⟨S32, .f32⟩
  | 81 => ⟨S32, .f32⟩
  | 82 => ⟨S32x1, .f32⟩
  | 83 => ⟨S32x2, .f32⟩
  | 84 => ⟨S32x2, .f32⟩
  | 85 => ⟨S32x2, .f32⟩
  | 86 => ⟨S_, .f32⟩
  | 87 => ⟨S32, .f32⟩
  | 88 => ⟨S32x1, .f32⟩
  | 89 => ⟨S32x1, .f32⟩
  | 90 => ⟨S32x2, .f32⟩
  | 91 => ⟨S32x2, .f32⟩
  | 92 => ⟨S32x1, .i32⟩
  | 93 => ⟨S_, .i32⟩
  | 94 => ⟨S32x1, .i32⟩
  | 95 => ⟨S32x1, .i1⟩
  | 96 => ⟨S_, .i32⟩
  | 97 => ⟨S32x1, .i32⟩
  | 98 => ⟨S32x1, .i32⟩
  | 99 => ⟨S32x1, .i32⟩
  | 100 => ⟨S32x1x1, .i32⟩
  | 101 => ⟨S1, .i32⟩
  | 102 => ⟨S_, .i32⟩
  | 103 => ⟨S32x1x1, .i32⟩
  | 104 => ⟨S32x1x1, .i1⟩
  | 105 => ⟨S1x1x1, .i32⟩
  | 106 => ⟨S32x1x1, .i32⟩
  | 107 => ⟨S32x1x1, .i1⟩
  | 108 => ⟨S32x1x1, .i1⟩
  | 109 => ⟨S_, .i1⟩
  | 110 => ⟨S32x1, .i1⟩
  | 111 => ⟨S32x1, .f32⟩
  | 112 => ⟨S_, .f32⟩
  | 113 => ⟨S32x1, .f32⟩
  | 114 => ⟨S32x1, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S32, .f32⟩
  | 122 => ⟨S_, .f32⟩
  | 123 => ⟨S32, .f32⟩
  | 124 => ⟨S32, .f32⟩
  | 125 => ⟨S32x1, .f32⟩
  | 126 => ⟨S32x2, .f32⟩
  | 127 => ⟨S32x2, .f32⟩
  | _ => ⟨S32x1x768x768, .f32⟩

abbrev hbmTy0_1 (i : Nat) : BufTy := match i % 128 with
  | 0 => ⟨S32x2, .f32⟩
  | 1 => ⟨S_, .f32⟩
  | 2 => ⟨S32, .f32⟩
  | 3 => ⟨S32x1, .f32⟩
  | 4 => ⟨S32x1, .f32⟩
  | 5 => ⟨S32x2, .f32⟩
  | 6 => ⟨S32x2, .f32⟩
  | 7 => ⟨S32x1, .i32⟩
  | 8 => ⟨S_, .i32⟩
  | 9 => ⟨S32x1, .i32⟩
  | 10 => ⟨S32x1, .i1⟩
  | 11 => ⟨S_, .i32⟩
  | 12 => ⟨S32x1, .i32⟩
  | 13 => ⟨S32x1, .i32⟩
  | 14 => ⟨S32x1, .i32⟩
  | 15 => ⟨S32x1x1, .i32⟩
  | 16 => ⟨S1, .i32⟩
  | 17 => ⟨S_, .i32⟩
  | 18 => ⟨S32x1x1, .i32⟩
  | 19 => ⟨S32x1x1, .i1⟩
  | 20 => ⟨S1x1x1, .i32⟩
  | 21 => ⟨S32x1x1, .i32⟩
  | 22 => ⟨S32x1x1, .i1⟩
  | 23 => ⟨S32x1x1, .i1⟩
  | 24 => ⟨S_, .i1⟩
  | 25 => ⟨S32x1, .i1⟩
  | 26 => ⟨S32x1, .f32⟩
  | 27 => ⟨S_, .f32⟩
  | 28 => ⟨S32x1, .f32⟩
  | 29 => ⟨S32x1, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | _ => ⟨S32x1x768x768, .f32⟩

abbrev hbmTy (i : Nat) : BufTy := match i / 128 with
  | 0 => hbmTy0_0 i
  | 1 => hbmTy0_1 i
  | _ => ⟨S32x1x768x768, .f32⟩

abbrev bufTy : (tb : Table) → Fin (tcTables nBuf tb) → BufTy
  | .hbm, ⟨i, _⟩ => hbmTy i
  | _, _ => ⟨S32x1x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_cst_9 : Ref sig .tc := ⟨.hbm, 35, rfl⟩
abbrev main_v21 : Ref sig .tc := ⟨.hbm, 36, rfl⟩
abbrev main_cst_10 : Ref sig .tc := ⟨.hbm, 37, rfl⟩
abbrev main_v22 : Ref sig .tc := ⟨.hbm, 38, rfl⟩
abbrev main_v23 : Ref sig .tc := ⟨.hbm, 39, rfl⟩
abbrev main_cst_11 : Ref sig .tc := ⟨.hbm, 40, rfl⟩
abbrev main_v24 : Ref sig .tc := ⟨.hbm, 41, rfl⟩
abbrev main_v25 : Ref sig .tc := ⟨.hbm, 42, rfl⟩
abbrev main_cst_12 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_13 : Ref sig .tc := ⟨.hbm, 47, rfl⟩
abbrev main_v29 : Ref sig .tc := ⟨.hbm, 48, rfl⟩
abbrev main_cst_14 : Ref sig .tc := ⟨.hbm, 49, rfl⟩
abbrev main_v30 : Ref sig .tc := ⟨.hbm, 50, rfl⟩
abbrev main_v31 : Ref sig .tc := ⟨.hbm, 51, rfl⟩
abbrev main_cst_15 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_16 : Ref sig .tc := ⟨.hbm, 56, rfl⟩
abbrev main_v35 : Ref sig .tc := ⟨.hbm, 57, rfl⟩
abbrev main_v36 : Ref sig .tc := ⟨.hbm, 58, rfl⟩
abbrev main_cst_17 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_18 : Ref sig .tc := ⟨.hbm, 63, rfl⟩
abbrev main_v40 : Ref sig .tc := ⟨.hbm, 64, rfl⟩
abbrev main_cst_19 : Ref sig .tc := ⟨.hbm, 65, rfl⟩
abbrev main_v41 : Ref sig .tc := ⟨.hbm, 66, rfl⟩
abbrev main_v42 : Ref sig .tc := ⟨.hbm, 67, rfl⟩
abbrev main_cst_20 : Ref sig .tc := ⟨.hbm, 68, rfl⟩
abbrev main_v43 : Ref sig .tc := ⟨.hbm, 69, rfl⟩
abbrev main_v44 : Ref sig .tc := ⟨.hbm, 70, rfl⟩
abbrev main_cst_21 : Ref sig .tc := ⟨.hbm, 71, rfl⟩
abbrev main_v45 : Ref sig .tc := ⟨.hbm, 72, rfl⟩
abbrev main_c : Ref sig .tc := ⟨.hbm, 73, rfl⟩
abbrev main_v46 : Ref sig .tc := ⟨.hbm, 74, rfl⟩
abbrev main_c_22 : Ref sig .tc := ⟨.hbm, 75, rfl⟩
abbrev main_v47 : Ref sig .tc := ⟨.hbm, 76, rfl⟩
abbrev main_call0_cst : Ref sig .tc := ⟨.hbm, 77, rfl⟩
abbrev main_call0_v0 : Ref sig .tc := ⟨.hbm, 78, rfl⟩
abbrev main_call0_cst_0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_cst_1 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_v48 : Ref sig .tc := ⟨.hbm, 91, rfl⟩
abbrev main_v49 : Ref sig .tc := ⟨.hbm, 92, rfl⟩
abbrev main_call1_c : Ref sig .tc := ⟨.hbm, 93, rfl⟩
abbrev main_call1_v0 : Ref sig .tc := ⟨.hbm, 94, rfl⟩
abbrev main_call1_v1 : Ref sig .tc := ⟨.hbm, 95, rfl⟩
abbrev main_call1_c_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_c_1 : Ref sig .tc := ⟨.hbm, 101, rfl⟩
abbrev main_call1_c_2 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_3 : Ref sig .tc := ⟨.hbm, 109, rfl⟩
abbrev main_call1_v12 : Ref sig .tc := ⟨.hbm, 110, rfl⟩
abbrev main_call1_v13 : Ref sig .tc := ⟨.hbm, 111, rfl⟩
abbrev main_call1_cst : Ref sig .tc := ⟨.hbm, 112, rfl⟩
abbrev main_call1_v14 : Ref sig .tc := ⟨.hbm, 113, rfl⟩
abbrev main_v50 : Ref sig .tc := ⟨.hbm, 114, rfl⟩
abbrev main_cst_23 : Ref sig .tc := ⟨.hbm, 115, rfl⟩
abbrev main_v51 : Ref sig .tc := ⟨.hbm, 116, rfl⟩
abbrev main_cst_24 : Ref sig .tc := ⟨.hbm, 117, rfl⟩
abbrev main_v52 : Ref sig .tc := ⟨.hbm, 118, rfl⟩
abbrev main_v53 : Ref sig .tc := ⟨.hbm, 119, rfl⟩
abbrev main_call2_cst : Ref sig .tc := ⟨.hbm, 120, rfl⟩
abbrev main_call2_v0 : Ref sig .tc := ⟨.hbm, 121, rfl⟩
abbrev main_call2_cst_0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_cst_1 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_v54 : Ref sig .tc := ⟨.hbm, 134, rfl⟩
abbrev main_v55 : Ref sig .tc := ⟨.hbm, 135, rfl⟩
abbrev main_call3_c : Ref sig .tc := ⟨.hbm, 136, rfl⟩
abbrev main_call3_v0 : Ref sig .tc := ⟨.hbm, 137, rfl⟩
abbrev main_call3_v1 : Ref sig .tc := ⟨.hbm, 138, rfl⟩
abbrev main_call3_c_0 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_c_1 : Ref sig .tc := ⟨.hbm, 144, rfl⟩
abbrev main_call3_c_2 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_call3_v11 : Ref sig .tc := ⟨.hbm, 151, rfl⟩
abbrev main_call3_c_3 : Ref sig .tc := ⟨.hbm, 152, rfl⟩
abbrev main_call3_v12 : Ref sig .tc := ⟨.hbm, 153, rfl⟩
abbrev main_call3_v13 : Ref sig .tc := ⟨.hbm, 154, rfl⟩
abbrev main_call3_cst : Ref sig .tc := ⟨.hbm, 155, rfl⟩
abbrev main_call3_v14 : Ref sig .tc := ⟨.hbm, 156, rfl⟩
abbrev main_v56 : Ref sig .tc := ⟨.hbm, 157, rfl⟩
abbrev main_cst_25 : Ref sig .tc := ⟨.hbm, 158, rfl⟩
abbrev main_v57 : Ref sig .tc := ⟨.hbm, 159, rfl⟩
abbrev main_cst_26 : Ref sig .tc := ⟨.hbm, 160, rfl⟩
abbrev main_v58 : Ref sig .tc := ⟨.hbm, 161, rfl⟩
abbrev main_v59 : Ref sig .tc := ⟨.hbm, 162, rfl⟩
abbrev main_v60 : Ref sig .tc := ⟨.hbm, 163, rfl⟩
abbrev main_cst_27 : Ref sig .tc := ⟨.hbm, 164, rfl⟩
abbrev main_v61 : Ref sig .tc := ⟨.hbm, 165, rfl⟩
abbrev main_cst_28 : Ref sig .tc := ⟨.hbm, 166, rfl⟩
abbrev main_v62 : Ref sig .tc := ⟨.hbm, 167, rfl⟩
abbrev main_cst_29 : Ref sig .tc := ⟨.hbm, 168, rfl⟩
abbrev main_v63 : Ref sig .tc := ⟨.hbm, 169, rfl⟩
abbrev main_v64 : Ref sig .tc := ⟨.hbm, 170, rfl⟩
abbrev main_cst_30 : Ref sig .tc := ⟨.hbm, 171, rfl⟩
abbrev main_v65 : Ref sig .tc := ⟨.hbm, 172, rfl⟩
abbrev main_v66 : Ref sig .tc := ⟨.hbm, 173, rfl⟩
abbrev main_cst_31 : Ref sig .tc := ⟨.hbm, 174, rfl⟩
abbrev main_v67 : Ref sig .tc := ⟨.hbm, 175, rfl⟩
abbrev main_v68 : Ref sig .tc := ⟨.hbm, 176, rfl⟩

abbrev nD : Nat := 1
abbrev τ : Topo := Topo.v7x

variable {F : FTy → Type} [FloatOps F]

class Facts₀ : Prop where
  reducesTo_S32x1x768x768_S_d0_1_2_3 : S32x1x768x768.ReducesTo [0, 1, 2, 3] S_
  h_S_ : 0 < S_.numel
  reducesTo_S32x1x768x768_S32x1_d2_3 : S32x1x768x768.ReducesTo [2, 3] S32x1
  shapeCasts_S32x1_S32 : S32x1.ShapeCasts S32
  reducesTo_S32_S_d0 : S32.ReducesTo [0] S_
  shapeCasts_S32x1x768x768_S32x1x2x384x2x384 : S32x1x768x768.ShapeCasts S32x1x2x384x2x384
  reducesTo_S32x1x2x384x2x384_S32x1x2x2_d3_5 : S32x1x2x384x2x384.ReducesTo [3, 5] S32x1x2x2
  reducesTo_S32x1x2x2_S2x2_d0_1 : S32x1x2x2.ReducesTo [0, 1] S2x2
  bcast_S_S2x2 : S_.BroadcastsInDim S2x2 (![] : Fin 0 → Fin S2x2.rank)
  reducesTo_S2x2_S_d0_1 : S2x2.ReducesTo [0, 1] S_
  shapeCasts_S32x1x768x768_S32x1x4x192x4x192 : S32x1x768x768.ShapeCasts S32x1x4x192x4x192
  reducesTo_S32x1x4x192x4x192_S32x1x4x4_d3_5 : S32x1x4x192x4x192.ReducesTo [3, 5] S32x1x4x4
  reducesTo_S32x1x4x4_S4x4_d0_1 : S32x1x4x4.ReducesTo [0, 1] S4x4
  bcast_S_S4x4 : S_.BroadcastsInDim S4x4 (![] : Fin 0 → Fin S4x4.rank)
  reducesTo_S4x4_S_d0_1 : S4x4.ReducesTo [0, 1] S_
  shapeCasts_S32x1x768x768_S32x1x8x96x8x96 : S32x1x768x768.ShapeCasts S32x1x8x96x8x96
  reducesTo_S32x1x8x96x8x96_S32x1x8x8_d3_5 : S32x1x8x96x8x96.ReducesTo [3, 5] S32x1x8x8
  reducesTo_S32x1x8x8_S8x8_d0_1 : S32x1x8x8.ReducesTo [0, 1] S8x8
  bcast_S_S8x8 : S_.BroadcastsInDim S8x8 (![] : Fin 0 → Fin S8x8.rank)
  reducesTo_S8x8_S_d0_1 : S8x8.ReducesTo [0, 1] S_
  bcast_S_S32 : S_.BroadcastsInDim S32 (![] : Fin 0 → Fin S32.rank)
  reducesTo_S32x2_S32_d1 : S32x2.ReducesTo [1] S32
  bcast_S32_S32x1_0 : S32.BroadcastsInDim S32x1 (![0] : Fin 1 → Fin S32x1.rank)
  bcast_S32x1_S32x2_0_1 : S32x1.BroadcastsInDim S32x2 (![0, 1] : Fin 2 → Fin S32x2.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  reducesTo_S32x1_S_d0_1 : S32x1.ReducesTo [0, 1] S_
  gather_S32x2_S32x1x1_S32x1_n_1_0_0_1_2_11_wf : GatherDims.WF S32x2 S32x1x1 S32x1 [] [1] [0] [1] [0] 2 ![1, 1]

variable [Facts₀]

def gather_S32x2_S32x1x1_S32x1_n_1_0_0_1_2_11 : GatherDims S32x2 S32x1x1 S32x1 where
  offsetDims := []
  collapsedSliceDims := [1]
  operandBatchingDims := [0]
  startIndicesBatchingDims := [0]
  startIndexMap := [1]
  indexVectorDim := 2
  sliceSizes := ![1, 1]
  wf := gather_S32x2_S32x1x1_S32x1_n_1_0_0_1_2_11_wf

class Facts : Prop extends Facts₀ where

variable [Facts]
-- ==== Proof.KHost.lean ====
import proofs.«143279_j39702677684512_1_alg».proof.Proof.Gen.Kernel.Launch
import proofs.«143279_j39702677684512_1_alg».proof.Proof.Gen.Kernel.Points
import Idealize.ShloMosaic.Lib.Pipeline.FrameBody
import Idealize.ShloMosaic.Lib.Pipeline.FrameSuffix

/-!
# The host program around the one kernel launch

The entry function is three stretches of host operations (they build the 768 x 8 pooling matrix), the kernel
launch over its grid of 32 points, and nine further stretches (the losses computed from the 32 x 3 x 8 x 8
statistics array). This module collects what the launch theorem asks of those stretches: none allocates,
each touches unscoped buffers only, no operation before the launch writes an argument, and no operation
after it writes an argument or one of the four arrays the launch stages.
-/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the launch, -/
abbrev preOps : List (List (HloOp τ sig (Elt F))) := [hostOps0, hostOps0_1, hostOps0_2]
/-- and after it. -/
abbrev postOps : List (List (HloOp τ sig (Elt F))) := [hostOps1, hostOps1_1, hostOps1_2, hostOps1_3, hostOps1_4, hostOps1_5, hostOps1_6, hostOps1_7, hostOps1_8]

/-- A property of every operation of every stretch holds of every operation of the stretches laid end to end. -/
theorem forall_mem_flatten_of {α : Type} {P : α → Prop} (Ls : List (List α)) (h : Ls.Forall fun l => l.Forall P) :
    ∀ op ∈ Ls.flatten, P op := by
  intro op hop
  obtain ⟨l, hl, hop⟩ := List.mem_flatten.mp hop
  exact (List.forall_iff_forall_mem.mp ((List.forall_iff_forall_mem.mp h) l hl)) op hop

/-- The same, stretch by stretch. -/
theorem forall_mem_of {α : Type} {P : α → Prop} (Ls : List (List α)) (h : Ls.Forall fun l => l.Forall P) :
    ∀ l ∈ Ls, ∀ op ∈ l, P op :=
  fun l hl op hop => (List.forall_iff_forall_mem.mp ((List.forall_iff_forall_mem.mp h) l hl)) op hop

/-! ## Nothing is allocated -/

theorem hostOps0_fresh : (hostOps0 : List (HloOp τ sig (Elt F))).Forall fun op => op.fresh = ∅ := by
  simp only [hostOps0, List.Forall]; repeat' constructor
theorem hostOps0_1_fresh : (hostOps0_1 : List (HloOp τ sig (Elt F))).Forall fun op => op.fresh = ∅ := by
  simp only [hostOps0_1, List.Forall]; repeat' constructor
theorem hostOps0_2_fresh : (hostOps0_2 : List (HloOp τ sig (Elt F))).Forall fun op => op.fresh = ∅ := by
  simp only [hostOps0_2, List.Forall]; repeat' constructor
theorem hostOps1_fresh : (hostOps1 : List (HloOp τ sig (Elt F))).Forall fun op => op.fresh = ∅ := by
  simp only [hostOps1, List.Forall]; repeat' constructor
theorem hostOps1_1_fresh : (hostOps1_1 : List (HloOp τ sig (Elt F))).Forall fun op => op.fresh = ∅ := by
  simp only [hostOps1_1, List.Forall]; repeat' constructor
theorem hostOps1_2_fresh : (hostOps1_2 : List (HloOp τ sig (Elt F))).Forall fun op => op.fresh = ∅ := by
  simp only [hostOps1_2, List.Forall]; repeat' constructor
theorem hostOps1_3_fresh : (hostOps1_3 : List (HloOp τ sig (Elt F))).Forall fun op => op.fresh = ∅ := by
  simp only [hostOps1_3, List.Forall]; repeat' constructor
theorem hostOps1_4_fresh : (hostOps1_4 : List (HloOp τ sig (Elt F))).Forall fun op => op.fresh = ∅ := by
  simp only [hostOps1_4, List.Forall]; repeat' constructor
theorem hostOps1_5_fresh : (hostOps1_5 : List (HloOp τ sig (Elt F))).Forall fun op => op.fresh = ∅ := by
  simp only [hostOps1_5, List.Forall]; repeat' constructor
theorem hostOps1_6_fresh : (hostOps1_6 : List (HloOp τ sig (Elt F))).Forall fun op => op.fresh = ∅ := by
  simp only [hostOps1_6, List.Forall]; repeat' constructor
theorem hostOps1_7_fresh : (hostOps1_7 : List (HloOp τ sig (Elt F))).Forall fun op => op.fresh = ∅ := by
  simp only [hostOps1_7, List.Forall]; repeat' constructor
theorem hostOps1_8_fresh : (hostOps1_8 : List (HloOp τ sig (Elt F))).Forall fun op => op.fresh = ∅ := by
  simp only [hostOps1_8, List.Forall]; repeat' constructor

theorem preOps_sub : (preOps : List (List (HloOp τ sig (Elt F)))).Forall fun ops => ops.Forall fun op => op.bufs ⊆ StableHlo.tcRefs τ sig := by
  simp only [List.Forall]; exact ⟨hostOps0_sub, hostOps0_1_sub, hostOps0_2_sub⟩
theorem preOps_fresh : (preOps : List (List (HloOp τ sig (Elt F)))).Forall fun ops => ops.Forall fun op => op.fresh = ∅ := by
  simp only [List.Forall]; exact ⟨hostOps0_fresh, hostOps0_1_fresh, hostOps0_2_fresh⟩
theorem postOps_sub : (postOps : List (List (HloOp τ sig (Elt F)))).Forall fun ops => ops.Forall fun op => op.bufs ⊆ StableHlo.tcRefs τ sig := by
  simp only [List.Forall]; exact ⟨hostOps1_sub, hostOps1_1_sub, hostOps1_2_sub, hostOps1_3_sub, hostOps1_4_sub, hostOps1_5_sub, hostOps1_6_sub, hostOps1_7_sub, hostOps1_8_sub⟩
theorem postOps_fresh : (postOps : List (List (HloOp τ sig (Elt F)))).Forall fun ops => ops.Forall fun op => op.fresh = ∅ := by
  simp only [List.Forall]; exact ⟨hostOps1_fresh, hostOps1_1_fresh, hostOps1_2_fresh, hostOps1_3_fresh, hostOps1_4_fresh, hostOps1_5_fresh, hostOps1_6_fresh, hostOps1_7_fresh, hostOps1_8_fresh⟩

/-! ## Which buffers the stretches leave alone

Every host operation writes its one result buffer, so "this stretch writes none of these buffers" is a list of
inequalities between buffer names, each decided. -/

/-- An operation writes none of the four arguments. -/
def KeepsArgs (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes
/-- An operation writes neither the pooling matrix nor the statistics array. -/
def KeepsStaged (op : HloOp τ sig (Elt F)) : Prop :=
  Proc.devRef .tc main_v8 ∉ op.writes ∧ Proc.devRef .tc main_v9 ∉ op.writes

theorem hostOps0_keepsArgs : (hostOps0 : List (HloOp τ sig (Elt F))).Forall KeepsArgs := by
  simp only [hostOps0, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_1_keepsArgs : (hostOps0_1 : List (HloOp τ sig (Elt F))).Forall KeepsArgs := by
  simp only [hostOps0_1, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_2_keepsArgs : (hostOps0_2 : List (HloOp τ sig (Elt F))).Forall KeepsArgs := by
  simp only [hostOps0_2, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_keepsArgs : (hostOps1 : List (HloOp τ sig (Elt F))).Forall KeepsArgs := by
  simp only [hostOps1, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_1_keepsArgs : (hostOps1_1 : List (HloOp τ sig (Elt F))).Forall KeepsArgs := by
  simp only [hostOps1_1, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_2_keepsArgs : (hostOps1_2 : List (HloOp τ sig (Elt F))).Forall KeepsArgs := by
  simp only [hostOps1_2, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_3_keepsArgs : (hostOps1_3 : List (HloOp τ sig (Elt F))).Forall KeepsArgs := by
  simp only [hostOps1_3, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_4_keepsArgs : (hostOps1_4 : List (HloOp τ sig (Elt F))).Forall KeepsArgs := by
  simp only [hostOps1_4, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_5_keepsArgs : (hostOps1_5 : List (HloOp τ sig (Elt F))).Forall KeepsArgs := by
  simp only [hostOps1_5, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_6_keepsArgs : (hostOps1_6 : List (HloOp τ sig (Elt F))).Forall KeepsArgs := by
  simp only [hostOps1_6, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_7_keepsArgs : (hostOps1_7 : List (HloOp τ sig (Elt F))).Forall KeepsArgs := by
  simp only [hostOps1_7, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_8_keepsArgs : (hostOps1_8 : List (HloOp τ sig (Elt F))).Forall KeepsArgs := by
  simp only [hostOps1_8, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_keepsStaged : (hostOps1 : List (HloOp τ sig (Elt F))).Forall KeepsStaged := by
  simp only [hostOps1, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_1_keepsStaged : (hostOps1_1 : List (HloOp τ sig (Elt F))).Forall KeepsStaged := by
  simp only [hostOps1_1, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_2_keepsStaged : (hostOps1_2 : List (HloOp τ sig (Elt F))).Forall KeepsStaged := by
  simp only [hostOps1_2, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_3_keepsStaged : (hostOps1_3 : List (HloOp τ sig (Elt F))).Forall KeepsStaged := by
  simp only [hostOps1_3, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_4_keepsStaged : (hostOps1_4 : List (HloOp τ sig (Elt F))).Forall KeepsStaged := by
  simp only [hostOps1_4, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_5_keepsStaged : (hostOps1_5 : List (HloOp τ sig (Elt F))).Forall KeepsStaged := by
  simp only [hostOps1_5, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_6_keepsStaged : (hostOps1_6 : List (HloOp τ sig (Elt F))).Forall KeepsStaged := by
  simp only [hostOps1_6, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_7_keepsStaged : (hostOps1_7 : List (HloOp τ sig (Elt F))).Forall KeepsStaged := by
  simp only [hostOps1_7, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_8_keepsStaged : (hostOps1_8 : List (HloOp τ sig (Elt F))).Forall KeepsStaged := by
  simp only [hostOps1_8, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem preOps_keepsArgs : (preOps : List (List (HloOp τ sig (Elt F)))).Forall fun ops => ops.Forall KeepsArgs := by
  simp only [List.Forall]; exact ⟨hostOps0_keepsArgs, hostOps0_1_keepsArgs, hostOps0_2_keepsArgs⟩
theorem postOps_keepsArgs : (postOps : List (List (HloOp τ sig (Elt F)))).Forall fun ops => ops.Forall KeepsArgs := by
  simp only [List.Forall]; exact ⟨hostOps1_keepsArgs, hostOps1_1_keepsArgs, hostOps1_2_keepsArgs, hostOps1_3_keepsArgs, hostOps1_4_keepsArgs, hostOps1_5_keepsArgs, hostOps1_6_keepsArgs, hostOps1_7_keepsArgs, hostOps1_8_keepsArgs⟩
theorem postOps_keepsStaged : (postOps : List (List (HloOp τ sig (Elt F)))).Forall fun ops => ops.Forall KeepsStaged := by
  simp only [List.Forall]; exact ⟨hostOps1_keepsStaged, hostOps1_1_keepsStaged, hostOps1_2_keepsStaged, hostOps1_3_keepsStaged, hostOps1_4_keepsStaged, hostOps1_5_keepsStaged, hostOps1_6_keepsStaged, hostOps1_7_keepsStaged, hostOps1_8_keepsStaged⟩

/-! ## The entry function around the launch -/

/-- Core `c`'s buffer contents when the launch is reached: the launch memory after the three stretches before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- The entry function is the stretches before the launch, the launch, and the stretches after it; so it runs
    as the launch continued by the later stretches, from the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((postOps (F := F)).map StableHlo.seq)) :=
  Pipeline.hmain_around cfgs 0 defs₀ 𝒱₀ m main preOps postOps preOps_sub preOps_fresh main_chain

/-- The four arrays the launch stages are the two density arguments, the pooling matrix and the statistics array. -/
theorem arr_cases : ∀ w : Fin 4, Pipeline.arrRef spec0 w = main_arg0 ∨ Pipeline.arrRef spec0 w = main_arg1
    ∨ Pipeline.arrRef spec0 w = main_v8 ∨ Pipeline.arrRef spec0 w = main_v9 := by decide

/-- The later stretches touch unscoped TensorCore buffers only, -/
theorem sfx_sub : ∀ ops ∈ (postOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_mem_of _ postOps_sub ops hops op hop)
/-- allocate nothing, -/
theorem sfx_fresh : ∀ ops ∈ (postOps : List (List (HloOp τ sig (Elt F)))), ∀ op ∈ ops, op.fresh = ∅ :=
  forall_mem_of _ postOps_fresh
/-- and write none of the four staged arrays. -/
theorem sfx_keeps : ∀ ops ∈ (postOps : List (List (HloOp τ sig (Elt F)))), ∀ op ∈ ops,
    ∀ w, Proc.devRef .tc (Pipeline.arrRef spec0 w) ∉ op.writes := by
  intro ops hops op hop w
  have ha := forall_mem_of _ postOps_keepsArgs ops hops op hop
  have hs := forall_mem_of _ postOps_keepsStaged ops hops op hop
  rcases arr_cases w with h | h | h | h <;> rw [h]
  · exact ha.1
  · exact ha.2.1
  · exact hs.1
  · exact hs.2

/-- No host operation before the launch writes an argument: the launch finds each as it was at the start. -/
theorem V_main_arg0 (c : Dev nD) : V m c main_arg0 = m ((c : Thread nD τ).loc main_arg0) :=
  StableHlo.after_of_forall_not_mem (b := Proc.devRef .tc main_arg0) _ _ (fun op hop => (forall_mem_flatten_of _ preOps_keepsArgs op hop).1)
theorem V_main_arg1 (c : Dev nD) : V m c main_arg1 = m ((c : Thread nD τ).loc main_arg1) :=
  StableHlo.after_of_forall_not_mem (b := Proc.devRef .tc main_arg1) _ _ (fun op hop => (forall_mem_flatten_of _ preOps_keepsArgs op hop).2.1)
theorem V_main_arg2 (c : Dev nD) : V m c main_arg2 = m ((c : Thread nD τ).loc main_arg2) :=
  StableHlo.after_of_forall_not_mem (b := Proc.devRef .tc main_arg2) _ _ (fun op hop => (forall_mem_flatten_of _ preOps_keepsArgs op hop).2.2.1)
theorem V_main_arg3 (c : Dev nD) : V m c main_arg3 = m ((c : Thread nD τ).loc main_arg3) :=
  StableHlo.after_of_forall_not_mem (b := Proc.devRef .tc main_arg3) _ _ (fun op hop => (forall_mem_flatten_of _ preOps_keepsArgs op hop).2.2.2)

/-- No host operation after the launch writes `main_arg2`, and the launch does not stage it: it ends as it was at the start. -/
theorem W_main_arg2 (dats : (p : Fin _) → (c : Dev nD) → Dat τ (Elt F) Unit ℕ (UR sig nD τ) ℕ (cfgs p) c) (c : Dev nD) :
    Pipeline.afterTail₀ cfgs dats 0 (V0 m) postOps c main_arg2 = m ((c : Thread nD τ).loc main_arg2) := by
  unfold Pipeline.afterTail₀
  rw [StableHlo.after_of_forall_not_mem (b := Proc.devRef .tc main_arg2) _ _ (fun op hop => (forall_mem_flatten_of _ postOps_keepsArgs op hop).2.2.1),
    Pipeline.withArrays_of_ne _ c (V0 m c) _ main_arg2 (by exact (by decide : ∀ w, Pipeline.arrRef spec0 w ≠ main_arg2))]
  exact V_main_arg2 m c
/-- The same for `main_arg3`. -/
theorem W_main_arg3 (dats : (p : Fin _) → (c : Dev nD) → Dat τ (Elt F) Unit ℕ (UR sig nD τ) ℕ (cfgs p) c) (c : Dev nD) :
    Pipeline.afterTail₀ cfgs dats 0 (V0 m) postOps c main_arg3 = m ((c : Thread nD τ).loc main_arg3) := by
  unfold Pipeline.afterTail₀
  rw [StableHlo.after_of_forall_not_mem (b := Proc.devRef .tc main_arg3) _ _ (fun op hop => (forall_mem_flatten_of _ postOps_keepsArgs op hop).2.2.2),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether the point fetched it or an earlier one did. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether the point fetched it or an earlier one did. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether the point fetched it or an earlier one did. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch theorem -/

/-- A run that ends with every staged array at what the launch computes and every other unscoped buffer as
    the later stretches leave it ends, in particular, with the four arguments as they were at the start: the two
    density arrays are staged inputs (an input array is never written back), the two logit arrays are not staged
    and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) postOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

end Cert.Kernel.Frm

end
-- ==== Proof.KBody.lean ====
import proofs.«143279_j39702677684512_1_alg».proof.Proof.Gen.Kernel.Skeleton
import Idealize.ShloMosaic.Lib.Pipeline.FrameBody
import Idealize.ShloMosaic.Lib.Ring
import Idealize.ShloMosaic.Lib.Tactic

/-!
# One grid point of the kernel

At a grid point the body reads one 768 x 768 image block of each density array and the 768 x 8 pooling matrix,
and writes the 3 x 8 x 8 statistics block in three 8 x 8 planes: the pooled cell sums of the first image, those
of the second, and a plane holding the three scalar totals in its first row. The three stores tile the block, so
what the block holds afterwards is a function of the three inputs alone, whatever it held before.
-/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The whole image block, the whole pooling matrix, and the three planes of the statistics block. -/
abbrev rIn : Rect S1x1x768x768 := Rect.unit (s := S1x1x768x768) ![0, 0, 0, 0] S1x1x768x768.size inb_S1x1x768x768_S1x1x768x768_0_0_0_0
abbrev rPool : Rect S768x8 := Rect.unit (s := S768x8) ![0, 0] S768x8.size inb_S768x8_S768x8_0_0
abbrev rOut0 : Rect S1x3x8x8 := Rect.unit (s := S1x3x8x8) ![0, 0, 0, 0] S1x1x8x8.size inb_S1x3x8x8_S1x1x8x8_0_0_0_0
abbrev rOut1 : Rect S1x3x8x8 := Rect.unit (s := S1x3x8x8) ![0, 1, 0, 0] S1x1x8x8.size inb_S1x3x8x8_S1x1x8x8_0_1_0_0
abbrev rOut2 : Rect S1x3x8x8 := Rect.unit (s := S1x3x8x8) ![0, 2, 0, 0] S1x1x8x8.size inb_S1x3x8x8_S1x1x8x8_0_2_0_0

/-- The plane of scalar totals, from the two image blocks. -/
def scalarPlane (v0 v2 : Vec F S1x1x768x768 .f32) : FVec F S1x1x8x8 .f32 :=
  k0_pay3 (k0_pay6 v0 v2) (k0_pay7 v0) (k0_pay8 v2) (iota .tc S8x8 32 [0] iota_S8x8_d0_w32) (iota .tc S8x8 32 [1] iota_S8x8_d1_w32)
    k0_pay12 k0_pay13 1#32

/-- The statistics block after the body, from the three input blocks: its three stores as pieces, last first. -/
def out0_3 (x0 x1 : Vec F S1x1x768x768 .f32) (x2 : Vec F S768x8 .f32) : Vec F S1x3x8x8 .f32 :=
  View.canon [⟨rOut2, scalarPlane (View.ld x0 rIn) (View.ld x1 rIn)⟩,
    ⟨rOut1, k0_pay2 (k0_pay11 (View.ld x1 rIn) (View.ld x2 rPool))⟩,
    ⟨rOut0, k0_pay1 (k0_pay10 (View.ld x0 rIn) (View.ld x2 rPool))⟩]

/-- The three planes tile the block, so every entry is in one of them. -/
theorem cover0_3 (p0 p1 p2 : Vec F S1x1x8x8 .f32) (y : S1x3x8x8.Idx) :
    ∃ pc ∈ ([⟨rOut2, p2⟩, ⟨rOut1, p1⟩, ⟨rOut0, p0⟩] : List (View.Piece (Elt F) S1x3x8x8 .f32)), y ∈ pc.1.set :=
  View.cover_of_tiled [⟨rOut2, p2⟩, ⟨rOut1, p1⟩, ⟨rOut0, p0⟩] S1x1x8x8.size (by rfl) y

set_option maxHeartbeats 1000000 in
/-- The body on whole staging buffers — the three inputs at known contents, the output at anything — runs to the end,
    leaving the inputs as they were and the output at `out0_3` of the inputs. -/
theorem sound_kernel (c : Dev nD) (E : Set ℕ) (i : grid0.Coords)
    (arg1 : Memref sig .tc .vmem S1x1x768x768 .f32) (harg1 : arg1.IsWhole)
    (arg2 : Memref sig .tc .vmem S1x1x768x768 .f32) (harg2 : arg2.IsWhole)
    (arg3 : Memref sig .tc .vmem S768x8 .f32) (harg3 : arg3.IsWhole)
    (arg4 : Memref sig .tc .vmem S1x3x8x8 .f32) (harg4 : arg4.IsWhole)
    (x0 x1 : Vec F S1x1x768x768 .f32) (x2 : Vec F S768x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__region_kernel i arg1 harg1 arg2 harg2 arg3 harg3 arg4 harg4) K := by
  simp only [cc0__region_kernel_eq_skeleton]; unfold cc0__region_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _)

end Cert.Kernel.Frm

end
-- ==== Proof.KFrame.lean ====
import proofs.«143279_j39702677684512_1_alg».proof.Proof.KHost
import proofs.«143279_j39702677684512_1_alg».proof.Proof.KBody

/-!
# The run of the whole program

The launch theorem asks, per core, for what each window's staging buffer holds after the body at each grid
point: an input window its block of the array, the statistics window the body's function of the three input
blocks. With the body's triple at a generic point that is the body obligation; the launch theorem then gives the
run of the entry function — it terminates without a fault, every staged array ends at what the write-backs
leave in it, every other buffer as the host operations after the launch leave it — and the frame claim follows.
-/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one launch on core `c`: the arrays as the launch finds them; after the body at point `t`
    each input's buffer at its block and the statistics buffer at `out0_3` of the three input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters: every weakly fair execution of the entry function terminates, and every final
    state has every staged array at what the launch computes from the proof data and every other unscoped buffer as the
    host operations after the launch leave it. -/
theorem run_main : θ_run defs (onTc (τ := τ) (main (F := F))) (s₀ m ρ) (Pipeline.FramePost cfgs (dats m) 0 (Pipeline.afterTail₀ cfgs (dats m) 0 (V0 m) postOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hΦ := fun _ _ => rfl)

/-- The frame claim at any instance: the program runs to the end and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.KIHost.lean ====
import proofs.«143279_j39702677684512_1_alg».proof.Proof.Gen.KernelIdeal.Launch
import proofs.«143279_j39702677684512_1_alg».proof.Proof.Gen.KernelIdeal.Points
import Idealize.ShloMosaic.Lib.Pipeline.FrameBody
import Idealize.ShloMosaic.Lib.Pipeline.FrameSuffix

/-!
# The host program around the one kernel launch

The entry function is three stretches of host operations (they build the 768 x 8 pooling matrix), the kernel
launch over its grid of 32 points, and nine further stretches (the losses computed from the 32 x 3 x 8 x 8
statistics array). This module collects what the launch theorem asks of those stretches: none allocates,
each touches unscoped buffers only, no operation before the launch writes an argument, and no operation
after it writes an argument or one of the four arrays the launch stages.
-/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the launch, -/
abbrev preOps : List (List (HloOp τ sig (Elt F))) := [hostOps0, hostOps0_1, hostOps0_2]
/-- and after it. -/
abbrev postOps : List (List (HloOp τ sig (Elt F))) := [hostOps1, hostOps1_1, hostOps1_2, hostOps1_3, hostOps1_4, hostOps1_5, hostOps1_6, hostOps1_7, hostOps1_8]

/-- A property of every operation of every stretch holds of every operation of the stretches laid end to end. -/
theorem forall_mem_flatten_of {α : Type} {P : α → Prop} (Ls : List (List α)) (h : Ls.Forall fun l => l.Forall P) :
    ∀ op ∈ Ls.flatten, P op := by
  intro op hop
  obtain ⟨l, hl, hop⟩ := List.mem_flatten.mp hop
  exact (List.forall_iff_forall_mem.mp ((List.forall_iff_forall_mem.mp h) l hl)) op hop

/-- The same, stretch by stretch. -/
theorem forall_mem_of {α : Type} {P : α → Prop} (Ls : List (List α)) (h : Ls.Forall fun l => l.Forall P) :
    ∀ l ∈ Ls, ∀ op ∈ l, P op :=
  fun l hl op hop => (List.forall_iff_forall_mem.mp ((List.forall_iff_forall_mem.mp h) l hl)) op hop

/-! ## Nothing is allocated -/

theorem hostOps0_fresh : (hostOps0 : List (HloOp τ sig (Elt F))).Forall fun op => op.fresh = ∅ := by
  simp only [hostOps0, List.Forall]; repeat' constructor
theorem hostOps0_1_fresh : (hostOps0_1 : List (HloOp τ sig (Elt F))).Forall fun op => op.fresh = ∅ := by
  simp only [hostOps0_1, List.Forall]; repeat' constructor
theorem hostOps0_2_fresh : (hostOps0_2 : List (HloOp τ sig (Elt F))).Forall fun op => op.fresh = ∅ := by
  simp only [hostOps0_2, List.Forall]; repeat' constructor
theorem hostOps1_fresh : (hostOps1 : List (HloOp τ sig (Elt F))).Forall fun op => op.fresh = ∅ := by
  simp only [hostOps1, List.Forall]; repeat' constructor
theorem hostOps1_1_fresh : (hostOps1_1 : List (HloOp τ sig (Elt F))).Forall fun op => op.fresh = ∅ := by
  simp only [hostOps1_1, List.Forall]; repeat' constructor
theorem hostOps1_2_fresh : (hostOps1_2 : List (HloOp τ sig (Elt F))).Forall fun op => op.fresh = ∅ := by
  simp only [hostOps1_2, List.Forall]; repeat' constructor
theorem hostOps1_3_fresh : (hostOps1_3 : List (HloOp τ sig (Elt F))).Forall fun op => op.fresh = ∅ := by
  simp only [hostOps1_3, List.Forall]; repeat' constructor
theorem hostOps1_4_fresh : (hostOps1_4 : List (HloOp τ sig (Elt F))).Forall fun op => op.fresh = ∅ := by
  simp only [hostOps1_4, List.Forall]; repeat' constructor
theorem hostOps1_5_fresh : (hostOps1_5 : List (HloOp τ sig (Elt F))).Forall fun op => op.fresh = ∅ := by
  simp only [hostOps1_5, List.Forall]; repeat' constructor
theorem hostOps1_6_fresh : (hostOps1_6 : List (HloOp τ sig (Elt F))).Forall fun op => op.fresh = ∅ := by
  simp only [hostOps1_6, List.Forall]; repeat' constructor
theorem hostOps1_7_fresh : (hostOps1_7 : List (HloOp τ sig (Elt F))).Forall fun op => op.fresh = ∅ := by
  simp only [hostOps1_7, List.Forall]; repeat' constructor
theorem hostOps1_8_fresh : (hostOps1_8 : List (HloOp τ sig (Elt F))).Forall fun op => op.fresh = ∅ := by
  simp only [hostOps1_8, List.Forall]; repeat' constructor

theorem preOps_sub : (preOps : List (List (HloOp τ sig (Elt F)))).Forall fun ops => ops.Forall fun op => op.bufs ⊆ StableHlo.tcRefs τ sig := by
  simp only [List.Forall]; exact ⟨hostOps0_sub, hostOps0_1_sub, hostOps0_2_sub⟩
theorem preOps_fresh : (preOps : List (List (HloOp τ sig (Elt F)))).Forall fun ops => ops.Forall fun op => op.fresh = ∅ := by
  simp only [List.Forall]; exact ⟨hostOps0_fresh, hostOps0_1_fresh, hostOps0_2_fresh⟩
theorem postOps_sub : (postOps : List (List (HloOp τ sig (Elt F)))).Forall fun ops => ops.Forall fun op => op.bufs ⊆ StableHlo.tcRefs τ sig := by
  simp only [List.Forall]; exact ⟨hostOps1_sub, hostOps1_1_sub, hostOps1_2_sub, hostOps1_3_sub, hostOps1_4_sub, hostOps1_5_sub, hostOps1_6_sub, hostOps1_7_sub, hostOps1_8_sub⟩
theorem postOps_fresh : (postOps : List (List (HloOp τ sig (Elt F)))).Forall fun ops => ops.Forall fun op => op.fresh = ∅ := by
  simp only [List.Forall]; exact ⟨hostOps1_fresh, hostOps1_1_fresh, hostOps1_2_fresh, hostOps1_3_fresh, hostOps1_4_fresh, hostOps1_5_fresh, hostOps1_6_fresh, hostOps1_7_fresh, hostOps1_8_fresh⟩

/-! ## Which buffers the stretches leave alone

Every host operation writes its one result buffer, so "this stretch writes none of these buffers" is a list of
inequalities between buffer names, each decided. -/

/-- An operation writes none of the four arguments. -/
def KeepsArgs (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes
/-- An operation writes neither the pooling matrix nor the statistics array. -/
def KeepsStaged (op : HloOp τ sig (Elt F)) : Prop :=
  Proc.devRef .tc main_v8 ∉ op.writes ∧ Proc.devRef .tc main_v9 ∉ op.writes

theorem hostOps0_keepsArgs : (hostOps0 : List (HloOp τ sig (Elt F))).Forall KeepsArgs := by
  simp only [hostOps0, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_1_keepsArgs : (hostOps0_1 : List (HloOp τ sig (Elt F))).Forall KeepsArgs := by
  simp only [hostOps0_1, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_2_keepsArgs : (hostOps0_2 : List (HloOp τ sig (Elt F))).Forall KeepsArgs := by
  simp only [hostOps0_2, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_keepsArgs : (hostOps1 : List (HloOp τ sig (Elt F))).Forall KeepsArgs := by
  simp only [hostOps1, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_1_keepsArgs : (hostOps1_1 : List (HloOp τ sig (Elt F))).Forall KeepsArgs := by
  simp only [hostOps1_1, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_2_keepsArgs : (hostOps1_2 : List (HloOp τ sig (Elt F))).Forall KeepsArgs := by
  simp only [hostOps1_2, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_3_keepsArgs : (hostOps1_3 : List (HloOp τ sig (Elt F))).Forall KeepsArgs := by
  simp only [hostOps1_3, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_4_keepsArgs : (hostOps1_4 : List (HloOp τ sig (Elt F))).Forall KeepsArgs := by
  simp only [hostOps1_4, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_5_keepsArgs : (hostOps1_5 : List (HloOp τ sig (Elt F))).Forall KeepsArgs := by
  simp only [hostOps1_5, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_6_keepsArgs : (hostOps1_6 : List (HloOp τ sig (Elt F))).Forall KeepsArgs := by
  simp only [hostOps1_6, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_7_keepsArgs : (hostOps1_7 : List (HloOp τ sig (Elt F))).Forall KeepsArgs := by
  simp only [hostOps1_7, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_8_keepsArgs : (hostOps1_8 : List (HloOp τ sig (Elt F))).Forall KeepsArgs := by
  simp only [hostOps1_8, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_keepsStaged : (hostOps1 : List (HloOp τ sig (Elt F))).Forall KeepsStaged := by
  simp only [hostOps1, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_1_keepsStaged : (hostOps1_1 : List (HloOp τ sig (Elt F))).Forall KeepsStaged := by
  simp only [hostOps1_1, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_2_keepsStaged : (hostOps1_2 : List (HloOp τ sig (Elt F))).Forall KeepsStaged := by
  simp only [hostOps1_2, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_3_keepsStaged : (hostOps1_3 : List (HloOp τ sig (Elt F))).Forall KeepsStaged := by
  simp only [hostOps1_3, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_4_keepsStaged : (hostOps1_4 : List (HloOp τ sig (Elt F))).Forall KeepsStaged := by
  simp only [hostOps1_4, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_5_keepsStaged : (hostOps1_5 : List (HloOp τ sig (Elt F))).Forall KeepsStaged := by
  simp only [hostOps1_5, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_6_keepsStaged : (hostOps1_6 : List (HloOp τ sig (Elt F))).Forall KeepsStaged := by
  simp only [hostOps1_6, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_7_keepsStaged : (hostOps1_7 : List (HloOp τ sig (Elt F))).Forall KeepsStaged := by
  simp only [hostOps1_7, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_8_keepsStaged : (hostOps1_8 : List (HloOp τ sig (Elt F))).Forall KeepsStaged := by
  simp only [hostOps1_8, List.Forall, KeepsStaged, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem preOps_keepsArgs : (preOps : List (List (HloOp τ sig (Elt F)))).Forall fun ops => ops.Forall KeepsArgs := by
  simp only [List.Forall]; exact ⟨hostOps0_keepsArgs, hostOps0_1_keepsArgs, hostOps0_2_keepsArgs⟩
theorem postOps_keepsArgs : (postOps : List (List (HloOp τ sig (Elt F)))).Forall fun ops => ops.Forall KeepsArgs := by
  simp only [List.Forall]; exact ⟨hostOps1_keepsArgs, hostOps1_1_keepsArgs, hostOps1_2_keepsArgs, hostOps1_3_keepsArgs, hostOps1_4_keepsArgs, hostOps1_5_keepsArgs, hostOps1_6_keepsArgs, hostOps1_7_keepsArgs, hostOps1_8_keepsArgs⟩
theorem postOps_keepsStaged : (postOps : List (List (HloOp τ sig (Elt F)))).Forall fun ops => ops.Forall KeepsStaged := by
  simp only [List.Forall]; exact ⟨hostOps1_keepsStaged, hostOps1_1_keepsStaged, hostOps1_2_keepsStaged, hostOps1_3_keepsStaged, hostOps1_4_keepsStaged, hostOps1_5_keepsStaged, hostOps1_6_keepsStaged, hostOps1_7_keepsStaged, hostOps1_8_keepsStaged⟩

/-! ## The entry function around the launch -/

/-- Core `c`'s buffer contents when the launch is reached: the launch memory after the three stretches before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- The entry function is the stretches before the launch, the launch, and the stretches after it; so it runs
    as the launch continued by the later stretches, from the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((postOps (F := F)).map StableHlo.seq)) :=
  Pipeline.hmain_around cfgs 0 defs₀ 𝒱₀ m main preOps postOps preOps_sub preOps_fresh main_chain

/-- The four arrays the launch stages are the two density arguments, the pooling matrix and the statistics array. -/
theorem arr_cases : ∀ w : Fin 4, Pipeline.arrRef spec0 w = main_arg0 ∨ Pipeline.arrRef spec0 w = main_arg1
    ∨ Pipeline.arrRef spec0 w = main_v8 ∨ Pipeline.arrRef spec0 w = main_v9 := by decide

/-- The later stretches touch unscoped TensorCore buffers only, -/
theorem sfx_sub : ∀ ops ∈ (postOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_mem_of _ postOps_sub ops hops op hop)
/-- allocate nothing, -/
theorem sfx_fresh : ∀ ops ∈ (postOps : List (List (HloOp τ sig (Elt F)))), ∀ op ∈ ops, op.fresh = ∅ :=
  forall_mem_of _ postOps_fresh
/-- and write none of the four staged arrays. -/
theorem sfx_keeps : ∀ ops ∈ (postOps : List (List (HloOp τ sig (Elt F)))), ∀ op ∈ ops,
    ∀ w, Proc.devRef .tc (Pipeline.arrRef spec0 w) ∉ op.writes := by
  intro ops hops op hop w
  have ha := forall_mem_of _ postOps_keepsArgs ops hops op hop
  have hs := forall_mem_of _ postOps_keepsStaged ops hops op hop
  rcases arr_cases w with h | h | h | h <;> rw [h]
  · exact ha.1
  · exact ha.2.1
  · exact hs.1
  · exact hs.2

/-- No host operation before the launch writes an argument: the launch finds each as it was at the start. -/
theorem V_main_arg0 (c : Dev nD) : V m c main_arg0 = m ((c : Thread nD τ).loc main_arg0) :=
  StableHlo.after_of_forall_not_mem (b := Proc.devRef .tc main_arg0) _ _ (fun op hop => (forall_mem_flatten_of _ preOps_keepsArgs op hop).1)
theorem V_main_arg1 (c : Dev nD) : V m c main_arg1 = m ((c : Thread nD τ).loc main_arg1) :=
  StableHlo.after_of_forall_not_mem (b := Proc.devRef .tc main_arg1) _ _ (fun op hop => (forall_mem_flatten_of _ preOps_keepsArgs op hop).2.1)
theorem V_main_arg2 (c : Dev nD) : V m c main_arg2 = m ((c : Thread nD τ).loc main_arg2) :=
  StableHlo.after_of_forall_not_mem (b := Proc.devRef .tc main_arg2) _ _ (fun op hop => (forall_mem_flatten_of _ preOps_keepsArgs op hop).2.2.1)
theorem V_main_arg3 (c : Dev nD) : V m c main_arg3 = m ((c : Thread nD τ).loc main_arg3) :=
  StableHlo.after_of_forall_not_mem (b := Proc.devRef .tc main_arg3) _ _ (fun op hop => (forall_mem_flatten_of _ preOps_keepsArgs op hop).2.2.2)

/-- No host operation after the launch writes `main_arg2`, and the launch does not stage it: it ends as it was at the start. -/
theorem W_main_arg2 (dats : (p : Fin _) → (c : Dev nD) → Dat τ (Elt F) Unit ℕ (UR sig nD τ) ℕ (cfgs p) c) (c : Dev nD) :
    Pipeline.afterTail₀ cfgs dats 0 (V0 m) postOps c main_arg2 = m ((c : Thread nD τ).loc main_arg2) := by
  unfold Pipeline.afterTail₀
  rw [StableHlo.after_of_forall_not_mem (b := Proc.devRef .tc main_arg2) _ _ (fun op hop => (forall_mem_flatten_of _ postOps_keepsArgs op hop).2.2.1),
    Pipeline.withArrays_of_ne _ c (V0 m c) _ main_arg2 (by exact (by decide : ∀ w, Pipeline.arrRef spec0 w ≠ main_arg2))]
  exact V_main_arg2 m c
/-- The same for `main_arg3`. -/
theorem W_main_arg3 (dats : (p : Fin _) → (c : Dev nD) → Dat τ (Elt F) Unit ℕ (UR sig nD τ) ℕ (cfgs p) c) (c : Dev nD) :
    Pipeline.afterTail₀ cfgs dats 0 (V0 m) postOps c main_arg3 = m ((c : Thread nD τ).loc main_arg3) := by
  unfold Pipeline.afterTail₀
  rw [StableHlo.after_of_forall_not_mem (b := Proc.devRef .tc main_arg3) _ _ (fun op hop => (forall_mem_flatten_of _ postOps_keepsArgs op hop).2.2.2),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether the point fetched it or an earlier one did. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether the point fetched it or an earlier one did. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether the point fetched it or an earlier one did. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch theorem -/

/-- A run that ends with every staged array at what the launch computes and every other unscoped buffer as
    the later stretches leave it ends, in particular, with the four arguments as they were at the start: the two
    density arrays are staged inputs (an input array is never written back), the two logit arrays are not staged
    and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) postOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

end Cert.KernelIdeal.Frm

end
-- ==== Proof.KIBody.lean ====
import proofs.«143279_j39702677684512_1_alg».proof.Proof.Gen.KernelIdeal.Skeleton
import Idealize.ShloMosaic.Lib.Pipeline.FrameBody
import Idealize.ShloMosaic.Lib.Ring
import Idealize.ShloMosaic.Lib.Tactic

/-!
# One grid point of the kernel

At a grid point the body reads one 768 x 768 image block of each density array and the 768 x 8 pooling matrix,
and writes the 3 x 8 x 8 statistics block in three 8 x 8 planes: the pooled cell sums of the first image, those
of the second, and a plane holding the three scalar totals in its first row. The three stores tile the block, so
what the block holds afterwards is a function of the three inputs alone, whatever it held before.
-/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The whole image block, the whole pooling matrix, and the three planes of the statistics block. -/
abbrev rIn : Rect S1x1x768x768 := Rect.unit (s := S1x1x768x768) ![0, 0, 0, 0] S1x1x768x768.size inb_S1x1x768x768_S1x1x768x768_0_0_0_0
abbrev rPool : Rect S768x8 := Rect.unit (s := S768x8) ![0, 0] S768x8.size inb_S768x8_S768x8_0_0
abbrev rOut0 : Rect S1x3x8x8 := Rect.unit (s := S1x3x8x8) ![0, 0, 0, 0] S1x1x8x8.size inb_S1x3x8x8_S1x1x8x8_0_0_0_0
abbrev rOut1 : Rect S1x3x8x8 := Rect.unit (s := S1x3x8x8) ![0, 1, 0, 0] S1x1x8x8.size inb_S1x3x8x8_S1x1x8x8_0_1_0_0
abbrev rOut2 : Rect S1x3x8x8 := Rect.unit (s := S1x3x8x8) ![0, 2, 0, 0] S1x1x8x8.size inb_S1x3x8x8_S1x1x8x8_0_2_0_0

/-- The plane of scalar totals, from the two image blocks. -/
def scalarPlane (v0 v2 : Vec F S1x1x768x768 .f32) : FVec F S1x1x8x8 .f32 :=
  k0_pay3 (k0_pay6 v0 v2) (k0_pay7 v0) (k0_pay8 v2) (iota .tc S8x8 32 [0] iota_S8x8_d0_w32) (iota .tc S8x8 32 [1] iota_S8x8_d1_w32)
    k0_pay12 k0_pay13 1#32

/-- The statistics block after the body, from the three input blocks: its three stores as pieces, last first. -/
def out0_3 (x0 x1 : Vec F S1x1x768x768 .f32) (x2 : Vec F S768x8 .f32) : Vec F S1x3x8x8 .f32 :=
  View.canon [⟨rOut2, scalarPlane (View.ld x0 rIn) (View.ld x1 rIn)⟩,
    ⟨rOut1, k0_pay2 (k0_pay11 (View.ld x1 rIn) (View.ld x2 rPool))⟩,
    ⟨rOut0, k0_pay1 (k0_pay10 (View.ld x0 rIn) (View.ld x2 rPool))⟩]

/-- The three planes tile the block, so every entry is in one of them. -/
theorem cover0_3 (p0 p1 p2 : Vec F S1x1x8x8 .f32) (y : S1x3x8x8.Idx) :
    ∃ pc ∈ ([⟨rOut2, p2⟩, ⟨rOut1, p1⟩, ⟨rOut0, p0⟩] : List (View.Piece (Elt F) S1x3x8x8 .f32)), y ∈ pc.1.set :=
  View.cover_of_tiled [⟨rOut2, p2⟩, ⟨rOut1, p1⟩, ⟨rOut0, p0⟩] S1x1x8x8.size (by rfl) y

set_option maxHeartbeats 1000000 in
/-- The body on whole staging buffers — the three inputs at known contents, the output at anything — runs to the end,
    leaving the inputs as they were and the output at `out0_3` of the inputs. -/
theorem sound_kernel (c : Dev nD) (E : Set ℕ) (i : grid0.Coords)
    (arg1 : Memref sig .tc .vmem S1x1x768x768 .f32) (harg1 : arg1.IsWhole)
    (arg2 : Memref sig .tc .vmem S1x1x768x768 .f32) (harg2 : arg2.IsWhole)
    (arg3 : Memref sig .tc .vmem S768x8 .f32) (harg3 : arg3.IsWhole)
    (arg4 : Memref sig .tc .vmem S1x3x8x8 .f32) (harg4 : arg4.IsWhole)
    (x0 x1 : Vec F S1x1x768x768 .f32) (x2 : Vec F S768x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__region_kernel i arg1 harg1 arg2 harg2 arg3 harg3 arg4 harg4) K := by
  simp only [cc0__region_kernel_eq_skeleton]; unfold cc0__region_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _)

end Cert.KernelIdeal.Frm

end
-- ==== Proof.KIFrame.lean ====
import proofs.«143279_j39702677684512_1_alg».proof.Proof.KIHost
import proofs.«143279_j39702677684512_1_alg».proof.Proof.KIBody

/-!
# The run of the whole program

The launch theorem asks, per core, for what each window's staging buffer holds after the body at each grid
point: an input window its block of the array, the statistics window the body's function of the three input
blocks. With the body's triple at a generic point that is the body obligation; the launch theorem then gives the
run of the entry function — it terminates without a fault, every staged array ends at what the write-backs
leave in it, every other buffer as the host operations after the launch leave it — and the frame claim follows.
-/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one launch on core `c`: the arrays as the launch finds them; after the body at point `t`
    each input's buffer at its block and the statistics buffer at `out0_3` of the three input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters: every weakly fair execution of the entry function terminates, and every final
    state has every staged array at what the launch computes from the proof data and every other unscoped buffer as the
    host operations after the launch leave it. -/
theorem run_main : θ_run defs (onTc (τ := τ) (main (F := F))) (s₀ m ρ) (Pipeline.FramePost cfgs (dats m) 0 (Pipeline.afterTail₀ cfgs (dats m) 0 (V0 m) postOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hΦ := fun _ _ => rfl)

/-- The frame claim at any instance: the program runs to the end and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.KIStats.lean ====
import proofs.«143279_j39702677684512_1_alg».proof.Proof.KIFrame
import Idealize.ShloMosaic.Lib.Pipeline.Value
import Idealize.ShloMosaic.Lib.ValueIdx

/-!
# The statistics array after the launch

Grid point `t` stages image `t` of each density array (a 1 x 1 x 768 x 768 block), the whole pooling matrix, and
block `t` of the 32 x 3 x 8 x 8 statistics array. The blocks of the statistics array tile it, so after the launch the
array is one function of the two density arrays and the pooling matrix: entry (b, s, i, j) is entry (0, s, i, j) of
what the body computes from image `b` of each density array.
-/

set_option maxRecDepth 16384

noncomputable section

namespace Cert.KernelIdeal.Frm

open Idealize.ShloMosaic Idealize.ShloMosaic.TcCoe Idealize.ShloMosaic.ValueIdx
open Idealize.SL Idealize.SL.Sem
open Idealize.ShloMosaic.Pipeline (Dat Cfg Window)
open Cert.KernelIdeal.Gen

variable {F : FTy → Type} [FloatOps F]

variable (m : (ℓ : Loc nD τ sig) → Buf (Elt F) ℓ) (ρ : Dev nD → PrngReg)

/-- Image `b` of a 32 x 1 x 768 x 768 array, as a 1 x 1 x 768 x 768 block. -/
def imgBlock (x : S32x1x768x768.Idx → Elt F .f32) (b : Fin 32) : Vec F S1x1x768x768 .f32 :=
  fun y => x (ix4 b (0 : Fin 1) (y 2) (y 3))

/-- The statistics array as one function of the two density arrays and the pooling matrix. -/
def statsOf (a0 a1 : S32x1x768x768.Idx → Elt F .f32) (p : S768x8.Idx → Elt F .f32) : S32x3x8x8.Idx → Elt F .f32 :=
  fun i => out0_3 (imgBlock a0 (i 0)) (imgBlock a1 (i 0)) p (ix4 (0 : Fin 1) (i 1) (i 2) (i 3))

/-- The windows' block indices over the grid: the density windows and the statistics window move along the batch
    axis with the point, the pooling matrix is one block. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 2) = 0 ∧ win0_2.index t (1 : Fin 2) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- A grid point as a batch index. -/
def batchOf (t : Fin cfg0.N) : Fin 32 := ⟨t.val, by have h : cfg0.N = 32 := N_0; have := t.isLt; omega⟩

theorem iblk0_eq (c : Dev nD) (t : Fin cfg0.N) : iblk m c 0 t = imgBlock (V m c main_arg0) (batchOf t) := by
  obtain ⟨⟨e0, e1, e2, e3⟩, -, -, -⟩ := idx_facts t
  funext y
  show V m c main_arg0 (((cfg0.win 0).blk t).view.emb y) = V m c main_arg0 (ix4 (batchOf t) (0 : Fin 1) (y 2) (y 3))
  refine congrArg _ ?_
  funext a; apply Fin.ext
  match a with
  | ⟨0, _⟩ => show win0_0.index t (0 : Fin 4) * 1 + 1 * (y 0).val = t.val; have hy : (y 0).val < 1 := (y 0).isLt; omega
  | ⟨1, _⟩ => show win0_0.index t (1 : Fin 4) * 1 + 1 * (y 1).val = 0; have hy : (y 1).val < 1 := (y 1).isLt; omega
  | ⟨2, _⟩ => show win0_0.index t (2 : Fin 4) * 768 + 1 * (y 2).val = (y 2).val; omega
  | ⟨3, _⟩ => show win0_0.index t (3 : Fin 4) * 768 + 1 * (y 3).val = (y 3).val; omega

theorem iblk1_eq (c : Dev nD) (t : Fin cfg0.N) : iblk m c 1 t = imgBlock (V m c main_arg1) (batchOf t) := by
  obtain ⟨-, ⟨e0, e1, e2, e3⟩, -, -⟩ := idx_facts t
  funext y
  show V m c main_arg1 (((cfg0.win 1).blk t).view.emb y) = V m c main_arg1 (ix4 (batchOf t) (0 : Fin 1) (y 2) (y 3))
  refine congrArg _ ?_
  funext a; apply Fin.ext
  match a with
  | ⟨0, _⟩ => show win0_1.index t (0 : Fin 4) * 1 + 1 * (y 0).val = t.val; have hy : (y 0).val < 1 := (y 0).isLt; omega
  | ⟨1, _⟩ => show win0_1.index t (1 : Fin 4) * 1 + 1 * (y 1).val = 0; have hy : (y 1).val < 1 := (y 1).isLt; omega
  | ⟨2, _⟩ => show win0_1.index t (2 : Fin 4) * 768 + 1 * (y 2).val = (y 2).val; omega
  | ⟨3, _⟩ => show win0_1.index t (3 : Fin 4) * 768 + 1 * (y 3).val = (y 3).val; omega

theorem iblk2_eq (c : Dev nD) (t : Fin cfg0.N) : iblk m c 2 t = V m c main_v8 := by
  obtain ⟨-, -, ⟨e0, e1⟩, -⟩ := idx_facts t
  funext y
  show V m c main_v8 (((cfg0.win 2).blk t).view.emb y) = V m c main_v8 y
  refine congrArg _ ?_
  funext a; apply Fin.ext
  match a with
  | ⟨0, _⟩ => show win0_2.index t (0 : Fin 2) * 768 + 1 * (y 0).val = (y 0).val; omega
  | ⟨1, _⟩ => show win0_2.index t (1 : Fin 2) * 8 + 1 * (y 1).val = (y 1).val; omega

theorem emb3 (t : Fin cfg0.N) (j : S1x3x8x8.Idx) :
    ((cfg0.win 3).blk t).view.emb j = (ix4 (batchOf t) (j 1) (j 2) (j 3) : S32x3x8x8.Idx) := by
  obtain ⟨-, -, -, ⟨e0, e1, e2, e3⟩⟩ := idx_facts t
  funext a; apply Fin.ext
  match a with
  | ⟨0, _⟩ => show win0_3.index t (0 : Fin 4) * 1 + 1 * (j 0).val = t.val; have hy : (j 0).val < 1 := (j 0).isLt; omega
  | ⟨1, _⟩ => show win0_3.index t (1 : Fin 4) * 3 + 1 * (j 1).val = (j 1).val; omega
  | ⟨2, _⟩ => show win0_3.index t (2 : Fin 4) * 8 + 1 * (j 2).val = (j 2).val; omega
  | ⟨3, _⟩ => show win0_3.index t (3 : Fin 4) * 8 + 1 * (j 3).val = (j 3).val; omega

/-- What point `t` writes back is block `t` of `statsOf` of the arrays as the launch finds them. -/
theorem flushed3_eq (c : Dev nD) (t : Fin cfg0.N) :
    (dats m 0 c).flushed 3 t = ((cfg0.win 3).blk t).view.read (Elt F) (statsOf (V m c main_arg0) (V m c main_arg1) (V m c main_v8)) := by
  show (cfg0.win 3).cut (grid0.coords t) ((dats m 0 c).after 3 t) = _
  rw [after0_3, iblk0_eq, iblk1_eq, iblk2_eq]
  funext j
  show out0_3 (imgBlock (V m c main_arg0) (batchOf t)) (imgBlock (V m c main_arg1) (batchOf t)) (V m c main_v8) j
    = statsOf (V m c main_arg0) (V m c main_arg1) (V m c main_v8) (((cfg0.win 3).blk t).view.emb j)
  rw [emb3 t j]
  have hj : (ix4 (0 : Fin 1) (j 1) (j 2) (j 3) : S1x3x8x8.Idx) = j := by
    funext a
    match a with
    | ⟨0, _⟩ => exact Fin.ext (by have hy : (j 0).val < 1 := (j 0).isLt; show 0 = (j 0).val; omega)
    | ⟨1, _⟩ => rfl
    | ⟨2, _⟩ => rfl
    | ⟨3, _⟩ => rfl
  show _ = out0_3 (imgBlock (V m c main_arg0) (batchOf t)) (imgBlock (V m c main_arg1) (batchOf t)) (V m c main_v8) (ix4 (0 : Fin 1) (j 1) (j 2) (j 3))
  rw [hj]

/-- An index of the statistics array is in point `t`'s block iff each coordinate is in the block's range. -/
theorem mem_blk3 (t : Fin cfg0.N) (i : S32x3x8x8.Idx) :
    i ∈ ((cfg0.win 3).blk t).view.set ↔ ∀ a : Fin 4, win0_3.index t a * S1x3x8x8.size a ≤ (i a).val ∧ (i a).val < win0_3.index t a * S1x3x8x8.size a + S1x3x8x8.size a := by
  show i ∈ ((View.whole main_v9).slice (win0_3.rect t)).set ↔ _
  rw [View.set_slice_whole, Rect.mem_set_unit]
  exact Iff.rfl

/-- Every index of the statistics array lies in the block of the point with its batch coordinate. -/
theorem cover3 (i : S32x3x8x8.Idx) : ∃ t : Fin cfg0.N, (cfg0.win 3).flush t = true ∧ i ∈ ((cfg0.win 3).blk t).view.set := by
  have hi0 : (i 0).val < 32 := (i 0).isLt
  have hi1 : (i 1).val < 3 := (i 1).isLt
  have hi2 : (i 2).val < 8 := (i 2).isLt
  have hi3 : (i 3).val < 8 := (i 3).isLt
  have hN : cfg0.N = 32 := N_0
  refine ⟨⟨(i 0).val, by omega⟩, flush0_3 _, ?_⟩
  obtain ⟨-, -, -, ⟨e0, e1, e2, e3⟩⟩ := idx_facts ⟨(i 0).val, by omega⟩
  rw [mem_blk3]
  intro a
  match a with
  | ⟨0, _⟩ => show win0_3.index _ (0 : Fin 4) * 1 ≤ (i 0).val ∧ (i 0).val < win0_3.index _ (0 : Fin 4) * 1 + 1; simp only [] at e0; omega
  | ⟨1, _⟩ => show win0_3.index _ (1 : Fin 4) * 3 ≤ (i 1).val ∧ (i 1).val < win0_3.index _ (1 : Fin 4) * 3 + 3; omega
  | ⟨2, _⟩ => show win0_3.index _ (2 : Fin 4) * 8 ≤ (i 2).val ∧ (i 2).val < win0_3.index _ (2 : Fin 4) * 8 + 8; omega
  | ⟨3, _⟩ => show win0_3.index _ (3 : Fin 4) * 8 ≤ (i 3).val ∧ (i 3).val < win0_3.index _ (3 : Fin 4) * 8 + 8; omega

/-- The statistics array after the launch. -/
theorem final3 (c : Dev nD) :
    (dats m 0 c).arrAt 3 cfg0.N = statsOf (V m c main_arg0) (V m c main_arg1) (V m c main_v8) :=
  (dats m 0 c).arrAt_eq_of_cover 3 _ (fun t _ => flushed3_eq m c t) cover3

end Cert.KernelIdeal.Frm

end
-- ==== Proof.KIPlanes.lean ====
import proofs.«143279_j39702677684512_1_alg».proof.Proof.KIBody
import Idealize.ShloMosaic.Lib.Pipeline.Value
import Idealize.ShloMosaic.Lib.ValueIdx

/-!
# The statistics block, plane by plane

The body writes the 3 x 8 x 8 block as three 8 x 8 planes. Read at plane `s`, row `i`, column `j`, the block is the
`s`-th store's payload at (i, j): the pooled cell sums of the first image, of the second image, and the plane of
scalar totals.
-/

set_option maxRecDepth 16384

noncomputable section

namespace Cert.KernelIdeal.Frm

open Idealize.ShloMosaic Idealize.ShloMosaic.TcCoe Idealize.ShloMosaic.ValueIdx
open Cert.KernelIdeal.Gen

variable {F : FTy → Type} [FloatOps F]

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Loading a whole buffer gives the buffer. -/
theorem out0_3_eq (x0 x1 : Vec F S1x1x768x768 .f32) (x2 : Vec F S768x8 .f32) :
    out0_3 x0 x1 x2 = View.canon [⟨rOut2, scalarPlane x0 x1⟩, ⟨rOut1, k0_pay2 (k0_pay11 x1 x2)⟩, ⟨rOut0, k0_pay1 (k0_pay10 x0 x2)⟩] := by
  unfold out0_3
  simp only [View.ld_unit_zero (S := S1x1x768x768) hz4, View.ld_unit_zero (S := S768x8) hz2]

/-- Entry (i, j) of plane `s` of the block is entry (i, j) of the one-plane rectangle at offset `s`. -/
theorem emb_out0 (i j : Fin 8) : rOut0.emb (ix4 (0 : Fin 1) (0 : Fin 1) i j : S1x1x8x8.Idx) = (ix4 (0 : Fin 1) (0 : Fin 3) i j : S1x3x8x8.Idx) := by
  funext a; apply Fin.ext
  match a with
  | ⟨0, _⟩ => rfl
  | ⟨1, _⟩ => rfl
  | ⟨2, _⟩ => show 0 + 1 * i.val = i.val; omega
  | ⟨3, _⟩ => show 0 + 1 * j.val = j.val; omega
theorem emb_out1 (i j : Fin 8) : rOut1.emb (ix4 (0 : Fin 1) (0 : Fin 1) i j : S1x1x8x8.Idx) = (ix4 (0 : Fin 1) (1 : Fin 3) i j : S1x3x8x8.Idx) := by
  funext a; apply Fin.ext
  match a with
  | ⟨0, _⟩ => rfl
  | ⟨1, _⟩ => rfl
  | ⟨2, _⟩ => show 0 + 1 * i.val = i.val; omega
  | ⟨3, _⟩ => show 0 + 1 * j.val = j.val; omega
theorem emb_out2 (i j : Fin 8) : rOut2.emb (ix4 (0 : Fin 1) (0 : Fin 1) i j : S1x1x8x8.Idx) = (ix4 (0 : Fin 1) (2 : Fin 3) i j : S1x3x8x8.Idx) := by
  funext a; apply Fin.ext
  match a with
  | ⟨0, _⟩ => rfl
  | ⟨1, _⟩ => rfl
  | ⟨2, _⟩ => show 0 + 1 * i.val = i.val; omega
  | ⟨3, _⟩ => show 0 + 1 * j.val = j.val; omega

/-- An entry of plane 0 or 1 is not in plane 2's rectangle; an entry of plane 0 is not in plane 1's. -/
theorem not_mem_out2 (s : Fin 3) (hs : s.val < 2) (i j : Fin 8) : (ix4 (0 : Fin 1) s i j : S1x3x8x8.Idx) ∉ rOut2.set := by
  rw [Rect.mem_set_unit]
  intro h
  have h1 := h (1 : Fin 4)
  have : (2 : Nat) ≤ s.val := h1.1
  omega
theorem not_mem_out1 (i j : Fin 8) : (ix4 (0 : Fin 1) (0 : Fin 3) i j : S1x3x8x8.Idx) ∉ rOut1.set := by
  rw [Rect.mem_set_unit]
  intro h
  have h1 := h (1 : Fin 4)
  have : (1 : Nat) ≤ 0 := h1.1
  omega

theorem out0_3_plane2 (x0 x1 : Vec F S1x1x768x768 .f32) (x2 : Vec F S768x8 .f32) (i j : Fin 8) :
    out0_3 x0 x1 x2 (ix4 (0 : Fin 1) (2 : Fin 3) i j) = scalarPlane x0 x1 (ix4 (0 : Fin 1) (0 : Fin 1) i j) := by
  rw [out0_3_eq, ← emb_out2 i j]
  exact View.canon_cons_emb _ _ _ _

theorem out0_3_plane1 (x0 x1 : Vec F S1x1x768x768 .f32) (x2 : Vec F S768x8 .f32) (i j : Fin 8) :
    out0_3 x0 x1 x2 (ix4 (0 : Fin 1) (1 : Fin 3) i j) = k0_pay2 (k0_pay11 x1 x2) (ix4 (0 : Fin 1) (0 : Fin 1) i j) := by
  rw [out0_3_eq]
  refine (View.canon_cons_of_not_mem (⟨rOut2, scalarPlane x0 x1⟩ : View.Piece (Elt F) S1x3x8x8 .f32) _ (not_mem_out2 1 (by decide) i j)).trans ?_
  rw [← emb_out1 i j]
  exact View.canon_cons_emb _ _ _ _

theorem out0_3_plane0 (x0 x1 : Vec F S1x1x768x768 .f32) (x2 : Vec F S768x8 .f32) (i j : Fin 8) :
    out0_3 x0 x1 x2 (ix4 (0 : Fin 1) (0 : Fin 3) i j) = k0_pay1 (k0_pay10 x0 x2) (ix4 (0 : Fin 1) (0 : Fin 1) i j) := by
  rw [out0_3_eq]
  refine (View.canon_cons_of_not_mem (⟨rOut2, scalarPlane x0 x1⟩ : View.Piece (Elt F) S1x3x8x8 .f32) _ (not_mem_out2 0 (by decide) i j)).trans ?_
  refine (View.canon_cons_of_not_mem (⟨rOut1, k0_pay2 (k0_pay11 x1 x2)⟩ : View.Piece (Elt F) S1x3x8x8 .f32) _ (not_mem_out1 i j)).trans ?_
  rw [← emb_out0 i j]
  exact View.canon_cons_emb _ _ _ _

end Cert.KernelIdeal.Frm

end
-- ==== Proof.BlockCasts.lean ====
import proofs.«143279_j39702677684512_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# Unit axes added and dropped, read at an index

A grid point's two image blocks arrive with two leading unit axes, `[1, 1, 768, 768]`, and are used as `[768, 768]`
matrices; the 8 × 8 planes it stores are given the two unit axes back. A cast keeps the row-major position, and the
unit axes contribute nothing to it, so entry `(i, j)` of the matrix is entry `(0, 0, i, j)` of the block.
-/

namespace Cert.KernelIdeal.BlockValue

open Idealize.ShloMosaic Idealize.ShloMosaic.ValueIdx Cert.KernelIdeal Cert.KernelIdeal.Gen

/-- An `[a, b]` array cast to `[1, 1, a, b]` reads, at `(u, u', i, j)`, the array at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A `[1, 1, a, b]` array cast to `[a, b]` reads, at `(i, j)`, the array at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The first stored plane is the first image's cell sums. -/
theorem pay1_apply (v : FVec Ideal S8x8 .f32) (i j : Fin 8) :
    k0_pay1 (F := Ideal) v (ix4 (0 : Fin 1) (0 : Fin 1) i j) = v (ix2 i j) :=
  shapeCast_ab_11ab_apply v shapeCasts_S8x8_S1x1x8x8 0 0 i j

/-- The second stored plane is the second image's cell sums. -/
theorem pay2_apply (v : FVec Ideal S8x8 .f32) (i j : Fin 8) :
    k0_pay2 (F := Ideal) v (ix4 (0 : Fin 1) (0 : Fin 1) i j) = v (ix2 i j) :=
  shapeCast_ab_11ab_apply v shapeCasts_S8x8_S1x1x8x8 0 0 i j

/-- The first image as a matrix: entry `(h, w)` is the block's entry `(0, 0, h, w)`. -/
theorem pay4_apply (x0 : Vec Ideal S1x1x768x768 .f32) (h w : Fin 768) :
    k0_pay4 (F := Ideal) x0 (ix2 h w) = x0 (ix4 (0 : Fin 1) (0 : Fin 1) h w) :=
  shapeCast_11ab_ab_apply x0 shapeCasts_S1x1x768x768_S768x768 h w

/-- The second image as a matrix: entry `(h, w)` is the block's entry `(0, 0, h, w)`. -/
theorem pay5_apply (x1 : Vec Ideal S1x1x768x768 .f32) (h w : Fin 768) :
    k0_pay5 (F := Ideal) x1 (ix2 h w) = x1 (ix4 (0 : Fin 1) (0 : Fin 1) h w) :=
  shapeCast_11ab_ab_apply x1 shapeCasts_S1x1x768x768_S768x768 h w

end Cert.KernelIdeal.BlockValue
-- ==== Proof.BlockScalars.lean ====
import proofs.«143279_j39702677684512_1_alg».proof.Proof.Gen.KernelIdeal.Skeleton
import proofs.«143279_j39702677684512_1_alg».proof.Proof.BlockCasts
import Idealize.ShloMosaic.Lib.ValueIdx
import Idealize.ShloMosaic.Lib.ValueLayout
import Idealize.ShloMosaic.Lib.Pipeline.Value
import Idealize.ShloMosaic.PureOps.Ideal.Laws

/-!
# The third plane a grid point stores, read at its three places

The third 8 × 8 plane holds three scalars — the sum of squared differences and the two pixel totals — at columns 0, 1, 2
of row 0 and zero elsewhere. Each scalar is spread over the plane, kept where a mask built from the row and column
numbers marks its place and replaced by zero elsewhere, and the three masked planes are added. The masks are
"row = 0 and column = 0", "row = 0 and column = 1", "row = 0 and column = 2". Over the extended reals
0 + x = x + 0 = x, so at each of the three places the plane reads the scalar itself.
-/

namespace Cert.KernelIdeal.BlockValue

open Idealize.ShloMosaic Idealize.ShloMosaic.ValueIdx Cert.KernelIdeal Cert.KernelIdeal.Gen

/-- A `[1, 1]` array spread over the 8 × 8 plane reads its one entry everywhere. -/
theorem spread_apply (v : FVec Ideal S1x1 .f32) (r c : Fin 8) :
    broadcastTo S8x8 (shapeCast S1x1 v shapeCasts_S1x1_S1x1) broadcasts_S1x1_S8x8 (ix2 r c)
      = v (ix2 (0 : Fin 1) (0 : Fin 1)) := by
  rw [shapeCast_self v shapeCasts_S1x1_S1x1]
  refine broadcastTo_apply v broadcasts_S1x1_S8x8 (ix2 r c) (ix2 (0 : Fin 1) (0 : Fin 1)) fun ax => ?_
  match ax with
  | ⟨0, _⟩ => rfl
  | ⟨1, _⟩ => rfl

/-- A scalar kept under a mask and replaced by the zero constant elsewhere, read at an entry. -/
theorem masked_apply (m : IVec S8x8 1) (v : FVec Ideal S1x1 .f32) (r c : Fin 8) :
    select m (broadcastTo S8x8 (shapeCast S1x1 v shapeCasts_S1x1_S1x1) broadcasts_S1x1_S8x8)
        (broadcast S8x8 (Scalar.ofBits (F := Ideal) .f32 0x00000000#32)) (ix2 r c)
      = if m (ix2 r c) = 1#1 then v (ix2 (0 : Fin 1) (0 : Fin 1)) else 0 := by
  show Scalar.select (m (ix2 r c))
      (broadcastTo S8x8 (shapeCast S1x1 v shapeCasts_S1x1_S1x1) broadcasts_S1x1_S8x8 (ix2 r c))
      (Ideal.ofBits .f32 0x00000000#32) = _
  rw [spread_apply, Ideal.ofBits_zero_f32]
  rfl

/-- The sum of three masked scalars, read at an entry. -/
theorem plane_apply (m0 m1 m2 : IVec S8x8 1) (v9 v13 v17 : FVec Ideal S1x1 .f32) (r c : Fin 8) :
    addf (addf
        (select m0 (broadcastTo S8x8 (shapeCast S1x1 v9 shapeCasts_S1x1_S1x1) broadcasts_S1x1_S8x8)
          (broadcast S8x8 (Scalar.ofBits (F := Ideal) .f32 0x00000000#32)))
        (select m1 (broadcastTo S8x8 (shapeCast S1x1 v13 shapeCasts_S1x1_S1x1) broadcasts_S1x1_S8x8)
          (broadcast S8x8 (Scalar.ofBits (F := Ideal) .f32 0x00000000#32))))
        (select m2 (broadcastTo S8x8 (shapeCast S1x1 v17 shapeCasts_S1x1_S1x1) broadcasts_S1x1_S8x8)
          (broadcast S8x8 (Scalar.ofBits (F := Ideal) .f32 0x00000000#32))) (ix2 r c)
      = ((if m0 (ix2 r c) = 1#1 then v9 (ix2 (0 : Fin 1) (0 : Fin 1)) else 0)
          + (if m1 (ix2 r c) = 1#1 then v13 (ix2 (0 : Fin 1) (0 : Fin 1)) else 0))
        + (if m2 (ix2 r c) = 1#1 then v17 (ix2 (0 : Fin 1) (0 : Fin 1)) else 0) := by
  rw [addf_apply, addf_apply, masked_apply, masked_apply, masked_apply]

/-- The row numbers of the plane. -/
theorem rowNo_apply (r c : Fin 8) : iota .tc S8x8 32 [0] iota_S8x8_d0_w32 (ix2 r c) = BitVec.ofNat 32 r.val :=
  iota_single_apply .tc S8x8 32 0 iota_S8x8_d0_w32 (ix2 r c)

/-- The column numbers of the plane. -/
theorem colNo_apply (r c : Fin 8) : iota .tc S8x8 32 [1] iota_S8x8_d1_w32 (ix2 r c) = BitVec.ofNat 32 c.val :=
  iota_single_apply .tc S8x8 32 1 iota_S8x8_d1_w32 (ix2 r c)

/-- The mask "row = 0 and column = 0" at row `r`, column `c`. -/
theorem mask0_apply (r c : Fin 8) :
    k0_pay12 (ix2 r c)
      = IntOp.andi (IntOp.cmpi .eq (BitVec.ofNat 32 r.val) 0#32) (IntOp.cmpi .eq (BitVec.ofNat 32 c.val) 0#32) := by
  show IntOp.andi (IntOp.cmpi .eq (iota .tc S8x8 32 [0] iota_S8x8_d0_w32 (ix2 r c)) 0#32)
      (IntOp.cmpi .eq (iota .tc S8x8 32 [1] iota_S8x8_d1_w32 (ix2 r c)) 0#32) = _
  rw [rowNo_apply, colNo_apply]

/-- The mask "row = 0 and column = 1" at row `r`, column `c`. -/
theorem mask1_apply (r c : Fin 8) :
    andi k0_pay13 (cmpi .eq (iota .tc S8x8 32 [1] iota_S8x8_d1_w32) (broadcast S8x8 1#32)) (ix2 r c)
      = IntOp.andi (IntOp.cmpi .eq (BitVec.ofNat 32 r.val) 0#32) (IntOp.cmpi .eq (BitVec.ofNat 32 c.val) 1#32) := by
  show IntOp.andi (IntOp.cmpi .eq (iota .tc S8x8 32 [0] iota_S8x8_d0_w32 (ix2 r c)) 0#32)
      (IntOp.cmpi .eq (iota .tc S8x8 32 [1] iota_S8x8_d1_w32 (ix2 r c)) 1#32) = _
  rw [rowNo_apply, colNo_apply]

/-- The mask "row = 0 and column = 2" at row `r`, column `c`. -/
theorem mask2_apply (r c : Fin 8) :
    andi (cmpi .eq (iota .tc S8x8 32 [0] iota_S8x8_d0_w32) (broadcast S8x8 0#32))
        (cmpi .eq (iota .tc S8x8 32 [1] iota_S8x8_d1_w32) (broadcast S8x8 2#32)) (ix2 r c)
      = IntOp.andi (IntOp.cmpi .eq (BitVec.ofNat 32 r.val) 0#32) (IntOp.cmpi .eq (BitVec.ofNat 32 c.val) 2#32) := by
  show IntOp.andi (IntOp.cmpi .eq (iota .tc S8x8 32 [0] iota_S8x8_d0_w32 (ix2 r c)) 0#32)
      (IntOp.cmpi .eq (iota .tc S8x8 32 [1] iota_S8x8_d1_w32 (ix2 r c)) 2#32) = _
  rw [rowNo_apply, colNo_apply]

/-- The third stored plane at row 0, column `c`: the three scalars under the three masks, added. -/
theorem pay3_row0 (v9 v13 v17 : FVec Ideal S1x1 .f32) (c : Fin 8) :
    k0_pay3 (F := Ideal) v9 v13 v17 (iota .tc S8x8 32 [0] iota_S8x8_d0_w32) (iota .tc S8x8 32 [1] iota_S8x8_d1_w32)
        k0_pay12 k0_pay13 1#32 (ix4 (0 : Fin 1) (0 : Fin 1) (0 : Fin 8) c)
      = ((if IntOp.andi (IntOp.cmpi .eq (BitVec.ofNat 32 0) 0#32) (IntOp.cmpi .eq (BitVec.ofNat 32 c.val) 0#32) = 1#1
            then v9 (ix2 (0 : Fin 1) (0 : Fin 1)) else 0)
          + (if IntOp.andi (IntOp.cmpi .eq (BitVec.ofNat 32 0) 0#32) (IntOp.cmpi .eq (BitVec.ofNat 32 c.val) 1#32) = 1#1
            then v13 (ix2 (0 : Fin 1) (0 : Fin 1)) else 0))
        + (if IntOp.andi (IntOp.cmpi .eq (BitVec.ofNat 32 0) 0#32) (IntOp.cmpi .eq (BitVec.ofNat 32 c.val) 2#32) = 1#1
            then v17 (ix2 (0 : Fin 1) (0 : Fin 1)) else 0) := by
  unfold k0_pay3
  refine (shapeCast_ab_11ab_apply _ shapeCasts_S8x8_S1x1x8x8 0 0 0 c).trans ?_
  refine (plane_apply _ _ _ v9 v13 v17 0 c).trans ?_
  rw [mask0_apply, mask1_apply, mask2_apply]
  rfl

/-- At row 0, column 0 the third plane reads the sum of squared differences. -/
theorem pay3_00 (v9 v13 v17 : FVec Ideal S1x1 .f32) :
    k0_pay3 (F := Ideal) v9 v13 v17 (iota .tc S8x8 32 [0] iota_S8x8_d0_w32) (iota .tc S8x8 32 [1] iota_S8x8_d1_w32)
        k0_pay12 k0_pay13 1#32 (ix4 (0 : Fin 1) (0 : Fin 1) (0 : Fin 8) (0 : Fin 8))
      = v9 (ix2 (0 : Fin 1) (0 : Fin 1)) := by
  refine (pay3_row0 v9 v13 v17 0).trans ?_
  rw [if_pos (by decide), if_neg (by decide), if_neg (by decide), add_zero, add_zero]

/-- At row 0, column 1 the third plane reads the first image's total. -/
theorem pay3_01 (v9 v13 v17 : FVec Ideal S1x1 .f32) :
    k0_pay3 (F := Ideal) v9 v13 v17 (iota .tc S8x8 32 [0] iota_S8x8_d0_w32) (iota .tc S8x8 32 [1] iota_S8x8_d1_w32)
        k0_pay12 k0_pay13 1#32 (ix4 (0 : Fin 1) (0 : Fin 1) (0 : Fin 8) (1 : Fin 8))
      = v13 (ix2 (0 : Fin 1) (0 : Fin 1)) := by
  refine (pay3_row0 v9 v13 v17 1).trans ?_
  rw [if_neg (by decide), if_pos (by decide), if_neg (by decide), zero_add, add_zero]

/-- At row 0, column 2 the third plane reads the second image's total. -/
theorem pay3_02 (v9 v13 v17 : FVec Ideal S1x1 .f32) :
    k0_pay3 (F := Ideal) v9 v13 v17 (iota .tc S8x8 32 [0] iota_S8x8_d0_w32) (iota .tc S8x8 32 [1] iota_S8x8_d1_w32)
        k0_pay12 k0_pay13 1#32 (ix4 (0 : Fin 1) (0 : Fin 1) (0 : Fin 8) (2 : Fin 8))
      = v17 (ix2 (0 : Fin 1) (0 : Fin 1)) := by
  refine (pay3_row0 v9 v13 v17 2).trans ?_
  rw [if_neg (by decide), if_neg (by decide), if_pos (by decide), zero_add, zero_add]

end Cert.KernelIdeal.BlockValue
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.BlockSums.lean ====
import proofs.«143279_j39702677684512_1_alg».proof.Proof.Gen.KernelIdeal.Skeleton
import proofs.«143279_j39702677684512_1_alg».proof.Proof.BlockCasts
import proofs.«143279_j39702677684512_1_alg».proof.Proof.LibKeepdimsSum
import Idealize.ShloMosaic.Lib.ValueIdx
import Idealize.ShloMosaic.Lib.ValueLayout
import Idealize.ShloMosaic.Lib.Pipeline.Value
import Idealize.ShloMosaic.PureOps.Ideal.Laws

/-!
# The three totals of a grid point

The body takes the total of a `[768, 768]` matrix by two lane sums: along each row into a column of 768 row sums, then
down that column into one number, each from the zero accumulator. Over the extended reals each is a plain finite
sum, so the total is the double sum of the matrix, rows outside and columns inside. The three totals are those of
the squared difference of the two images and of each image.
-/

namespace Cert.KernelIdeal.BlockValue

open Idealize.ShloMosaic Idealize.ShloMosaic.ValueIdx Cert.KernelIdeal Cert.KernelIdeal.Gen

/-- Both lane sums of an `[a, b]` matrix — along the rows into an `[a, 1]` column, then down the column — from zero
    accumulators, read over the extended reals: the one entry of the result is the double sum of the matrix. -/
theorem total_apply {a b : ℕ} (src : FVec Ideal (⟨2, ![a, b]⟩ : Shape) .f32)
    (h1 : (⟨2, ![a, b]⟩ : Shape).Reduces [1] ⟨1, ![a]⟩) (hφ1 : FKind.Formats .f32)
    (hacc1 : (0x00000000#32 : BitVec 32) = FKind.add.neutral .f32 hφ1)
    (hc1 : (⟨1, ![a]⟩ : Shape).ShapeCasts ⟨2, ![a, 1]⟩)
    (h2 : (⟨2, ![a, 1]⟩ : Shape).Reduces [0] ⟨1, ![1]⟩) (hφ2 : FKind.Formats .f32)
    (hacc2 : (0x00000000#32 : BitVec 32) = FKind.add.neutral .f32 hφ2)
    (hc2 : (⟨1, ![1]⟩ : Shape).ShapeCasts ⟨2, ![1, 1]⟩) :
    shapeCast ⟨2, ![1, 1]⟩
        (multiReduction .add [0] ⟨1, ![1]⟩
          (shapeCast ⟨2, ![a, 1]⟩ (multiReduction .add [1] ⟨1, ![a]⟩ src 0x00000000#32 h1 hφ1 hacc1) hc1)
          0x00000000#32 h2 hφ2 hacc2) hc2 (ix2 (0 : Fin 1) (0 : Fin 1))
      = ∑ p : Fin a, ∑ k : Fin b, src (ix2 p k) := by
  refine (KeepdimsSum.shapeCast_a_a1_apply _ hc2 0 0).trans ?_
  refine (Ideal.multiReduction_add_single _ 0x00000000#32 h2 hφ2 hacc2 (ix1 (0 : Fin 1))).trans ?_
  refine Finset.sum_congr rfl fun p _ => ?_
  have hl : h2.lift (ix1 (0 : Fin 1)) p = ix2 (⟨p.val, p.isLt⟩ : Fin a) (0 : Fin 1) := by
    funext c; refine Fin.ext ?_
    match c with
    | ⟨0, _⟩ => rfl
    | ⟨1, _⟩ => rfl
  rw [hl]
  exact KeepdimsSum.rowSum_column_apply src h1 hφ1 hacc1 hc1 _ 0

/-- The total of the squared difference of the two images. -/
theorem pay6_apply (x0 x1 : Vec Ideal S1x1x768x768 .f32) :
    k0_pay6 (F := Ideal) x0 x1 (ix2 (0 : Fin 1) (0 : Fin 1))
      = ∑ h : Fin 768, ∑ w : Fin 768,
          (x0 (ix4 (0 : Fin 1) (0 : Fin 1) h w) - x1 (ix4 (0 : Fin 1) (0 : Fin 1) h w))
            * (x0 (ix4 (0 : Fin 1) (0 : Fin 1) h w) - x1 (ix4 (0 : Fin 1) (0 : Fin 1) h w)) := by
  refine (total_apply (mulf (subf (k0_pay4 x0) (k0_pay5 x1)) (subf (k0_pay4 x0) (k0_pay5 x1)))
    reduces_S768x768_S768 (.inl rfl) rfl shapeCasts_S768_S768x1 reduces_S768x1_S1 (.inl rfl) rfl
    shapeCasts_S1_S1x1).trans ?_
  refine Finset.sum_congr rfl fun h _ => Finset.sum_congr rfl fun w _ => ?_
  rw [mulf_apply, subf_apply, pay4_apply, pay5_apply]

/-- The total of the first image. -/
theorem pay7_apply (x0 : Vec Ideal S1x1x768x768 .f32) :
    k0_pay7 (F := Ideal) x0 (ix2 (0 : Fin 1) (0 : Fin 1))
      = ∑ h : Fin 768, ∑ w : Fin 768, x0 (ix4 (0 : Fin 1) (0 : Fin 1) h w) := by
  refine (total_apply (k0_pay4 x0) reduces_S768x768_S768 (.inl rfl) rfl shapeCasts_S768_S768x1
    reduces_S768x1_S1 (.inl rfl) rfl shapeCasts_S1_S1x1).trans ?_
  exact Finset.sum_congr rfl fun h _ => Finset.sum_congr rfl fun w _ => pay4_apply x0 h w

/-- The total of the second image. -/
theorem pay8_apply (x1 : Vec Ideal S1x1x768x768 .f32) :
    k0_pay8 (F := Ideal) x1 (ix2 (0 : Fin 1) (0 : Fin 1))
      = ∑ h : Fin 768, ∑ w : Fin 768, x1 (ix4 (0 : Fin 1) (0 : Fin 1) h w) := by
  refine (total_apply (k0_pay5 x1) reduces_S768x768_S768 (.inl rfl) rfl shapeCasts_S768_S768x1
    reduces_S768x1_S1 (.inl rfl) rfl shapeCasts_S1_S1x1).trans ?_
  exact Finset.sum_congr rfl fun h _ => Finset.sum_congr rfl fun w _ => pay5_apply x1 h w

end Cert.KernelIdeal.BlockValue
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«143279_j39702677684512_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.BlockPool.lean ====
import proofs.«143279_j39702677684512_1_alg».proof.Proof.Gen.KernelIdeal.Skeleton
import proofs.«143279_j39702677684512_1_alg».proof.Proof.BlockCasts
import proofs.«143279_j39702677684512_1_alg».proof.Proof.LibRowsTimes
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic

/-!
# The cell sums of a grid point

The body gets the 8 × 8 sums of an image over its cells of 96 × 96 pixels in two steps. The matrix is viewed as
`[8, 96, 768]` — row `96 i + r` becomes `(i, r)` — and summed over `r`: entry `(i, k)` is the sum of the 96 rows of
band `i` at column `k`. That `[8, 768]` matrix is multiplied into a zero accumulator by the `[768, 8]` pooling matrix,
whose entry `(k, j)` is 1 when column `k` lies in cell column `j` and 0 otherwise. Over the extended reals x · 1 = x and
x · 0 = 0 for every x, so the product's entry `(i, j)` keeps exactly the columns `96 j + q`:
Σ_k (Σ_r x[96 i + r, k]) · pool[k, j] = Σ_q Σ_r x[96 i + r, 96 j + q] = Σ_r Σ_q x[96 i + r, 96 j + q].
Only the laws of a commutative monoid under + and the two products by 1 and 0 are used.
-/

namespace Cert.KernelIdeal.BlockValue

open Idealize.ShloMosaic Idealize.ShloMosaic.ValueIdx Cert.KernelIdeal Cert.KernelIdeal.Gen

/-- The pooling matrix: entry `(k, j)` is 1 when column `k` lies in cell `j` (`k / 96 = j`), else 0. -/
def IsPool (x2 : Vec Ideal S768x8 .f32) : Prop :=
  ∀ (k : Fin 768) (j : Fin 8), x2 (ix2 k j) = if k.val / 96 = j.val then 1 else 0

/-- A sum over 768 consecutive indices is the sum over the 8 tiles of width 96 of the sums inside each tile. -/
theorem sum_fin768 {M : Type*} [AddCommMonoid M] (f : Fin 768 → M) :
    ∑ k, f k = ∑ c : Fin 8, ∑ q : Fin 96, f ⟨96 * c.val + q.val, by omega⟩ := by
  have e := Equiv.sum_comp (finProdFinEquiv (m := 8) (n := 96)) (f : Fin (8 * 96) → M)
  rw [Fintype.sum_prod_type] at e
  refine e.symm.trans ?_
  refine Finset.sum_congr rfl fun c _ => Finset.sum_congr rfl fun q _ => congrArg f (Fin.ext ?_)
  show q.val + 96 * c.val = 96 * c.val + q.val
  omega

/-- Weighting by the indicator of tile `j` keeps that tile's 96 terms. -/
theorem pool_sum (f : Fin 768 → EReal) (j : Fin 8) :
    ∑ k : Fin 768, f k * (if k.val / 96 = j.val then (1 : EReal) else 0)
      = ∑ q : Fin 96, f ⟨96 * j.val + q.val, by omega⟩ := by
  refine (sum_fin768 _).trans ?_
  refine (Finset.sum_eq_single j ?_ ?_).trans ?_
  · intro c _ hc
    refine Finset.sum_eq_zero fun q _ => ?_
    have hne : ¬ (96 * c.val + q.val) / 96 = j.val := by
      have := Fin.val_ne_of_ne hc
      omega
    show f _ * (if (96 * c.val + q.val) / 96 = j.val then (1 : EReal) else 0) = 0
    rw [if_neg hne, mul_zero]
  · intro h; exact absurd (Finset.mem_univ j) h
  · refine Finset.sum_congr rfl fun q _ => ?_
    have he : (96 * j.val + q.val) / 96 = j.val := by omega
    show f _ * (if (96 * j.val + q.val) / 96 = j.val then (1 : EReal) else 0) = f _
    rw [if_pos he, mul_one]

/-- The `[768, 768]` matrix viewed as `[8, 96, 768]` and summed over its middle axis from the zero accumulator, over
    the extended reals: entry `(i, k)` is the sum of the 96 rows of band `i` at column `k`. -/
theorem bandSum_apply (src : FVec Ideal S768x768 .f32) (hφ : FKind.Formats .f32)
    (hacc : (0x00000000#32 : BitVec 32) = FKind.add.neutral .f32 hφ) (i : Fin 8) (k : Fin 768) :
    multiReduction .add [1] S8x768 (shapeCast S8x96x768 src shapeCasts_S768x768_S8x96x768) 0x00000000#32
        reduces_S8x96x768_S8x768 hφ hacc (ix2 i k)
      = ∑ r : Fin 96, src (ix2 (⟨96 * i.val + r.val, by omega⟩ : Fin 768) k) := by
  refine (Ideal.multiReduction_add_single _ 0x00000000#32 reduces_S8x96x768_S8x768 hφ hacc (ix2 i k)).trans ?_
  refine Finset.sum_congr rfl fun r _ => ?_
  have hl : reduces_S8x96x768_S8x768.lift (ix2 i k) r = ix3 i (⟨r.val, r.isLt⟩ : Fin 96) k := by
    funext c; refine Fin.ext ?_
    match c with
    | ⟨0, _⟩ => rfl
    | ⟨1, _⟩ => rfl
    | ⟨2, _⟩ => rfl
  rw [hl]
  exact shapeCast_apply src shapeCasts_S768x768_S8x96x768 _ _ (by
    rw [Shape.rowMajor_val_two, Shape.rowMajor_val_three]
    show (96 * i.val + r.val) * 768 + k.val = (i.val * 96 + r.val) * 768 + k.val
    rw [Nat.mul_comm 96 i.val])

/-- The band sums times the pooling matrix into the zero accumulator: entry `(i, j)` is the sum of the matrix over
    cell `(i, j)`, rows outside and columns inside. -/
theorem pool_apply (src : FVec Ideal S768x768 .f32) (x2 : Vec Ideal S768x8 .f32) (hx2 : IsPool x2) (i j : Fin 8) :
    matmul dot_S8x768_S768x8_S8x8_1_0_0_1_n_n (some .fp32)
        (multiReduction .add [1] S8x768 (shapeCast S8x96x768 src shapeCasts_S768x768_S8x96x768) 0x00000000#32
          reduces_S8x96x768_S8x768 (.inl rfl) rfl)
        (k0_pay9 (F := Ideal) x2) (constant S8x8 .f32 0x00000000#32) (ix2 i j)
      = ∑ r : Fin 96, ∑ q : Fin 96,
          src (ix2 (⟨96 * i.val + r.val, by omega⟩ : Fin 768) (⟨96 * j.val + q.val, by omega⟩ : Fin 768)) := by
  refine (RowsTimes.matmul_zero_apply dot_S8x768_S768x8_S8x8_1_0_0_1_n_n rfl rfl rfl rfl rfl rfl rfl rfl
    (some .fp32) _ _ i j).trans ?_
  have hterm : ∀ k : Fin 768,
      multiReduction .add [1] S8x768 (shapeCast S8x96x768 src shapeCasts_S768x768_S8x96x768) 0x00000000#32
          reduces_S8x96x768_S8x768 (.inl rfl) rfl (ix2 i k) * k0_pay9 (F := Ideal) x2 (ix2 k j)
        = (∑ r : Fin 96, src (ix2 (⟨96 * i.val + r.val, by omega⟩ : Fin 768) k))
            * (if k.val / 96 = j.val then (1 : EReal) else 0) := by
    intro k
    have h9 : k0_pay9 (F := Ideal) x2 = x2 := shapeCast_self x2 shapeCasts_S768x8_S768x8
    rw [bandSum_apply src (.inl rfl) rfl i k, h9, hx2 k j]
  refine (Finset.sum_congr rfl fun k _ => hterm k).trans ?_
  refine (pool_sum (fun k => ∑ r : Fin 96, src (ix2 (⟨96 * i.val + r.val, by omega⟩ : Fin 768) k)) j).trans ?_
  exact Finset.sum_comm

/-- The first image's cell sums. -/
theorem pay10_apply (x0 : Vec Ideal S1x1x768x768 .f32) (x2 : Vec Ideal S768x8 .f32) (hx2 : IsPool x2) (i j : Fin 8) :
    k0_pay10 (F := Ideal) x0 x2 (ix2 i j)
      = ∑ r : Fin 96, ∑ q : Fin 96,
          x0 (ix4 (0 : Fin 1) (0 : Fin 1) (⟨96 * i.val + r.val, by omega⟩ : Fin 768)
            (⟨96 * j.val + q.val, by omega⟩ : Fin 768)) := by
  refine (pool_apply (k0_pay4 x0) x2 hx2 i j).trans ?_
  exact Finset.sum_congr rfl fun r _ => Finset.sum_congr rfl fun q _ => pay4_apply x0 _ _

/-- The second image's cell sums. -/
theorem pay11_apply (x1 : Vec Ideal S1x1x768x768 .f32) (x2 : Vec Ideal S768x8 .f32) (hx2 : IsPool x2) (i j : Fin 8) :
    k0_pay11 (F := Ideal) x1 x2 (ix2 i j)
      = ∑ r : Fin 96, ∑ q : Fin 96,
          x1 (ix4 (0 : Fin 1) (0 : Fin 1) (⟨96 * i.val + r.val, by omega⟩ : Fin 768)
            (⟨96 * j.val + q.val, by omega⟩ : Fin 768)) := by
  refine (pool_apply (k0_pay5 x1) x2 hx2 i j).trans ?_
  exact Finset.sum_congr rfl fun r _ => Finset.sum_congr rfl fun q _ => pay5_apply x1 _ _

end Cert.KernelIdeal.BlockValue
-- ==== Proof.BlockValue.lean ====
import proofs.«143279_j39702677684512_1_alg».proof.Proof.BlockCasts
import proofs.«143279_j39702677684512_1_alg».proof.Proof.BlockScalars
import proofs.«143279_j39702677684512_1_alg».proof.Proof.BlockSums
import proofs.«143279_j39702677684512_1_alg».proof.Proof.BlockPool

/-!
# A grid point's arithmetic, read at an index

Everything a grid point computes from its two 768 × 768 image blocks and the pooling matrix, over the extended reals:
the 8 × 8 sums of each image over its cells of 96 × 96 pixels (band sums times the pooling matrix), the totals of the
squared difference and of each image (two lane sums each), and the three planes it stores — the two grids of cell sums
and the plane holding the three totals at columns 0, 1, 2 of row 0. This module only gathers the four modules that
prove these readings.
-/
-- ==== Proof.PoolValue.lean ====
import proofs.«143279_j39702677684512_1_alg».proof.Proof.Gen.KernelIdeal.Launch
import Idealize.ShloMosaic.Lib.StableHlo.Run
import Idealize.ShloMosaic.Lib.ValueIdx
import Idealize.ShloMosaic.Lib.Affine

/-!
# The pooling matrix

What the host operations before the kernel's launch leave in the 768 × 8 operand the kernel multiplies by: entry (k, j)
is 1 when ⌊k / 96⌋ = j and 0 otherwise, over the extended reals.
-/

namespace Cert.KernelIdeal.PoolValue

open Idealize.ShloMosaic Idealize.ShloMosaic.ValueIdx Idealize.SL.Sem Cert.KernelIdeal Cert.KernelIdeal.Gen

noncomputable section

/-! ## The pooling matrix as one term

The host operations before the launch compute, on 32-bit words, the matrix whose entry (k, j) says whether
⌊k / 96⌋ = j, for 0 ≤ k < 768 and 0 ≤ j < 8, and convert that bit to a float. The floor division is spelt as a signed
division rounding toward zero, corrected by one where the signs of dividend and divisor differ and the remainder is
not zero. For a dividend 0 ≤ k < 768 and the divisor 96 the correction never applies. -/

/-- The sign of a word: 0, −1 or 1. -/
def sgn (x : BitVec 32) : BitVec 32 := if x = 0 then 0 else if x.msb then -1 else 1

/-- One entry of the comparison, on words: the floor division of `x` by 96 as the program spells it, compared with `y`. -/
def poolBit (x y : BitVec 32) : BitVec 1 :=
  IntOp.cmpi .eq
    (Scalar.select
      (IntOp.andi (IntOp.cmpi .ne (sgn x) (sgn 96#32)) (IntOp.cmpi .ne (IntOp.remsi .host x 96#32) 0#32))
      (IntOp.subi (IntOp.divsi .host x 96#32) 1#32)
      (IntOp.divsi .host x 96#32))
    y

/-- For 0 ≤ k < 768 and 0 ≤ j < 8 the entry is the bit of ⌊k / 96⌋ = j: decided over the two finite ranges. -/
theorem poolBit_nat : ∀ k < 768, ∀ j < 8,
    poolBit (BitVec.ofNat 32 k) (BitVec.ofNat 32 j) = if k / 96 = j then 1#1 else 0#1 := by
  decide +kernel

/-- The column of row numbers: entry (k, 0) is the word k. -/
def rowCol : IVec S768x1 32 := broadcastInDim S768x1 ![0] bcast_S768_S768x1_0 (iotaInDim S768 32 0)

/-- A scalar word as a column. -/
def colOf (x : IVec S_ 32) : IVec S768x1 32 := broadcastInDim S768x1 ![] bcast_S_S768x1 x

/-- The column of floor quotients ⌊k / 96⌋, as the program spells it. -/
def floorCol : IVec S768x1 32 :=
  select
    (andi (cmpi .ne (signi rowCol) (colOf (signi (constantI S_ 32 96#32))))
          (cmpi .ne (Host.remsi rowCol (colOf (constantI S_ 32 96#32))) (colOf (constantI S_ 32 0#32))))
    (subi (Host.divsi rowCol (colOf (constantI S_ 32 96#32))) (colOf (constantI S_ 32 1#32)))
    (Host.divsi rowCol (colOf (constantI S_ 32 96#32)))

/-- The pooling matrix: the bit of ⌊k / 96⌋ = j as a float. -/
def pool : FVec Ideal S768x8 .f32 :=
  uitofp .f32
    (cmpi .eq
      (broadcastInDim S768x8 ![0, 1] bcast_S768x1_S768x8_0_1 floorCol)
      (broadcastInDim S768x8 ![0, 1] bcast_S1x8_S768x8_0_1
        (broadcastInDim S1x8 ![1] bcast_S8_S1x8_1 (iotaInDim S8 32 0))))

/-- Entry (k, j) of the pooling matrix is the word entry, read as a natural number. -/
theorem pool_apply (k : Fin 768) (j : Fin 8) :
    pool (ix2 k j) = (((poolBit (BitVec.ofNat 32 k.val) (BitVec.ofNat 32 j.val)).toNat : ℝ) : EReal) := rfl

/-- The host operations before the launch leave the pooling matrix in the kernel's third operand. -/
theorem after_eq_pool (m : (ℓ : Loc nD τ sig) → Buf (Elt Ideal) ℓ) (c : Dev nD) :
    (StableHlo.after (List.flatten [hostOps0, hostOps0_1, hostOps0_2]) (fun b => m (c, b)) (Proc.devRef .tc main_v8) : S768x8.Idx → EReal)
      = pool := by
  simp only [hostOps0, hostOps0_1, hostOps0_2, List.flatten_cons, List.flatten_nil, List.append_nil, List.cons_append, List.nil_append]
  after_results
  rfl

/-- The pooling matrix as the host operations before the launch leave it, as a function of the index. -/
def poolArr (m : (ℓ : Loc nD τ sig) → Buf (Elt Ideal) ℓ) (c : Dev nD) : S768x8.Idx → EReal :=
  StableHlo.after (List.flatten [hostOps0, hostOps0_1, hostOps0_2]) (fun b => m (c, b)) (Proc.devRef .tc main_v8)

/-- It is the pooling matrix. -/
theorem poolArr_eq_pool (m : (ℓ : Loc nD τ sig) → Buf (Elt Ideal) ℓ) (c : Dev nD) : poolArr m c = pool :=
  after_eq_pool m c

/-- The pooling matrix the kernel reads: entry (k, j) is 1 when ⌊k / 96⌋ = j and 0 otherwise. -/
theorem pool_value (m : (ℓ : Loc nD τ sig) → Buf (Elt Ideal) ℓ) (c : Dev nD) (k : Fin 768) (j : Fin 8) :
    poolArr m c (ix2 k j) = if k.val / 96 = j.val then 1 else 0 := by
  rw [poolArr_eq_pool m c, pool_apply, poolBit_nat k.val k.isLt j.val j.isLt]
  by_cases h : k.val / 96 = j.val
  · rw [if_pos h, if_pos h]; simp
  · rw [if_neg h, if_neg h]; simp

end

end Cert.KernelIdeal.PoolValue
-- ==== Proof.LossSpec.lean ====
import Idealize.ShloMosaic.PureOps.Ideal
import Mathlib.Algebra.BigOperators.Fin

/-!
# The loss, as one function of the two density images and a domain term

Both programs compute, over the extended reals,

  100 · (Σ (p − g)²) / (32·768·768)  +  0.001 · (Σ_b |Σ p_b − Σ g_b|) / 32
    +  1 · (L₂ + L₄ + L₈) / 192  +  0.5 · D,

where, for a grid of n × n cells over each 768 × 768 image, Lₙ = Σ_cells (Σ_b |cell sum of p_b − cell sum of g_b|) / 32,
and D is the domain-classification term (the same host operations in both programs). The kernel gets every
cell sum from the finest 8 × 8 grid (cells of 96 × 96 pixels) by adding neighbouring cells; the reference sums
pixels directly. This module states each ingredient once, with the finest grid as the common ground.
The float constants stay as their binary words (the same word on both sides); only the zero word is read.
-/

noncomputable section

namespace Cert.LossSpec

open Idealize.ShloMosaic

/-- A batch of 32 images of 768 × 768 extended reals. -/
abbrev Img := Fin 32 → Fin 768 → Fin 768 → EReal

/-- Per image, the sums over the 8 × 8 cells of the finest grid. -/
abbrev Cells := Fin 32 → Fin 8 → Fin 8 → EReal

/-- The float absolute value read at the extended reals: max x (−x). -/
abbrev absE (x : EReal) : EReal := max x (-x)

/-- Σ over every batch entry and pixel of (p − g)². -/
def sqSum (P G : Img) : EReal := ∑ b, ∑ h, ∑ w, (P b h w - G b h w) * (P b h w - G b h w)

/-- The sum of image `b`'s pixels. -/
def total (P : Img) (b : Fin 32) : EReal := ∑ h, ∑ w, P b h w

/-- Σ_b |Σ p_b − Σ g_b|. -/
def countSum (P G : Img) : EReal := ∑ b, absE (total P b - total G b)

/-- The sum of image `b` over cell (i, j) of the finest grid: rows 96 i … 96 i + 95, columns 96 j … 96 j + 95. -/
def cell8 (P : Img) : Cells := fun b i j =>
  ∑ r : Fin 96, ∑ q : Fin 96, P b ⟨96 * i.val + r.val, by omega⟩ ⟨96 * j.val + q.val, by omega⟩

/-- A cell of the 4 × 4 grid is 2 × 2 cells of the finest grid. -/
def cell4 (c : Cells) (b : Fin 32) (i j : Fin 4) : EReal :=
  ∑ a : Fin 2, ∑ a' : Fin 2, c b ⟨2 * i.val + a.val, by omega⟩ ⟨2 * j.val + a'.val, by omega⟩

/-- A cell of the 2 × 2 grid is 4 × 4 cells of the finest grid. -/
def cell2 (c : Cells) (b : Fin 32) (i j : Fin 2) : EReal :=
  ∑ a : Fin 4, ∑ a' : Fin 4, c b ⟨4 * i.val + a.val, by omega⟩ ⟨4 * j.val + a'.val, by omega⟩

/-- One pyramid level: Σ over the n × n cells of (Σ_b |cell of p_b − cell of g_b|) / 32 (the divisor a float word). -/
def levelSum {n : ℕ} (cP cG : Fin 32 → Fin n → Fin n → EReal) : EReal :=
  ∑ i : Fin n, ∑ j : Fin n, Ideal.div (∑ b, absE (cP b i j - cG b i j)) (Ideal.ofBits .f32 0x42000000#32)

/-- The three levels, coarsest first, added as the programs add them, from the finest grid's cell sums. -/
def regionalOf (cP cG : Cells) : EReal :=
  (levelSum (cell2 cP) (cell2 cG) + levelSum (cell4 cP) (cell4 cG)) + levelSum cP cG

/-- The weighted total from the four partial losses: sum of squares, count, regional, domain. -/
def combine (sq cnt reg dom : EReal) : EReal :=
  ((Ideal.ofBits .f32 0x42C80000#32 * Ideal.div sq (Ideal.ofBits .f32 0x4B900000#32)
      + Ideal.ofBits .f32 0x3A83126F#32 * Ideal.div cnt (Ideal.ofBits .f32 0x42000000#32))
    + Ideal.ofBits .f32 0x3F800000#32 * Ideal.div reg (Ideal.ofBits .f32 0x43400000#32))
  + Ideal.ofBits .f32 0x3F000000#32 * dom

/-- The loss of two image batches and a domain term. -/
def loss (P G : Img) (dom : EReal) : EReal :=
  combine (sqSum P G) (countSum P G) (regionalOf (cell8 P) (cell8 G)) dom

end Cert.LossSpec

end
-- ==== Proof.TailTerm.lean ====
import proofs.«143279_j39702677684512_1_alg».proof.Proof.Gen.KernelIdeal.Launch
import proofs.«143279_j39702677684512_1_alg».proof.Proof.LossSpec
import Idealize.ShloMosaic.Lib.StableHlo.Run
import Idealize.ShloMosaic.Lib.ValueIdx

/-!
# The host operations after the kernel launch, as one term of the statistics array and the two logit arrays

The 171 host operations that follow the launch compute the scalar loss from the launch's 32 x 3 x 8 x 8
statistics array (plane 0 and plane 1: per image the 8 x 8 cell sums of the two density arrays; plane 2: per
image the sum of squared differences and the two pixel totals) and from the two 32 x 2 logit arrays. This
module names that composition piece by piece and shows that the loss buffer holds it after the operations
have run in order.
-/

noncomputable section

namespace Cert.KernelIdeal.TailValue

open Idealize.ShloMosaic Idealize.ShloMosaic.ValueIdx Idealize.SL.Sem Cert.KernelIdeal Cert.KernelIdeal.Gen Cert.LossSpec

/-- The float zero word as a scalar array: every sum's initial value. -/
def zeroK : FVec Ideal S_ .f32 := constant S_ .f32 0x00000000#32
/-- The batch size 32 as a float scalar array. -/
def thirtyTwoK : FVec Ideal S_ .f32 := constant S_ .f32 0x42000000#32

/-- Plane 0 of the statistics array: per image the 8 x 8 cell sums of the first density array. -/
def plane0 (st : FVec Ideal S32x3x8x8 .f32) : FVec Ideal S32x8x8 .f32 :=
  shapeCast _ (extractStridedSlice S32x1x8x8 ![0, 0, 0, 0] st slices_S32x3x8x8_S32x1x8x8_0_0_0_0) shapeCasts_S32x1x8x8_S32x8x8
/-- Plane 1: the cell sums of the second density array. -/
def plane1 (st : FVec Ideal S32x3x8x8 .f32) : FVec Ideal S32x8x8 .f32 :=
  shapeCast _ (extractStridedSlice S32x1x8x8 ![0, 1, 0, 0] st slices_S32x3x8x8_S32x1x8x8_0_1_0_0) shapeCasts_S32x1x8x8_S32x8x8
/-- Plane 2: the per-image scalars. -/
def plane2 (st : FVec Ideal S32x3x8x8 .f32) : FVec Ideal S32x8x8 .f32 :=
  shapeCast _ (extractStridedSlice S32x1x8x8 ![0, 2, 0, 0] st slices_S32x3x8x8_S32x1x8x8_0_2_0_0) shapeCasts_S32x1x8x8_S32x8x8
/-- Entry (0, 0) of plane 2, per image: the sum of squared differences. -/
def scal0 (st : FVec Ideal S32x3x8x8 .f32) : FVec Ideal S32 .f32 :=
  shapeCast _ (extractStridedSlice S32x1x1 ![0, 0, 0] (plane2 st) slices_S32x8x8_S32x1x1_0_0_0) shapeCasts_S32x1x1_S32
/-- Entry (0, 1): the first density array's pixel total. -/
def scal1 (st : FVec Ideal S32x3x8x8 .f32) : FVec Ideal S32 .f32 :=
  shapeCast _ (extractStridedSlice S32x1x1 ![0, 0, 1] (plane2 st) slices_S32x8x8_S32x1x1_0_0_1) shapeCasts_S32x1x1_S32
/-- Entry (0, 2): the second density array's pixel total. -/
def scal2 (st : FVec Ideal S32x3x8x8 .f32) : FVec Ideal S32 .f32 :=
  shapeCast _ (extractStridedSlice S32x1x1 ![0, 0, 2] (plane2 st) slices_S32x8x8_S32x1x1_0_0_2) shapeCasts_S32x1x1_S32

/-- The mean squared difference: the batch sum of the per-image sums over the pixel count. -/
def sqK (st : FVec Ideal S32x3x8x8 .f32) : FVec Ideal S_ .f32 :=
  Host.divf (Host.reduceAdd (scal0 st) zeroK reducesTo_S32_S_d0 h_S_) (constant S_ .f32 0x4B900000#32)
/-- The count term: the batch mean of the absolute difference of the totals. -/
def cntK (st : FVec Ideal S32x3x8x8 .f32) : FVec Ideal S_ .f32 :=
  Host.divf (Host.reduceAdd (Host.absf (subf (scal1 st) (scal2 st))) zeroK reducesTo_S32_S_d0 h_S_) thirtyTwoK

/-- The 2 x 2 grid's cell sums: 4 x 4 blocks of the finest grid's. -/
def pool2 (c : FVec Ideal S32x8x8 .f32) : FVec Ideal S32x2x2 .f32 :=
  Host.reduceAdd (shapeCast _ c shapeCasts_S32x8x8_S32x2x4x2x4) zeroK reducesTo_S32x2x4x2x4_S32x2x2_d2_4 h_S_
/-- The 4 x 4 grid's cell sums: 2 x 2 blocks of the finest grid's. -/
def pool4 (c : FVec Ideal S32x8x8 .f32) : FVec Ideal S32x4x4 .f32 :=
  Host.reduceAdd (shapeCast _ c shapeCasts_S32x8x8_S32x4x2x4x2) zeroK reducesTo_S32x4x2x4x2_S32x4x4_d2_4 h_S_

/-- One level over the 2 x 2 grid: the sum over cells of the batch mean of the absolute difference. -/
def lvl2 (p g : FVec Ideal S32x2x2 .f32) : FVec Ideal S_ .f32 :=
  Host.reduceAdd (Host.divf (Host.reduceAdd (Host.absf (subf p g)) zeroK reducesTo_S32x2x2_S2x2_d0 h_S_)
    (broadcastInDim S2x2 ![] bcast_S_S2x2 thirtyTwoK)) zeroK reducesTo_S2x2_S_d0_1 h_S_
/-- The same over the 4 x 4 grid. -/
def lvl4 (p g : FVec Ideal S32x4x4 .f32) : FVec Ideal S_ .f32 :=
  Host.reduceAdd (Host.divf (Host.reduceAdd (Host.absf (subf p g)) zeroK reducesTo_S32x4x4_S4x4_d0 h_S_)
    (broadcastInDim S4x4 ![] bcast_S_S4x4 thirtyTwoK)) zeroK reducesTo_S4x4_S_d0_1 h_S_
/-- The same over the 8 x 8 grid. -/
def lvl8 (p g : FVec Ideal S32x8x8 .f32) : FVec Ideal S_ .f32 :=
  Host.reduceAdd (Host.divf (Host.reduceAdd (Host.absf (subf p g)) zeroK reducesTo_S32x8x8_S8x8_d0 h_S_)
    (broadcastInDim S8x8 ![] bcast_S_S8x8 thirtyTwoK)) zeroK reducesTo_S8x8_S_d0_1 h_S_

/-- The regional term: the three levels, coarsest first, over the number of levels' cells. -/
def regK (st : FVec Ideal S32x3x8x8 .f32) : FVec Ideal S_ .f32 :=
  Host.divf (addf (addf (addf zeroK (lvl2 (pool2 (plane0 st)) (pool2 (plane1 st)))) (lvl4 (pool4 (plane0 st)) (pool4 (plane1 st))))
    (lvl8 (plane0 st) (plane1 st))) (constant S_ .f32 0x43400000#32)

/-- The domain term as a scalar array: for each logit array the batch mean of the negated log-probability that
    log-softmax gives the array's own class (class 0 for the first array, class 1 for the second), the two
    halved. Written as the plain composition of the host operations, in program order. -/
def domT (x2 x3 : FVec Ideal S32x2 .f32) : FVec Ideal S_ .f32 :=
  (Host.divf (addf
    (Host.negf (Host.divf (Host.reduceAdd (select (Host.reduce IntOp.andi (andi (cmpi .sge (shapeCast _ (select (cmpi .slt (broadcastInDim S32x1 ![0] bcast_S32_S32x1_0 (broadcastInDim S32 ![] bcast_S_S32 (constantI S_ 32 0#32))) (broadcastInDim S32x1 ![] bcast_S_S32x1 (constantI S_ 32 0#32))) (addi (broadcastInDim S32x1 ![0] bcast_S32_S32x1_0 (broadcastInDim S32 ![] bcast_S_S32 (constantI S_ 32 0#32))) (broadcastInDim S32x1 ![] bcast_S_S32x1 (constantI S_ 32 2#32))) (broadcastInDim S32x1 ![0] bcast_S32_S32x1_0 (broadcastInDim S32 ![] bcast_S_S32 (constantI S_ 32 0#32)))) shapeCasts_S32x1_S32x1x1) (broadcastInDim S32x1x1 ![] bcast_S_S32x1x1 (constantI S_ 32 0#32))) (cmpi .sle (shapeCast _ (select (cmpi .slt (broadcastInDim S32x1 ![0] bcast_S32_S32x1_0 (broadcastInDim S32 ![] bcast_S_S32 (constantI S_ 32 0#32))) (broadcastInDim S32x1 ![] bcast_S_S32x1 (constantI S_ 32 0#32))) (addi (broadcastInDim S32x1 ![0] bcast_S32_S32x1_0 (broadcastInDim S32 ![] bcast_S_S32 (constantI S_ 32 0#32))) (broadcastInDim S32x1 ![] bcast_S_S32x1 (constantI S_ 32 2#32))) (broadcastInDim S32x1 ![0] bcast_S32_S32x1_0 (broadcastInDim S32 ![] bcast_S_S32 (constantI S_ 32 0#32)))) shapeCasts_S32x1_S32x1x1) (broadcastInDim S32x1x1 ![0, 1, 2] bcast_S1x1x1_S32x1x1_0_1_2 (broadcastInDim S1x1x1 ![2] bcast_S1_S1x1x1_2 (constantI S1 32 1#32))))) (constantI S_ 1 1#1) reducesTo_S32x1x1_S32x1_d2 h_S_) (Host.gather gather_S32x2_S32x1x1_S32x1_n_1_0_0_1_2_11 (subf (subf x2 (broadcastInDim S32x2 ![0, 1] bcast_S32x1_S32x2_0_1 (broadcastInDim S32x1 ![0] bcast_S32_S32x1_0 (maximumf (broadcastInDim S32 ![] bcast_S_S32 (constant (F := Ideal) S_ .f32 0xFF800000#32)) (Host.reduce FloatOps.maximumf x2 (constant (F := Ideal) S_ .f32 0xFF800000#32) reducesTo_S32x2_S32_d1 h_S_))))) (broadcastInDim S32x2 ![0, 1] bcast_S32x1_S32x2_0_1 (Host.log (broadcastInDim S32x1 ![0] bcast_S32_S32x1_0 (Host.reduceAdd (Host.exp (subf x2 (broadcastInDim S32x2 ![0, 1] bcast_S32x1_S32x2_0_1 (broadcastInDim S32x1 ![0] bcast_S32_S32x1_0 (maximumf (broadcastInDim S32 ![] bcast_S_S32 (constant (F := Ideal) S_ .f32 0xFF800000#32)) (Host.reduce FloatOps.maximumf x2 (constant (F := Ideal) S_ .f32 0xFF800000#32) reducesTo_S32x2_S32_d1 h_S_)))))) (constant (F := Ideal) S_ .f32 0x00000000#32) reducesTo_S32x2_S32_d1 h_S_))))) (shapeCast _ (select (cmpi .slt (broadcastInDim S32x1 ![0] bcast_S32_S32x1_0 (broadcastInDim S32 ![] bcast_S_S32 (constantI S_ 32 0#32))) (broadcastInDim S32x1 ![] bcast_S_S32x1 (constantI S_ 32 0#32))) (addi (broadcastInDim S32x1 ![0] bcast_S32_S32x1_0 (broadcastInDim S32 ![] bcast_S_S32 (constantI S_ 32 0#32))) (broadcastInDim S32x1 ![] bcast_S_S32x1 (constantI S_ 32 2#32))) (broadcastInDim S32x1 ![0] bcast_S32_S32x1_0 (broadcastInDim S32 ![] bcast_S_S32 (constantI S_ 32 0#32)))) shapeCasts_S32x1_S32x1x1)) (broadcastInDim S32x1 ![] bcast_S_S32x1 (constant (F := Ideal) S_ .f32 0x7FC00000#32))) (constant (F := Ideal) S_ .f32 0x00000000#32) reducesTo_S32x1_S_d0_1 h_S_) (constant (F := Ideal) S_ .f32 0x42000000#32)))
    (Host.negf (Host.divf (Host.reduceAdd (select (Host.reduce IntOp.andi (andi (cmpi .sge (shapeCast _ (select (cmpi .slt (broadcastInDim S32x1 ![0] bcast_S32_S32x1_0 (broadcastInDim S32 ![] bcast_S_S32 (constantI S_ 32 1#32))) (broadcastInDim S32x1 ![] bcast_S_S32x1 (constantI S_ 32 0#32))) (addi (broadcastInDim S32x1 ![0] bcast_S32_S32x1_0 (broadcastInDim S32 ![] bcast_S_S32 (constantI S_ 32 1#32))) (broadcastInDim S32x1 ![] bcast_S_S32x1 (constantI S_ 32 2#32))) (broadcastInDim S32x1 ![0] bcast_S32_S32x1_0 (broadcastInDim S32 ![] bcast_S_S32 (constantI S_ 32 1#32)))) shapeCasts_S32x1_S32x1x1) (broadcastInDim S32x1x1 ![] bcast_S_S32x1x1 (constantI S_ 32 0#32))) (cmpi .sle (shapeCast _ (select (cmpi .slt (broadcastInDim S32x1 ![0] bcast_S32_S32x1_0 (broadcastInDim S32 ![] bcast_S_S32 (constantI S_ 32 1#32))) (broadcastInDim S32x1 ![] bcast_S_S32x1 (constantI S_ 32 0#32))) (addi (broadcastInDim S32x1 ![0] bcast_S32_S32x1_0 (broadcastInDim S32 ![] bcast_S_S32 (constantI S_ 32 1#32))) (broadcastInDim S32x1 ![] bcast_S_S32x1 (constantI S_ 32 2#32))) (broadcastInDim S32x1 ![0] bcast_S32_S32x1_0 (broadcastInDim S32 ![] bcast_S_S32 (constantI S_ 32 1#32)))) shapeCasts_S32x1_S32x1x1) (broadcastInDim S32x1x1 ![0, 1, 2] bcast_S1x1x1_S32x1x1_0_1_2 (broadcastInDim S1x1x1 ![2] bcast_S1_S1x1x1_2 (constantI S1 32 1#32))))) (constantI S_ 1 1#1) reducesTo_S32x1x1_S32x1_d2 h_S_) (Host.gather gather_S32x2_S32x1x1_S32x1_n_1_0_0_1_2_11 (subf (subf x3 (broadcastInDim S32x2 ![0, 1] bcast_S32x1_S32x2_0_1 (broadcastInDim S32x1 ![0] bcast_S32_S32x1_0 (maximumf (broadcastInDim S32 ![] bcast_S_S32 (constant (F := Ideal) S_ .f32 0xFF800000#32)) (Host.reduce FloatOps.maximumf x3 (constant (F := Ideal) S_ .f32 0xFF800000#32) reducesTo_S32x2_S32_d1 h_S_))))) (broadcastInDim S32x2 ![0, 1] bcast_S32x1_S32x2_0_1 (Host.log (broadcastInDim S32x1 ![0] bcast_S32_S32x1_0 (Host.reduceAdd (Host.exp (subf x3 (broadcastInDim S32x2 ![0, 1] bcast_S32x1_S32x2_0_1 (broadcastInDim S32x1 ![0] bcast_S32_S32x1_0 (maximumf (broadcastInDim S32 ![] bcast_S_S32 (constant (F := Ideal) S_ .f32 0xFF800000#32)) (Host.reduce FloatOps.maximumf x3 (constant (F := Ideal) S_ .f32 0xFF800000#32) reducesTo_S32x2_S32_d1 h_S_)))))) (constant (F := Ideal) S_ .f32 0x00000000#32) reducesTo_S32x2_S32_d1 h_S_))))) (shapeCast _ (select (cmpi .slt (broadcastInDim S32x1 ![0] bcast_S32_S32x1_0 (broadcastInDim S32 ![] bcast_S_S32 (constantI S_ 32 1#32))) (broadcastInDim S32x1 ![] bcast_S_S32x1 (constantI S_ 32 0#32))) (addi (broadcastInDim S32x1 ![0] bcast_S32_S32x1_0 (broadcastInDim S32 ![] bcast_S_S32 (constantI S_ 32 1#32))) (broadcastInDim S32x1 ![] bcast_S_S32x1 (constantI S_ 32 2#32))) (broadcastInDim S32x1 ![0] bcast_S32_S32x1_0 (broadcastInDim S32 ![] bcast_S_S32 (constantI S_ 32 1#32)))) shapeCasts_S32x1_S32x1x1)) (broadcastInDim S32x1 ![] bcast_S_S32x1 (constant (F := Ideal) S_ .f32 0x7FC00000#32))) (constant (F := Ideal) S_ .f32 0x00000000#32) reducesTo_S32x1_S_d0_1 h_S_) (constant (F := Ideal) S_ .f32 0x42000000#32)))) (constant (F := Ideal) S_ .f32 0x40000000#32))

/-- The loss buffer's composed term: the weighted sum of the four partial losses. -/
def tailTerm (st : FVec Ideal S32x3x8x8 .f32) (x2 x3 : FVec Ideal S32x2 .f32) : FVec Ideal S_ .f32 :=
  addf (addf (addf (mulf (constant S_ .f32 0x42C80000#32) (sqK st)) (mulf (constant S_ .f32 0x3A83126F#32) (cntK st)))
    (mulf (constant S_ .f32 0x3F800000#32) (regK st))) (mulf (constant S_ .f32 0x3F000000#32) (domT x2 x3))

set_option maxRecDepth 16384 in
set_option maxHeartbeats 80000000 in
/-- After the nine stretches of host operations have run in order from any buffer contents, the loss buffer
    holds the composed term of the statistics array and the two logit arrays as they were. -/
theorem tail_term (W : Valuation τ sig (Elt Ideal)) :
    (StableHlo.after (List.flatten [hostOps1, hostOps1_1, hostOps1_2, hostOps1_3, hostOps1_4, hostOps1_5, hostOps1_6, hostOps1_7, hostOps1_8]) W (Proc.devRef .tc main_v80) : S_.Idx → EReal)
      = tailTerm (W (Proc.devRef .tc main_v9)) (W (Proc.devRef .tc main_arg2)) (W (Proc.devRef .tc main_arg3)) := by
  simp only [hostOps1, hostOps1_1, hostOps1_2, hostOps1_3, hostOps1_4, hostOps1_5, hostOps1_6, hostOps1_7, hostOps1_8,
    List.flatten_cons, List.flatten_nil, List.append_nil, List.cons_append, List.nil_append]
  after_results_simp <;> rfl

end Cert.KernelIdeal.TailValue

end
-- ==== Proof.TailValue.lean ====
import proofs.«143279_j39702677684512_1_alg».proof.Proof.TailTerm
import Idealize.ShloMosaic.Lib.IdealHost
import Idealize.ShloMosaic.Lib.Pipeline.Value

/-!
# The host operations after the kernel launch, read as the loss of the statistics array

The composed term of the loss buffer (the module before this one) is read at its one index: the slices and
reshapes of the statistics array at an index, the host's sums as sums over coordinates (the sums over two axes of
the five-axis reshapes as the 4 x 4 and 2 x 2 blocks of the finest grid's cells), and the last scalar operations
as the weighted total of the four partial losses.
-/

open scoped BigOperators

noncomputable section

namespace Cert.KernelIdeal.TailValue

open Idealize.ShloMosaic Idealize.ShloMosaic.ValueIdx Idealize.SL.Sem Cert.KernelIdeal Cert.KernelIdeal.Gen Cert.LossSpec

/-! ## Sums over the index set of a rank-1 and of a rank-5 shape, by coordinates -/

section IndexSums
variable {M : Type*} [AddCommMonoid M]

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → M) : ∑ i, f i = ∑ a : Fin n, f (ix1 a) :=
  (Equiv.sum_comp (idxEquiv1 (n := n)).symm f).symm

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the fivefold sum over the coordinates. -/
theorem sum_idx5 {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f, Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

/-- Two rank-3 indices are equal exactly when their coordinates are. -/
theorem ix3_inj {n0 n1 n2 : Nat} (a a' : Fin n0) (b b' : Fin n1) (c c' : Fin n2) :
    ix3 a b c = ix3 a' b' c' ↔ a = a' ∧ b = b' ∧ c = c' :=
  ⟨fun h => ⟨congrFun h 0, congrFun h 1, congrFun h 2⟩, fun ⟨ha, hb, hc⟩ => by rw [ha, hb, hc]⟩

/-- A fivefold sum of terms that vanish unless the first, second and fourth coordinates are given ones is the
    double sum over the third and fifth coordinates at the given ones. -/
theorem sum_five_pick {α β γ δ ε : Type} [Fintype α] [Fintype β] [Fintype γ] [Fintype δ] [Fintype ε]
    [DecidableEq α] [DecidableEq β] [DecidableEq δ] (F : α → β → γ → δ → ε → M) (b : α) (i : β) (j : δ)
    (p : α → β → δ → Prop) {_ : ∀ b' i' j', Decidable (p b' i' j')} (hp : ∀ b' i' j', p b' i' j' ↔ b' = b ∧ i' = i ∧ j' = j) :
    ∑ b', ∑ i', ∑ a, ∑ j', ∑ a', (if p b' i' j' then F b' i' a j' a' else 0) = ∑ a, ∑ a', F b i a j a' := by
  rw [Fintype.sum_eq_single b, Fintype.sum_eq_single i]
  · refine Finset.sum_congr rfl fun a _ => ?_
    rw [Fintype.sum_eq_single j]
    · exact Finset.sum_congr rfl fun a' _ => if_pos ((hp b i j).2 ⟨rfl, rfl, rfl⟩)
    · intro j' hj
      exact Finset.sum_eq_zero fun a' _ => if_neg fun h => hj ((hp b i j').1 h).2.2
  · intro i' hi
    exact Finset.sum_eq_zero fun a _ => Finset.sum_eq_zero fun j' _ => Finset.sum_eq_zero fun a' _ =>
      if_neg fun h => hi ((hp b i' j').1 h).2.1
  · intro b' hb
    exact Finset.sum_eq_zero fun i' _ => Finset.sum_eq_zero fun a _ => Finset.sum_eq_zero fun j' _ =>
      Finset.sum_eq_zero fun a' _ => if_neg fun h => hb ((hp b' i' j').1 h).1

end IndexSums

/-! ## The planes and the per-image scalars at an index -/

/-- Plane 0 at image b, cell (i, j) is the statistics array at (b, 0, i, j). -/
theorem plane0_apply (st : FVec Ideal S32x3x8x8 .f32) (b : Fin 32) (i j : Fin 8) :
    plane0 st (ix3 b i j) = st (ix4 b (0 : Fin 3) i j) := by
  unfold plane0
  refine (shapeCast_apply _ _ (ix3 b i j) (ix4 b (0 : Fin 1) i j) ?_).trans ?_
  · rw [Shape.rowMajor_val_four, Shape.rowMajor_val_three]
    show ((b.val * 1 + 0) * 8 + i.val) * 8 + j.val = (b.val * 8 + i.val) * 8 + j.val
    omega
  · exact extractStridedSlice_apply _ _ _ _ (ix4 b (0 : Fin 3) i j) fun a => match a with
      | ⟨0, _⟩ => by show b.val = 0 + b.val; omega
      | ⟨1, _⟩ => by show (0 : Fin 3).val = 0 + (0 : Fin 1).val; rfl
      | ⟨2, _⟩ => by show i.val = 0 + i.val; omega
      | ⟨3, _⟩ => by show j.val = 0 + j.val; omega

/-- Plane 1 at image b, cell (i, j) is the statistics array at (b, 1, i, j). -/
theorem plane1_apply (st : FVec Ideal S32x3x8x8 .f32) (b : Fin 32) (i j : Fin 8) :
    plane1 st (ix3 b i j) = st (ix4 b (1 : Fin 3) i j) := by
  unfold plane1
  refine (shapeCast_apply _ _ (ix3 b i j) (ix4 b (0 : Fin 1) i j) ?_).trans ?_
  · rw [Shape.rowMajor_val_four, Shape.rowMajor_val_three]
    show ((b.val * 1 + 0) * 8 + i.val) * 8 + j.val = (b.val * 8 + i.val) * 8 + j.val
    omega
  · exact extractStridedSlice_apply _ _ _ _ (ix4 b (1 : Fin 3) i j) fun a => match a with
      | ⟨0, _⟩ => by show b.val = 0 + b.val; omega
      | ⟨1, _⟩ => by show (1 : Fin 3).val = 1 + (0 : Fin 1).val; rfl
      | ⟨2, _⟩ => by show i.val = 0 + i.val; omega
      | ⟨3, _⟩ => by show j.val = 0 + j.val; omega

/-- Plane 2 at image b, cell (i, j) is the statistics array at (b, 2, i, j). -/
theorem plane2_apply (st : FVec Ideal S32x3x8x8 .f32) (b : Fin 32) (i j : Fin 8) :
    plane2 st (ix3 b i j) = st (ix4 b (2 : Fin 3) i j) := by
  unfold plane2
  refine (shapeCast_apply _ _ (ix3 b i j) (ix4 b (0 : Fin 1) i j) ?_).trans ?_
  · rw [Shape.rowMajor_val_four, Shape.rowMajor_val_three]
    show ((b.val * 1 + 0) * 8 + i.val) * 8 + j.val = (b.val * 8 + i.val) * 8 + j.val
    omega
  · exact extractStridedSlice_apply _ _ _ _ (ix4 b (2 : Fin 3) i j) fun a => match a with
      | ⟨0, _⟩ => by show b.val = 0 + b.val; omega
      | ⟨1, _⟩ => by show (2 : Fin 3).val = 2 + (0 : Fin 1).val; rfl
      | ⟨2, _⟩ => by show i.val = 0 + i.val; omega
      | ⟨3, _⟩ => by show j.val = 0 + j.val; omega

/-- Scalar 0 of image b is the statistics array at (b, 2, 0, 0). -/
theorem scal0_apply (st : FVec Ideal S32x3x8x8 .f32) (b : Fin 32) :
    scal0 st (ix1 b) = st (ix4 b (2 : Fin 3) (0 : Fin 8) (0 : Fin 8)) := by
  unfold scal0
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  · refine (extractStridedSlice_apply _ _ _ _ (ix3 b (0 : Fin 8) (0 : Fin 8)) fun a => match a with
      | ⟨0, _⟩ => by show b.val = 0 + b.val; omega
      | ⟨1, _⟩ => by show (0 : Fin 8).val = 0 + (0 : Fin 1).val; rfl
      | ⟨2, _⟩ => by show (0 : Fin 8).val = 0 + (0 : Fin 1).val; rfl).trans ?_
    exact plane2_apply st b 0 0

/-- Scalar 1 of image b is the statistics array at (b, 2, 0, 1). -/
theorem scal1_apply (st : FVec Ideal S32x3x8x8 .f32) (b : Fin 32) :
    scal1 st (ix1 b) = st (ix4 b (2 : Fin 3) (0 : Fin 8) (1 : Fin 8)) := by
  unfold scal1
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  · refine (extractStridedSlice_apply _ _ _ _ (ix3 b (0 : Fin 8) (1 : Fin 8)) fun a => match a with
      | ⟨0, _⟩ => by show b.val = 0 + b.val; omega
      | ⟨1, _⟩ => by show (0 : Fin 8).val = 0 + (0 : Fin 1).val; rfl
      | ⟨2, _⟩ => by show (1 : Fin 8).val = 1 + (0 : Fin 1).val; rfl).trans ?_
    exact plane2_apply st b 0 1

/-- Scalar 2 of image b is the statistics array at (b, 2, 0, 2). -/
theorem scal2_apply (st : FVec Ideal S32x3x8x8 .f32) (b : Fin 32) :
    scal2 st (ix1 b) = st (ix4 b (2 : Fin 3) (0 : Fin 8) (2 : Fin 8)) := by
  unfold scal2
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  · refine (extractStridedSlice_apply _ _ _ _ (ix3 b (0 : Fin 8) (2 : Fin 8)) fun a => match a with
      | ⟨0, _⟩ => by show b.val = 0 + b.val; omega
      | ⟨1, _⟩ => by show (0 : Fin 8).val = 0 + (0 : Fin 1).val; rfl
      | ⟨2, _⟩ => by show (2 : Fin 8).val = 2 + (0 : Fin 1).val; rfl).trans ?_
    exact plane2_apply st b 0 2

/-! ## The sums over two axes of the five-axis reshapes -/

/-- Dropping the third and fifth coordinates of a [32, 2, 4, 2, 4] index. -/
theorem drop_pool2 (b : Fin 32) (i : Fin 2) (a : Fin 4) (j : Fin 2) (a' : Fin 4) :
    reducesTo_S32x2x4x2x4_S32x2x2_d2_4.drop (ix5 b i a j a') = ix3 b i j := by
  funext c
  match c with
  | ⟨0, _⟩ => exact Fin.ext (Shape.ReducesTo.drop_apply_val_of_eq reducesTo_S32x2x4x2x4_S32x2x2_d2_4 (ix5 b i a j a') (⟨0, by decide⟩ : Fin 3) (0 : Fin 5))
  | ⟨1, _⟩ => exact Fin.ext (Shape.ReducesTo.drop_apply_val_of_eq reducesTo_S32x2x4x2x4_S32x2x2_d2_4 (ix5 b i a j a') (⟨1, by decide⟩ : Fin 3) (1 : Fin 5))
  | ⟨2, _⟩ => exact Fin.ext (Shape.ReducesTo.drop_apply_val_of_eq reducesTo_S32x2x4x2x4_S32x2x2_d2_4 (ix5 b i a j a') (⟨2, by decide⟩ : Fin 3) (3 : Fin 5))

/-- The 2 x 2 grid's cell (i, j) of image b is the sum of the 4 x 4 block of the finest grid's cells under it. -/
theorem pool2_apply (c : FVec Ideal S32x8x8 .f32) (b : Fin 32) (i j : Fin 2) :
    pool2 c (ix3 b i j) = cell2 (fun b i j => c (ix3 b i j)) b i j := by
  unfold pool2 cell2
  rw [hostReduceAdd_apply]
  unfold Ideal.hostReduceAdd
  rw [show zeroK (Shape.Idx.first h_S_) = 0 from Ideal.ofBits_zero_f32, zero_add, Finset.sum_filter, sum_idx5]
  simp only [drop_pool2]
  refine (sum_five_pick (fun b' i' a j' a' => shapeCast S32x2x4x2x4 c shapeCasts_S32x8x8_S32x2x4x2x4 (ix5 b' i' a j' a')) b i j
    (fun b' i' j' => ix3 b' i' j' = ix3 b i j) (fun b' i' j' => ix3_inj _ _ _ _ _ _)).trans ?_
  exact Finset.sum_congr rfl fun a _ => Finset.sum_congr rfl fun a' _ =>
    shapeCast_apply _ _ (ix5 b i a j a') (ix3 b ⟨4 * i.val + a.val, by omega⟩ ⟨4 * j.val + a'.val, by omega⟩) (by
      rw [Shape.rowMajor_val_three, Shape.rowMajor_val_five]
      show (b.val * 8 + (4 * i.val + a.val)) * 8 + (4 * j.val + a'.val) = (((b.val * 2 + i.val) * 4 + a.val) * 2 + j.val) * 4 + a'.val
      omega)

/-- Dropping the third and fifth coordinates of a [32, 4, 2, 4, 2] index. -/
theorem drop_pool4 (b : Fin 32) (i : Fin 4) (a : Fin 2) (j : Fin 4) (a' : Fin 2) :
    reducesTo_S32x4x2x4x2_S32x4x4_d2_4.drop (ix5 b i a j a') = ix3 b i j := by
  funext c
  match c with
  | ⟨0, _⟩ => exact Fin.ext (Shape.ReducesTo.drop_apply_val_of_eq reducesTo_S32x4x2x4x2_S32x4x4_d2_4 (ix5 b i a j a') (⟨0, by decide⟩ : Fin 3) (0 : Fin 5))
  | ⟨1, _⟩ => exact Fin.ext (Shape.ReducesTo.drop_apply_val_of_eq reducesTo_S32x4x2x4x2_S32x4x4_d2_4 (ix5 b i a j a') (⟨1, by decide⟩ : Fin 3) (1 : Fin 5))
  | ⟨2, _⟩ => exact Fin.ext (Shape.ReducesTo.drop_apply_val_of_eq reducesTo_S32x4x2x4x2_S32x4x4_d2_4 (ix5 b i a j a') (⟨2, by decide⟩ : Fin 3) (3 : Fin 5))

/-- The 4 x 4 grid's cell (i, j) of image b is the sum of the 2 x 2 block of the finest grid's cells under it. -/
theorem pool4_apply (c : FVec Ideal S32x8x8 .f32) (b : Fin 32) (i j : Fin 4) :
    pool4 c (ix3 b i j) = cell4 (fun b i j => c (ix3 b i j)) b i j := by
  unfold pool4 cell4
  rw [hostReduceAdd_apply]
  unfold Ideal.hostReduceAdd
  rw [show zeroK (Shape.Idx.first h_S_) = 0 from Ideal.ofBits_zero_f32, zero_add, Finset.sum_filter, sum_idx5]
  simp only [drop_pool4]
  refine (sum_five_pick (fun b' i' a j' a' => shapeCast S32x4x2x4x2 c shapeCasts_S32x8x8_S32x4x2x4x2 (ix5 b' i' a j' a')) b i j
    (fun b' i' j' => ix3 b' i' j' = ix3 b i j) (fun b' i' j' => ix3_inj _ _ _ _ _ _)).trans ?_
  exact Finset.sum_congr rfl fun a _ => Finset.sum_congr rfl fun a' _ =>
    shapeCast_apply _ _ (ix5 b i a j a') (ix3 b ⟨2 * i.val + a.val, by omega⟩ ⟨2 * j.val + a'.val, by omega⟩) (by
      rw [Shape.rowMajor_val_three, Shape.rowMajor_val_five]
      show (b.val * 8 + (2 * i.val + a.val)) * 8 + (2 * j.val + a'.val) = (((b.val * 4 + i.val) * 2 + a.val) * 4 + j.val) * 2 + a'.val
      omega)

/-! ## One pyramid level -/

/-- Inserting the image coordinate in front of a cell index of the 2 x 2 grid. -/
theorem lift_lvl2 (h : S32x2x2.Reduces [0] S2x2) (i j : Fin 2) (k : Fin 32) : h.lift (ix2 i j) k = ix3 k i j := by
  funext c
  match c with
  | ⟨0, _⟩ => rfl
  | ⟨1, _⟩ => rfl
  | ⟨2, _⟩ => rfl

/-- The host's sum over the batch at one cell of the 2 x 2 grid, from the zero word. -/
theorem batchSum2 (x : FVec Ideal S32x2x2 .f32) (i j : Fin 2) :
    Host.reduceAdd x zeroK reducesTo_S32x2x2_S2x2_d0 h_S_ (ix2 i j) = ∑ b : Fin 32, x (ix3 b i j) := by
  have h : S32x2x2.Reduces [0] S2x2 := by decide
  rw [hostReduceAdd_apply, show zeroK (Shape.Idx.first h_S_) = 0 from Ideal.ofBits_zero_f32]
  refine (Ideal.hostReduceAdd_single _ h x 0 (ix2 i j)).trans ?_
  rw [zero_add]
  exact Finset.sum_congr rfl fun k _ => congrArg x (lift_lvl2 h i j k)

/-- The level over the 2 x 2 grid read at its one index: the sum over cells of the batch mean of the absolute
    difference. -/
theorem lvl2_apply (p g : FVec Ideal S32x2x2 .f32) :
    lvl2 p g ix0 = levelSum (fun b i j => p (ix3 b i j)) (fun b i j => g (ix3 b i j)) := by
  unfold lvl2 levelSum
  rw [hostReduceAdd_apply, Ideal.hostReduceAdd_total (t := S_) _ (fun b => b.elim0),
    show zeroK (Shape.Idx.first h_S_) = 0 from Ideal.ofBits_zero_f32, zero_add, sum_idx2]
  refine Finset.sum_congr rfl fun i _ => Finset.sum_congr rfl fun j _ => ?_
  rw [hostDivf_apply, broadcastInDim_scalar_apply, batchSum2]
  rfl

/-- Inserting the image coordinate in front of a cell index of the 4 x 4 grid. -/
theorem lift_lvl4 (h : S32x4x4.Reduces [0] S4x4) (i j : Fin 4) (k : Fin 32) : h.lift (ix2 i j) k = ix3 k i j := by
  funext c
  match c with
  | ⟨0, _⟩ => rfl
  | ⟨1, _⟩ => rfl
  | ⟨2, _⟩ => rfl

/-- The host's sum over the batch at one cell of the 4 x 4 grid, from the zero word. -/
theorem batchSum4 (x : FVec Ideal S32x4x4 .f32) (i j : Fin 4) :
    Host.reduceAdd x zeroK reducesTo_S32x4x4_S4x4_d0 h_S_ (ix2 i j) = ∑ b : Fin 32, x (ix3 b i j) := by
  have h : S32x4x4.Reduces [0] S4x4 := by decide
  rw [hostReduceAdd_apply, show zeroK (Shape.Idx.first h_S_) = 0 from Ideal.ofBits_zero_f32]
  refine (Ideal.hostReduceAdd_single _ h x 0 (ix2 i j)).trans ?_
  rw [zero_add]
  exact Finset.sum_congr rfl fun k _ => congrArg x (lift_lvl4 h i j k)

/-- The level over the 4 x 4 grid read at its one index: the sum over cells of the batch mean of the absolute
    difference. -/
theorem lvl4_apply (p g : FVec Ideal S32x4x4 .f32) :
    lvl4 p g ix0 = levelSum (fun b i j => p (ix3 b i j)) (fun b i j => g (ix3 b i j)) := by
  unfold lvl4 levelSum
  rw [hostReduceAdd_apply, Ideal.hostReduceAdd_total (t := S_) _ (fun b => b.elim0),
    show zeroK (Shape.Idx.first h_S_) = 0 from Ideal.ofBits_zero_f32, zero_add, sum_idx2]
  refine Finset.sum_congr rfl fun i _ => Finset.sum_congr rfl fun j _ => ?_
  rw [hostDivf_apply, broadcastInDim_scalar_apply, batchSum4]
  rfl

/-- Inserting the image coordinate in front of a cell index of the 8 x 8 grid. -/
theorem lift_lvl8 (h : S32x8x8.Reduces [0] S8x8) (i j : Fin 8) (k : Fin 32) : h.lift (ix2 i j) k = ix3 k i j := by
  funext c
  match c with
  | ⟨0, _⟩ => rfl
  | ⟨1, _⟩ => rfl
  | ⟨2, _⟩ => rfl

/-- The host's sum over the batch at one cell of the 8 x 8 grid, from the zero word. -/
theorem batchSum8 (x : FVec Ideal S32x8x8 .f32) (i j : Fin 8) :
    Host.reduceAdd x zeroK reducesTo_S32x8x8_S8x8_d0 h_S_ (ix2 i j) = ∑ b : Fin 32, x (ix3 b i j) := by
  have h : S32x8x8.Reduces [0] S8x8 := by decide
  rw [hostReduceAdd_apply, show zeroK (Shape.Idx.first h_S_) = 0 from Ideal.ofBits_zero_f32]
  refine (Ideal.hostReduceAdd_single _ h x 0 (ix2 i j)).trans ?_
  rw [zero_add]
  exact Finset.sum_congr rfl fun k _ => congrArg x (lift_lvl8 h i j k)

/-- The level over the 8 x 8 grid read at its one index: the sum over cells of the batch mean of the absolute
    difference. -/
theorem lvl8_apply (p g : FVec Ideal S32x8x8 .f32) :
    lvl8 p g ix0 = levelSum (fun b i j => p (ix3 b i j)) (fun b i j => g (ix3 b i j)) := by
  unfold lvl8 levelSum
  rw [hostReduceAdd_apply, Ideal.hostReduceAdd_total (t := S_) _ (fun b => b.elim0),
    show zeroK (Shape.Idx.first h_S_) = 0 from Ideal.ofBits_zero_f32, zero_add, sum_idx2]
  refine Finset.sum_congr rfl fun i _ => Finset.sum_congr rfl fun j _ => ?_
  rw [hostDivf_apply, broadcastInDim_scalar_apply, batchSum8]
  rfl

/-! ## The four partial losses and their weighted total -/

/-- Plane s of the statistics array as per-image cell sums. -/
def cellsOf (st : S32x3x8x8.Idx → EReal) (s : Fin 3) : Cert.LossSpec.Cells := fun b i j => st (ix4 b s i j)

/-- The domain term: the composed term of the domain loss from the two logit arrays (the plain composition of the
    host operations `domT` of the module before this one), read at the scalar index. -/
def domK (x2 x3 : S32x2.Idx → EReal) : EReal := domT x2 x3 ix0

/-- The regional term read at its one index. -/
theorem regK_apply (st : FVec Ideal S32x3x8x8 .f32) :
    regK st ix0 = Ideal.div (regionalOf (cellsOf st 0) (cellsOf st 1)) (Ideal.ofBits .f32 0x43400000#32) := by
  unfold regK regionalOf
  rw [hostDivf_apply, addf_apply, addf_apply, addf_apply, lvl2_apply, lvl4_apply, lvl8_apply,
    show zeroK ix0 = 0 from Ideal.ofBits_zero_f32, zero_add]
  simp only [pool2_apply, pool4_apply, plane0_apply, plane1_apply]
  rfl

/-- The mean squared difference read at its one index. -/
theorem sqK_apply (st : FVec Ideal S32x3x8x8 .f32) :
    sqK st ix0 = Ideal.div (∑ b : Fin 32, st (ix4 b (2 : Fin 3) (0 : Fin 8) (0 : Fin 8))) (Ideal.ofBits .f32 0x4B900000#32) := by
  unfold sqK
  rw [hostDivf_apply, hostReduceAdd_apply, Ideal.hostReduceAdd_total (t := S_) _ (fun b => b.elim0),
    show zeroK (Shape.Idx.first h_S_) = 0 from Ideal.ofBits_zero_f32, zero_add, sum_idx1]
  simp only [scal0_apply]
  rfl

/-- The count term read at its one index. -/
theorem cntK_apply (st : FVec Ideal S32x3x8x8 .f32) :
    cntK st ix0 = Ideal.div (∑ b : Fin 32, absE (st (ix4 b (2 : Fin 3) (0 : Fin 8) (1 : Fin 8)) - st (ix4 b (2 : Fin 3) (0 : Fin 8) (2 : Fin 8))))
      (Ideal.ofBits .f32 0x42000000#32) := by
  unfold cntK
  rw [hostDivf_apply, hostReduceAdd_apply, Ideal.hostReduceAdd_total (t := S_) _ (fun b => b.elim0),
    show zeroK (Shape.Idx.first h_S_) = 0 from Ideal.ofBits_zero_f32, zero_add, sum_idx1]
  refine congrArg₂ Ideal.div (Finset.sum_congr rfl fun b _ => ?_) rfl
  show absE (scal1 st (ix1 b) - scal2 st (ix1 b)) = _
  rw [scal1_apply, scal2_apply]

/-- The composed term read at its one index is the weighted total of the four partial losses. -/
theorem tailTerm_apply (st : FVec Ideal S32x3x8x8 .f32) (x2 x3 : FVec Ideal S32x2 .f32) :
    tailTerm st x2 x3 ix0
      = combine (∑ b : Fin 32, st (ix4 b (2 : Fin 3) (0 : Fin 8) (0 : Fin 8)))
          (∑ b : Fin 32, absE (st (ix4 b (2 : Fin 3) (0 : Fin 8) (1 : Fin 8)) - st (ix4 b (2 : Fin 3) (0 : Fin 8) (2 : Fin 8))))
          (regionalOf (cellsOf st 0) (cellsOf st 1)) (domK x2 x3) := by
  unfold tailTerm combine
  rw [addf_apply, addf_apply, addf_apply, mulf_apply, mulf_apply, mulf_apply, mulf_apply, regK_apply, sqK_apply, cntK_apply]
  rfl

/-! ## The statement over any buffer contents -/

/-- The statistics array when the host operations start, -/
def stOf (W : Valuation τ sig (Elt Ideal)) : S32x3x8x8.Idx → EReal := W (Proc.devRef .tc main_v9)
/-- the two logit arrays, -/
def arg2Of (W : Valuation τ sig (Elt Ideal)) : S32x2.Idx → EReal := W (Proc.devRef .tc main_arg2)
def arg3Of (W : Valuation τ sig (Elt Ideal)) : S32x2.Idx → EReal := W (Proc.devRef .tc main_arg3)
/-- and the loss buffer once they have run. -/
def resOf (W : Valuation τ sig (Elt Ideal)) : S_.Idx → EReal :=
  StableHlo.after (List.flatten [hostOps1, hostOps1_1, hostOps1_2, hostOps1_3, hostOps1_4, hostOps1_5, hostOps1_6, hostOps1_7, hostOps1_8]) W (Proc.devRef .tc main_v80)

/-- From any buffer contents, the nine stretches of host operations leave in the loss buffer the weighted total of
    the batch sum of the per-image squared differences, the batch sum of the absolute differences of the totals,
    the regional term of the two planes of cell sums, and the domain term of the two logit arrays. -/
theorem tail_value (W : Valuation τ sig (Elt Ideal)) :
    resOf W ix0 = Cert.LossSpec.combine (∑ b : Fin 32, stOf W (ix4 b (2 : Fin 3) (0 : Fin 8) (0 : Fin 8)))
      (∑ b : Fin 32, absE (stOf W (ix4 b (2 : Fin 3) (0 : Fin 8) (1 : Fin 8)) - stOf W (ix4 b (2 : Fin 3) (0 : Fin 8) (2 : Fin 8))))
      (Cert.LossSpec.regionalOf (cellsOf (stOf W) 0) (cellsOf (stOf W) 1)) (domK (arg2Of W) (arg3Of W)) :=
  (congrFun (tail_term W) ix0).trans (tailTerm_apply (stOf W) (arg2Of W) (arg3Of W))

end Cert.KernelIdeal.TailValue
end
-- ==== Proof.KIValue.lean ====
import proofs.«143279_j39702677684512_1_alg».proof.Proof.KIStats
import proofs.«143279_j39702677684512_1_alg».proof.Proof.KIPlanes
import proofs.«143279_j39702677684512_1_alg».proof.Proof.BlockValue
import proofs.«143279_j39702677684512_1_alg».proof.Proof.PoolValue
import proofs.«143279_j39702677684512_1_alg».proof.Proof.TailValue
import proofs.«143279_j39702677684512_1_alg».proof.Proof.LossSpec

/-!
# The kernel program's result

After the launch the statistics array holds, for image `b`: in plane 0 the 96 x 96 cell sums of the first density
image, in plane 1 those of the second, and in the first row of plane 2 the sum of squared differences and the two
pixel totals. The host operations after the launch turn these into the loss; so the program's result is the loss of
the two density arrays and its own domain term.
-/

set_option maxRecDepth 16384

noncomputable section

namespace Cert.KernelIdeal.Frm

open Idealize.ShloMosaic Idealize.ShloMosaic.TcCoe Idealize.ShloMosaic.ValueIdx
open Idealize.SL Idealize.SL.Sem
open Idealize.ShloMosaic.Pipeline (Dat Cfg Window)
open Cert.KernelIdeal.Gen Cert.LossSpec

/-- A 32 x 1 x 768 x 768 array as a batch of images. -/
def imgOf (x : S32x1x768x768.Idx → EReal) : Img := fun b h w => x (ix4 b (0 : Fin 1) h w)

variable (a0 a1 : S32x1x768x768.Idx → EReal) (p : S768x8.Idx → EReal)

/-- Plane 0 of the statistics array: the finest grid's cell sums of the first density array. -/
theorem stats_plane0 (hp : BlockValue.IsPool p) (b : Fin 32) (i j : Fin 8) :
    statsOf (F := Ideal) a0 a1 p (ix4 b (0 : Fin 3) i j) = cell8 (imgOf a0) b i j := by
  show out0_3 (F := Ideal) (imgBlock a0 b) (imgBlock a1 b) p (ix4 (0 : Fin 1) (0 : Fin 3) i j) = _
  rw [out0_3_plane0, BlockValue.pay1_apply, BlockValue.pay10_apply _ _ hp]
  rfl

/-- Plane 1: those of the second. -/
theorem stats_plane1 (hp : BlockValue.IsPool p) (b : Fin 32) (i j : Fin 8) :
    statsOf (F := Ideal) a0 a1 p (ix4 b (1 : Fin 3) i j) = cell8 (imgOf a1) b i j := by
  show out0_3 (F := Ideal) (imgBlock a0 b) (imgBlock a1 b) p (ix4 (0 : Fin 1) (1 : Fin 3) i j) = _
  rw [out0_3_plane1, BlockValue.pay2_apply, BlockValue.pay11_apply _ _ hp]
  rfl

/-- Plane 2, first row: the sum of squared differences and the two totals of image `b`. -/
theorem stats_sq (b : Fin 32) :
    statsOf (F := Ideal) a0 a1 p (ix4 b (2 : Fin 3) (0 : Fin 8) (0 : Fin 8))
      = ∑ h : Fin 768, ∑ w : Fin 768, (imgOf a0 b h w - imgOf a1 b h w) * (imgOf a0 b h w - imgOf a1 b h w) := by
  show out0_3 (F := Ideal) (imgBlock a0 b) (imgBlock a1 b) p (ix4 (0 : Fin 1) (2 : Fin 3) (0 : Fin 8) (0 : Fin 8)) = _
  rw [out0_3_plane2]; unfold scalarPlane
  rw [BlockValue.pay3_00, BlockValue.pay6_apply]
  rfl
theorem stats_totP (b : Fin 32) :
    statsOf (F := Ideal) a0 a1 p (ix4 b (2 : Fin 3) (0 : Fin 8) (1 : Fin 8)) = total (imgOf a0) b := by
  show out0_3 (F := Ideal) (imgBlock a0 b) (imgBlock a1 b) p (ix4 (0 : Fin 1) (2 : Fin 3) (0 : Fin 8) (1 : Fin 8)) = _
  rw [out0_3_plane2]; unfold scalarPlane
  rw [BlockValue.pay3_01, BlockValue.pay7_apply]
  rfl
theorem stats_totG (b : Fin 32) :
    statsOf (F := Ideal) a0 a1 p (ix4 b (2 : Fin 3) (0 : Fin 8) (2 : Fin 8)) = total (imgOf a1) b := by
  show out0_3 (F := Ideal) (imgBlock a0 b) (imgBlock a1 b) p (ix4 (0 : Fin 1) (2 : Fin 3) (0 : Fin 8) (2 : Fin 8)) = _
  rw [out0_3_plane2]; unfold scalarPlane
  rw [BlockValue.pay3_02, BlockValue.pay8_apply]
  rfl

-- from here on the statistics array is only rewritten by the five lemmas above, never opened
attribute [local irreducible] statsOf

/-- What the host operations after the launch make of such a statistics array is the loss. -/
theorem combine_stats (hp : BlockValue.IsPool p) (d : EReal) :
    combine (∑ b : Fin 32, statsOf (F := Ideal) a0 a1 p (ix4 b (2 : Fin 3) (0 : Fin 8) (0 : Fin 8)))
      (∑ b : Fin 32, absE (statsOf (F := Ideal) a0 a1 p (ix4 b (2 : Fin 3) (0 : Fin 8) (1 : Fin 8)) - statsOf (F := Ideal) a0 a1 p (ix4 b (2 : Fin 3) (0 : Fin 8) (2 : Fin 8))))
      (regionalOf (TailValue.cellsOf (statsOf (F := Ideal) a0 a1 p) 0) (TailValue.cellsOf (statsOf (F := Ideal) a0 a1 p) 1)) d
      = loss (imgOf a0) (imgOf a1) d := by
  have e0 : TailValue.cellsOf (statsOf (F := Ideal) a0 a1 p) 0 = cell8 (imgOf a0) := by
    funext b i j
    simp only [TailValue.cellsOf]
    exact stats_plane0 a0 a1 p hp b i j
  have e1 : TailValue.cellsOf (statsOf (F := Ideal) a0 a1 p) 1 = cell8 (imgOf a1) := by
    funext b i j
    simp only [TailValue.cellsOf]
    exact stats_plane1 a0 a1 p hp b i j
  rw [e0, e1]
  simp only [stats_sq a0 a1 p, stats_totP a0 a1 p, stats_totG a0 a1 p]
  unfold loss sqSum countSum
  rfl

variable (m : (ℓ : Loc nD τ sig) → Buf (Elt Ideal) ℓ) (ρ : Dev nD → PrngReg)

/-- The program's result on core `c`: the last host operation's buffer after the stretches that follow the launch. -/
def kernelResult (c : Dev nD) : Buf (Elt Ideal) ((c.tc : Thread nD τ).loc main_v80) :=
  Pipeline.afterTail₀ cfgs (dats m) 0 (V0 m) postOps c main_v80

/-- The pooling matrix as the launch finds it. -/
theorem pool_isPool (c : Dev nD) : BlockValue.IsPool (V m c main_v8) := fun k j => PoolValue.pool_value m c k j

/-- The result is the loss of the two density arrays with the program's own domain term. -/
theorem kernel_value (c : Dev nD) :
    (kernelResult m c : S_.Idx → EReal) ix0
      = loss (imgOf (m ((c.tc : Thread nD τ).loc main_arg0))) (imgOf (m ((c.tc : Thread nD τ).loc main_arg1)))
          (TailValue.domK (m ((c.tc : Thread nD τ).loc main_arg2)) (m ((c.tc : Thread nD τ).loc main_arg3))) := by
  have hres : (kernelResult m c : S_.Idx → EReal)
      = TailValue.resOf (Pipeline.withArrays spec0 c (V0 m c) (fun w => (dats m 0 c).arrAt w cfg0.N)) := rfl
  rw [hres, TailValue.tail_value]
  have hst : TailValue.stOf (Pipeline.withArrays spec0 c (V0 m c) (fun w => (dats m 0 c).arrAt w cfg0.N))
      = statsOf (F := Ideal) (m ((c.tc : Thread nD τ).loc main_arg0)) (m ((c.tc : Thread nD τ).loc main_arg1)) (V m c main_v8) := by
    refine (Pipeline.withArrays_arr spec0 launch0.win.arr_inj c _ _ (3 : Fin 4)).trans ?_
    rw [final3, V_main_arg0, V_main_arg1]
  have h2 : TailValue.arg2Of (Pipeline.withArrays spec0 c (V0 m c) (fun w => (dats m 0 c).arrAt w cfg0.N)) = m ((c.tc : Thread nD τ).loc main_arg2) :=
    (Pipeline.withArrays_of_ne _ c (V0 m c) _ main_arg2 (by exact (by decide : ∀ w, Pipeline.arrRef spec0 w ≠ main_arg2))).trans (V_main_arg2 m c)
  have h3 : TailValue.arg3Of (Pipeline.withArrays spec0 c (V0 m c) (fun w => (dats m 0 c).arrAt w cfg0.N)) = m ((c.tc : Thread nD τ).loc main_arg3) :=
    (Pipeline.withArrays_of_ne _ c (V0 m c) _ main_arg3 (by exact (by decide : ∀ w, Pipeline.arrRef spec0 w ≠ main_arg3))).trans (V_main_arg3 m c)
  rw [hst, h2, h3]
  exact combine_stats _ _ _ (pool_isPool m c) _

/-- The run of the kernel program with its result named. -/
theorem kernel_run : θ_run defs (onTc (τ := τ) (main (F := Ideal))) ⟨m, fun _ => 0, ρ⟩ (fun r => ∀ c : Dev nD,
      r.2.mem ((c.tc : Thread nD τ).loc main_v80) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v80 (Pipeline.mem_restRefs_of main_v80 (by decide) (by decide)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Frm

end
-- ==== Proof.LibIndexSums.lean ====
/-
  Finite sums over an array's index set, re-bracketed: general lemmas over any commutative additive monoid.

  * A sum over the index set of a rank-3 or rank-4 shape is the nested sum over its coordinates (the rank-2 case is
    the library's own).
  * A sum over Fin (m * n) is the sum over the quotient a : Fin m and the remainder b : Fin n of the value at
    b + n * a — the step that turns a sum over a long axis into a sum over blocks and positions inside a block, or a
    sum over a row-major grid of points into a sum over the grid's two coordinates.
-/
import Idealize.ShloMosaic.Lib.ValueIdx

open scoped BigOperators

namespace Cert.IndexSums

open Idealize.ShloMosaic Idealize.ShloMosaic.ValueIdx

variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the quotient `a : Fin m` and the remainder `b : Fin n` of the value at
    `b + n * a`. -/
theorem sum_fin_mul {m n : Nat} (f : Fin (m * n) → M) :
    ∑ k, f k = ∑ a : Fin m, ∑ b : Fin n, f (finProdFinEquiv (a, b)) := by
  rw [← Equiv.sum_comp finProdFinEquiv f, Fintype.sum_prod_type]

end Cert.IndexSums
-- ==== Proof.LibTileSum.lean ====
import Mathlib.Algebra.BigOperators.Fin
import Mathlib.Algebra.BigOperators.Intervals

/-!
# Sums over consecutive indices, grouped into tiles of equal width

A sum over `K * W` consecutive natural indices equals the sum, over the `K` tiles, of the
sums over the `W` indices of each tile; tile `k` holds the indices `W * k + u`, `u < W`.
-/

namespace Cert.TileSum

/-- A sum over the first `K * W` naturals is the sum, tile by tile, of the sums over each
tile `{W * k + u | u < W}` of width `W` (both sides written over `Finset.range`). -/
theorem sum_range_tiles {M : Type*} [AddCommMonoid M] (K W : ℕ) (g : ℕ → M) :
    ∑ i ∈ Finset.range (K * W), g i
      = ∑ k ∈ Finset.range K, ∑ u ∈ Finset.range W, g (W * k + u) := by
  induction K with
  | zero => simp
  | succ K ih =>
    rw [Nat.succ_mul, Finset.sum_range_add, ih, Finset.sum_range_succ, Nat.mul_comm K W]

/-- A sum over `K * W` consecutive indices is the sum, tile by tile, of the sums over each
tile of width `W`: index `t < K * W` is `W * k + u` for a unique tile `k < K` and offset
`u < W`. -/
theorem sum_tiles {M : Type*} [AddCommMonoid M] (K W : ℕ) (g : ℕ → M) :
    ∑ t : Fin (K * W), g t.val
      = ∑ k ∈ Finset.range K, ∑ u : Fin W, g (W * k + u.val) := by
  rw [Fin.sum_univ_eq_sum_range (fun i => g i) (K * W), sum_range_tiles]
  refine Finset.sum_congr rfl fun k _ => ?_
  exact (Fin.sum_univ_eq_sum_range (fun u => g (W * k + u)) W).symm

/-- The tiled form of a sum of a function on `Fin N` with `N = K * W`: the summand at tile
`k` and offset `u` is `f` at the index `W * k + u` (which is always below `N`; the
`else` branch is never taken and is there only to make the expression total). -/
theorem sum_fin_tiles {M : Type*} [AddCommMonoid M] (K W N : ℕ) (hN : N = K * W)
    (f : Fin N → M) :
    ∑ t : Fin N, f t
      = ∑ k ∈ Finset.range K, ∑ u : Fin W,
          (if h : W * k + u.val < N then f ⟨W * k + u.val, h⟩ else 0) := by
  subst hN
  have h1 : ∑ t : Fin (K * W), f t
      = ∑ t : Fin (K * W), (fun n : ℕ => if h : n < K * W then f ⟨n, h⟩ else 0) t.val :=
    Finset.sum_congr rfl fun t _ => by simp [t.isLt]
  rw [h1, sum_tiles K W (fun n : ℕ => if h : n < K * W then f ⟨n, h⟩ else 0)]

end Cert.TileSum
-- ==== Proof.LibAxisPairSums.lean ====
/-
  Sums of an array over some of its axes, read at an index, and sums over square blocks of pixels regrouped
  into sub-blocks: the general facts behind the reference program's value.

  * The host's float sum of a rank-4 array over the axes 2, 3 (or 0, 1), and of a rank-6 array over the axes 3, 5,
    read at an index of its result, is the initial value plus the double sum over the two reduced coordinates.
  * A sum over the index set of a rank-1 shape is the sum over its coordinate.
  * A double sum over an N × N block with N = k · W is the sum over the k × k sub-blocks of width W of the double
    sums over each sub-block (only + is regrouped: any commutative additive monoid).
-/
import proofs.«143279_j39702677684512_1_alg».proof.Proof.LibIndexSums
import proofs.«143279_j39702677684512_1_alg».proof.Proof.LibTileSum
import Idealize.ShloMosaic.Lib.ValueIdx
import Idealize.ShloMosaic.Lib.ValueIdxRank6
import Idealize.ShloMosaic.Lib.IdealHost
import Idealize.ShloMosaic.Lib.Pipeline.Value
import Idealize.ShloMosaic.PureOps.Ideal.Laws

noncomputable section

open scoped BigOperators

namespace Cert.RefSums

open Idealize.ShloMosaic Idealize.ShloMosaic.ValueIdx

variable {n0 n1 n2 n3 n4 n5 : Nat}

/-! ### A rank-1 index set -/

/-- A sum over the index set of a rank-1 shape is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-! ### Rank 4, the axes 2 and 3 summed -/

/-- Dropping the axes 2, 3 of a rank-4 index keeps the coordinates 0, 1. -/
theorem drop_23_ix4 (h' : (⟨4, ![n0, n1, n2, n3]⟩ : Shape).ReducesTo [2, 3] ⟨2, ![n0, n1]⟩)
    (b0 : Fin n0) (b1 : Fin n1) (b2 : Fin n2) (b3 : Fin n3) :
    h'.drop (ix4 b0 b1 b2 b3) = ix2 b0 b1 := by
  funext b
  match b with
  | ⟨0, _⟩ => rfl
  | ⟨1, _⟩ => rfl

/-- The host's float sum over the axes 2, 3 of a rank-4 array at the index (a0, a1): the initial value plus the
    double sum over the reduced coordinates. -/
theorem hostReduceAdd_23 (h' : (⟨4, ![n0, n1, n2, n3]⟩ : Shape).ReducesTo [2, 3] ⟨2, ![n0, n1]⟩)
    (x : (⟨4, ![n0, n1, n2, n3]⟩ : Shape).Idx → EReal) (init : EReal) (a0 : Fin n0) (a1 : Fin n1) :
    Ideal.hostReduceAdd h' x init (ix2 a0 a1) = init + ∑ c : Fin n2, ∑ d : Fin n3, x (ix4 a0 a1 c d) := by
  unfold Ideal.hostReduceAdd
  refine congrArg (fun z => init + z) ?_
  have hp : ∑ c : Fin n2, ∑ d : Fin n3, x (ix4 a0 a1 c d) = ∑ p : Fin n2 × Fin n3, x (ix4 a0 a1 p.1 p.2) := by
    simp only [Fintype.sum_prod_type]
  rw [hp]
  have hinv : ∀ i ∈ Finset.univ.filter (fun i => h'.drop i = ix2 a0 a1),
      ix4 a0 a1 (i 2 : Fin n2) (i 3 : Fin n3) = i := by
    intro i hi
    have hi' := (Finset.mem_filter.1 hi).2
    obtain ⟨b0, b1, b2, b3, rfl⟩ : ∃ b0 b1 b2 b3, i = ix4 b0 b1 b2 b3 := ⟨_, _, _, _, eq_ix4 i⟩
    rw [drop_23_ix4] at hi'
    have he0 := congrFun hi' ⟨0, (by decide : 0 < 2)⟩
    have e0 : b0 = a0 := he0
    have he1 := congrFun hi' ⟨1, (by decide : 1 < 2)⟩
    have e1 : b1 = a1 := he1
    subst e0 e1
    rfl
  refine Finset.sum_nbij' (fun i => ((i 2 : Fin n2), (i 3 : Fin n3))) (fun p => ix4 a0 a1 p.1 p.2) ?_ ?_ ?_ ?_ ?_
  · intro i _; exact Finset.mem_univ _
  · intro p _; exact Finset.mem_filter.2 ⟨Finset.mem_univ _, drop_23_ix4 h' _ _ _ _⟩
  · exact hinv
  · intro p _; rfl
  · intro i hi; exact congrArg x (hinv i hi).symm

/-- The same for the host operation itself, which starts from the initial array's first element. -/
theorem host_reduceAdd_23 {u : Shape} {φ : FTy}
    (h' : (⟨4, ![n0, n1, n2, n3]⟩ : Shape).ReducesTo [2, 3] ⟨2, ![n0, n1]⟩)
    (x : FVec Ideal ⟨4, ![n0, n1, n2, n3]⟩ φ) (init : FVec Ideal u φ) (hu : 0 < u.numel) (a0 : Fin n0) (a1 : Fin n1) :
    Host.reduceAdd x init h' hu (ix2 a0 a1)
      = init (Shape.Idx.first hu) + ∑ c : Fin n2, ∑ d : Fin n3, x (ix4 a0 a1 c d) :=
  (hostReduceAdd_apply x init h' hu _).trans (hostReduceAdd_23 h' x _ a0 a1)

/-! ### Rank 4, the axes 0 and 1 summed -/

/-- Dropping the axes 0, 1 of a rank-4 index keeps the coordinates 2, 3. -/
theorem drop_01_ix4 (h' : (⟨4, ![n0, n1, n2, n3]⟩ : Shape).ReducesTo [0, 1] ⟨2, ![n2, n3]⟩)
    (b0 : Fin n0) (b1 : Fin n1) (b2 : Fin n2) (b3 : Fin n3) :
    h'.drop (ix4 b0 b1 b2 b3) = ix2 b2 b3 := by
  funext b
  match b with
  | ⟨0, _⟩ => rfl
  | ⟨1, _⟩ => rfl

/-- The host's float sum over the axes 0, 1 of a rank-4 array at the index (a2, a3): the initial value plus the
    double sum over the reduced coordinates. -/
theorem hostReduceAdd_01 (h' : (⟨4, ![n0, n1, n2, n3]⟩ : Shape).ReducesTo [0, 1] ⟨2, ![n2, n3]⟩)
    (x : (⟨4, ![n0, n1, n2, n3]⟩ : Shape).Idx → EReal) (init : EReal) (a2 : Fin n2) (a3 : Fin n3) :
    Ideal.hostReduceAdd h' x init (ix2 a2 a3) = init + ∑ a : Fin n0, ∑ b : Fin n1, x (ix4 a b a2 a3) := by
  unfold Ideal.hostReduceAdd
  refine congrArg (fun z => init + z) ?_
  have hp : ∑ a : Fin n0, ∑ b : Fin n1, x (ix4 a b a2 a3) = ∑ p : Fin n0 × Fin n1, x (ix4 p.1 p.2 a2 a3) := by
    simp only [Fintype.sum_prod_type]
  rw [hp]
  have hinv : ∀ i ∈ Finset.univ.filter (fun i => h'.drop i = ix2 a2 a3),
      ix4 (i 0 : Fin n0) (i 1 : Fin n1) a2 a3 = i := by
    intro i hi
    have hi' := (Finset.mem_filter.1 hi).2
    obtain ⟨b0, b1, b2, b3, rfl⟩ : ∃ b0 b1 b2 b3, i = ix4 b0 b1 b2 b3 := ⟨_, _, _, _, eq_ix4 i⟩
    rw [drop_01_ix4] at hi'
    have he2 := congrFun hi' ⟨0, (by decide : 0 < 2)⟩
    have e2 : b2 = a2 := he2
    have he3 := congrFun hi' ⟨1, (by decide : 1 < 2)⟩
    have e3 : b3 = a3 := he3
    subst e2 e3
    rfl
  refine Finset.sum_nbij' (fun i => ((i 0 : Fin n0), (i 1 : Fin n1))) (fun p => ix4 p.1 p.2 a2 a3) ?_ ?_ ?_ ?_ ?_
  · intro i _; exact Finset.mem_univ _
  · intro p _; exact Finset.mem_filter.2 ⟨Finset.mem_univ _, drop_01_ix4 h' _ _ _ _⟩
  · exact hinv
  · intro p _; rfl
  · intro i hi; exact congrArg x (hinv i hi).symm

/-- The same for the host operation itself. -/
theorem host_reduceAdd_01 {u : Shape} {φ : FTy}
    (h' : (⟨4, ![n0, n1, n2, n3]⟩ : Shape).ReducesTo [0, 1] ⟨2, ![n2, n3]⟩)
    (x : FVec Ideal ⟨4, ![n0, n1, n2, n3]⟩ φ) (init : FVec Ideal u φ) (hu : 0 < u.numel) (a2 : Fin n2) (a3 : Fin n3) :
    Host.reduceAdd x init h' hu (ix2 a2 a3)
      = init (Shape.Idx.first hu) + ∑ a : Fin n0, ∑ b : Fin n1, x (ix4 a b a2 a3) :=
  (hostReduceAdd_apply x init h' hu _).trans (hostReduceAdd_01 h' x _ a2 a3)

/-! ### Rank 6, the axes 3 and 5 summed -/

/-- Dropping the axes 3, 5 of a rank-6 index keeps the coordinates 0, 1, 2, 4. -/
theorem drop_35_ix6 (h' : (⟨6, ![n0, n1, n2, n3, n4, n5]⟩ : Shape).ReducesTo [3, 5] ⟨4, ![n0, n1, n2, n4]⟩)
    (b0 : Fin n0) (b1 : Fin n1) (b2 : Fin n2) (b3 : Fin n3) (b4 : Fin n4) (b5 : Fin n5) :
    h'.drop (ix6 b0 b1 b2 b3 b4 b5) = ix4 b0 b1 b2 b4 := by
  funext b
  match b with
  | ⟨0, _⟩ => rfl
  | ⟨1, _⟩ => rfl
  | ⟨2, _⟩ => rfl
  | ⟨3, _⟩ => rfl

/-- The host's float sum over the axes 3, 5 of a rank-6 array at the index (a0, a1, a2, a4): the initial value plus
    the double sum over the reduced coordinates. -/
theorem hostReduceAdd_35 (h' : (⟨6, ![n0, n1, n2, n3, n4, n5]⟩ : Shape).ReducesTo [3, 5] ⟨4, ![n0, n1, n2, n4]⟩)
    (x : (⟨6, ![n0, n1, n2, n3, n4, n5]⟩ : Shape).Idx → EReal) (init : EReal)
    (a0 : Fin n0) (a1 : Fin n1) (a2 : Fin n2) (a4 : Fin n4) :
    Ideal.hostReduceAdd h' x init (ix4 a0 a1 a2 a4)
      = init + ∑ d : Fin n3, ∑ f : Fin n5, x (ix6 a0 a1 a2 d a4 f) := by
  unfold Ideal.hostReduceAdd
  refine congrArg (fun z => init + z) ?_
  have hp : ∑ d : Fin n3, ∑ f : Fin n5, x (ix6 a0 a1 a2 d a4 f)
      = ∑ p : Fin n3 × Fin n5, x (ix6 a0 a1 a2 p.1 a4 p.2) := by
    simp only [Fintype.sum_prod_type]
  rw [hp]
  have hinv : ∀ i ∈ Finset.univ.filter (fun i => h'.drop i = ix4 a0 a1 a2 a4),
      ix6 a0 a1 a2 (i 3 : Fin n3) a4 (i 5 : Fin n5) = i := by
    intro i hi
    have hi' := (Finset.mem_filter.1 hi).2
    obtain ⟨b0, b1, b2, b3, b4, b5, rfl⟩ : ∃ b0 b1 b2 b3 b4 b5, i = ix6 b0 b1 b2 b3 b4 b5 :=
      ⟨_, _, _, _, _, _, eq_ix6 i⟩
    rw [drop_35_ix6] at hi'
    have he0 := congrFun hi' ⟨0, (by decide : 0 < 4)⟩
    have e0 : b0 = a0 := he0
    have he1 := congrFun hi' ⟨1, (by decide : 1 < 4)⟩
    have e1 : b1 = a1 := he1
    have he2 := congrFun hi' ⟨2, (by decide : 2 < 4)⟩
    have e2 : b2 = a2 := he2
    have he4 := congrFun hi' ⟨3, (by decide : 3 < 4)⟩
    have e4 : b4 = a4 := he4
    subst e0 e1 e2 e4
    rfl
  refine Finset.sum_nbij' (fun i => ((i 3 : Fin n3), (i 5 : Fin n5))) (fun p => ix6 a0 a1 a2 p.1 a4 p.2)
    ?_ ?_ ?_ ?_ ?_
  · intro i _; exact Finset.mem_univ _
  · intro p _; exact Finset.mem_filter.2 ⟨Finset.mem_univ _, drop_35_ix6 h' _ _ _ _ _ _⟩
  · exact hinv
  · intro p _; rfl
  · intro i hi; exact congrArg x (hinv i hi).symm

/-- The same for the host operation itself. -/
theorem host_reduceAdd_35 {u : Shape} {φ : FTy}
    (h' : (⟨6, ![n0, n1, n2, n3, n4, n5]⟩ : Shape).ReducesTo [3, 5] ⟨4, ![n0, n1, n2, n4]⟩)
    (x : FVec Ideal ⟨6, ![n0, n1, n2, n3, n4, n5]⟩ φ) (init : FVec Ideal u φ) (hu : 0 < u.numel)
    (a0 : Fin n0) (a1 : Fin n1) (a2 : Fin n2) (a4 : Fin n4) :
    Host.reduceAdd x init h' hu (ix4 a0 a1 a2 a4)
      = init (Shape.Idx.first hu) + ∑ d : Fin n3, ∑ f : Fin n5, x (ix6 a0 a1 a2 d a4 f) :=
  (hostReduceAdd_apply x init h' hu _).trans (hostReduceAdd_35 h' x _ a0 a1 a2 a4)

/-! ### A square block as sub-blocks -/

/-- A double sum over an N × N block, N = k · W, is the sum over the k × k sub-blocks of width W of the double sums
    over each sub-block; sub-block (a, a') holds the points (W a + r, W a' + q). -/
theorem sum_sq_tiles {M : Type*} [AddCommMonoid M] (k W N : ℕ) (hN : N = k * W) (g : ℕ → ℕ → M) :
    ∑ r : Fin N, ∑ q : Fin N, g r.val q.val
      = ∑ a : Fin k, ∑ a' : Fin k, ∑ r : Fin W, ∑ q : Fin W, g (W * a.val + r.val) (W * a'.val + q.val) := by
  subst hN
  rw [Cert.TileSum.sum_tiles k W (fun r => ∑ q : Fin (k * W), g r q.val), Finset.sum_range]
  refine Finset.sum_congr rfl fun a _ => ?_
  have h1 : ∀ r : Fin W, ∑ q : Fin (k * W), g (W * a.val + r.val) q.val
      = ∑ a' : Fin k, ∑ q : Fin W, g (W * a.val + r.val) (W * a'.val + q.val) := by
    intro r
    rw [Cert.TileSum.sum_tiles k W (fun q => g (W * a.val + r.val) q), Finset.sum_range]
  rw [Finset.sum_congr rfl fun r _ => h1 r]
  exact Finset.sum_comm

end Cert.RefSums

end
-- ==== Proof.RefValue.lean ====
/-
  The reference program's result is the loss of its two image arguments and its domain term.

  The program computes four partial losses and combines them with fixed weights:
  * the sum over every pixel of the squared difference (a sum over all four axes of the argument arrays);
  * the sum over the batch of |Σ p_b − Σ g_b| (sums over the two pixel axes, then a sum over the batch);
  * three pyramid levels: the arrays viewed as n × n grids of s × s blocks (n·s = 768, n = 2, 4, 8), summed over each
    block, subtracted, |·|, summed over the batch, divided by 32 and summed over the grid.  A block of the coarser
    grids is a square of blocks of the finest grid, so its sum is the sum of their sums: only + is regrouped;
  * the domain term, which is kept as the program's own term.
  Every initial value of a sum is the zero word, and 0 + x = x.
-/
import proofs.«143279_j39702677684512_1_alg».proof.Proof.Gen.ReferenceIdeal.Read
import proofs.«143279_j39702677684512_1_alg».proof.Proof.LossSpec
import proofs.«143279_j39702677684512_1_alg».proof.Proof.LibAxisPairSums
import Mathlib.Tactic.Ring

noncomputable section

open scoped BigOperators

namespace Cert.ReferenceIdeal.RefValue

open Idealize.ShloMosaic Idealize.ShloMosaic.ValueIdx Cert.ReferenceIdeal Cert.ReferenceIdeal.Read
open Cert.ReferenceIdeal.Gen Idealize.ShloMosaic.StableHlo
open Cert.LossSpec Cert.RefSums Cert.IndexSums

/-- an argument array [32,1,768,768] as a batch of images -/
def imgOf (x : (⟨S32x1x768x768, .f32⟩ : BufTy).Contents (Elt Ideal)) : Cert.LossSpec.Img := fun b h w => x (ix4 b (0 : Fin 1) h w)

/-- the domain term: the reference's own composed term of its operation %61 (domain_loss) -/
def domR (x2 x3 : (⟨S32x2, .f32⟩ : BufTy).Contents (Elt Ideal)) : EReal := val_main_v61 (F := Ideal) x2 x3 ix0

/-- A scalar holding the zero word is 0. -/
theorem zero_word (c : (⟨S_, .f32⟩ : BufTy).Contents (Elt Ideal)) (i : S_.Idx)
    (h : c i = FloatOps.ofBits (F := Ideal) .f32 0x00000000#32) : c i = 0 := h.trans Ideal.ofBits_zero_f32

/-! ### Images with pixel positions as plain numbers -/

/-- An image batch extended by zero outside the 768 × 768 frame. -/
def extI (P : Img) (b : Fin 32) (h w : ℕ) : EReal :=
  if hh : h < 768 then if hw : w < 768 then P b ⟨h, hh⟩ ⟨w, hw⟩ else 0 else 0

theorem extI_mk (P : Img) (b : Fin 32) (h w : ℕ) (hh : h < 768) (hw : w < 768) :
    extI P b h w = P b ⟨h, hh⟩ ⟨w, hw⟩ := by
  unfold extI
  rw [dif_pos hh, dif_pos hw]

/-- The sum of image b over the s × s block with corner (s I, s J). -/
def cellN (s : ℕ) (P : Img) (b : Fin 32) (I J : ℕ) : EReal :=
  ∑ r : Fin s, ∑ q : Fin s, extI P b (s * I + r.val) (s * J + q.val)

/-- The block sums of a batch on the n × n grid of s × s blocks. -/
def cellsN (s n : ℕ) (P : Img) : Fin 32 → Fin n → Fin n → EReal := fun b i j => cellN s P b i.val j.val

/-- A block of width k · 96 is k × k blocks of width 96. -/
theorem cellN_split (k N : ℕ) (hN : N = k * 96) (P : Img) (b : Fin 32) (I J : ℕ) :
    cellN N P b I J = ∑ a : Fin k, ∑ a' : Fin k, cellN 96 P b (k * I + a.val) (k * J + a'.val) := by
  unfold cellN
  rw [Cert.RefSums.sum_sq_tiles k 96 N hN (fun r q => extI P b (N * I + r) (N * J + q))]
  subst hN
  refine Finset.sum_congr rfl fun a _ => Finset.sum_congr rfl fun a' _ => Finset.sum_congr rfl fun r _ =>
    Finset.sum_congr rfl fun q _ => ?_
  rw [show k * 96 * I + (96 * a.val + r.val) = 96 * (k * I + a.val) + r.val by ring,
    show k * 96 * J + (96 * a'.val + q.val) = 96 * (k * J + a'.val) + q.val by ring]

theorem cell8_eq (P : Img) (b : Fin 32) (i j : Fin 8) : cell8 P b i j = cellN 96 P b i.val j.val := by
  unfold Cert.LossSpec.cell8 cellN
  refine Finset.sum_congr rfl fun r _ => Finset.sum_congr rfl fun q _ => ?_
  exact (extI_mk P b _ _ _ _).symm

theorem cells8_eq (P : Img) : cellsN 96 8 P = cell8 P := by
  funext b i j
  exact (cell8_eq P b i j).symm

theorem cells4_eq (P : Img) : cellsN 192 4 P = cell4 (cell8 P) := by
  funext b i j
  unfold cellsN
  rw [cellN_split 2 192 (by norm_num) P b]
  unfold Cert.LossSpec.cell4
  refine Finset.sum_congr rfl fun a _ => Finset.sum_congr rfl fun a' _ => ?_
  exact (cell8_eq P b ⟨2 * i.val + a.val, by omega⟩ ⟨2 * j.val + a'.val, by omega⟩).symm

theorem cells2_eq (P : Img) : cellsN 384 2 P = cell2 (cell8 P) := by
  funext b i j
  unfold cellsN
  rw [cellN_split 4 384 (by norm_num) P b]
  unfold Cert.LossSpec.cell2
  refine Finset.sum_congr rfl fun a _ => Finset.sum_congr rfl fun a' _ => ?_
  exact (cell8_eq P b ⟨4 * i.val + a.val, by omega⟩ ⟨4 * j.val + a'.val, by omega⟩).symm

/-! ### The sum of squares and the count term -/

theorem sq_eq (x0 x1 : (⟨S32x1x768x768, .f32⟩ : BufTy).Contents (Elt Ideal)) :
    val_main_v2 (F := Ideal) x0 x1 ix0 = sqSum (imgOf x0) (imgOf x1) := by
  rw [val_main_v2_apply, zero_word _ _ (val_main_cst_apply _), zero_add, sum_idx4]
  unfold Cert.LossSpec.sqSum
  refine Finset.sum_congr rfl fun b _ => ?_
  rw [Fin.sum_univ_one]
  rfl

/-- The sum of an argument array over its two pixel axes is the image's total. -/
theorem total_eq (x : (⟨S32x1x768x768, .f32⟩ : BufTy).Contents (Elt Ideal)) (c : (⟨S_, .f32⟩ : BufTy).Contents (Elt Ideal)) (hc : c (Shape.Idx.first h_S_) = 0) (b : Fin 32) :
    Host.reduceAdd (F := Ideal) (φ := .f32) x c reducesTo_S32x1x768x768_S32x1_d2_3 h_S_ (ix2 b (0 : Fin 1)) = total (imgOf x) b := by
  refine (host_reduceAdd_23 (φ := .f32) _ x c h_S_ b 0).trans ?_
  rw [hc, zero_add]
  rfl

theorem count_eq (x0 x1 : (⟨S32x1x768x768, .f32⟩ : BufTy).Contents (Elt Ideal)) :
    val_main_v10 (F := Ideal) x0 x1 ix0 = countSum (imgOf x0) (imgOf x1) := by
  rw [val_main_v10_apply, zero_word _ _ (val_main_cst_3_apply _), zero_add, sum_idx1]
  unfold Cert.LossSpec.countSum
  refine Finset.sum_congr rfl fun b _ => ?_
  rw [val_main_v9_apply, val_main_v8_apply, val_main_v5_apply, val_main_v7_apply]
  have e5 : idx_main_v5 (ix1 b) = ix2 b (0 : Fin 1) := by
    funext a
    match a with
    | ⟨0, _⟩ => exact Fin.ext (Nat.div_one _)
    | ⟨1, _⟩ => rfl
  have e7 : idx_main_v7 (ix1 b) = ix2 b (0 : Fin 1) := by
    funext a
    match a with
    | ⟨0, _⟩ => exact Fin.ext (Nat.div_one _)
    | ⟨1, _⟩ => rfl
  rw [e5, e7]
  unfold val_main_v4 val_main_v6
  rw [total_eq x0 _ (zero_word _ _ (val_main_cst_1_apply _)) b, total_eq x1 _ (zero_word _ _ (val_main_cst_2_apply _)) b]
  rfl

/-! ### The 2 × 2 grid of 384 × 384 blocks -/

/-- The array viewed as [32, 1, 2, 384, 2, 384] at (b, u, I, r, J, q) is the pixel (384 I + r, 384 J + q) of image b. -/
theorem cast_2 (x : (⟨S32x1x768x768, .f32⟩ : BufTy).Contents (Elt Ideal)) (b : Fin 32) (u : Fin 1) (I : Fin 2) (r : Fin 384) (J : Fin 2) (q : Fin 384) :
    shapeCast S32x1x2x384x2x384 x shapeCasts_S32x1x768x768_S32x1x2x384x2x384 (ix6 b u I r J q)
      = x (ix4 b u ⟨384 * I.val + r.val, by omega⟩ ⟨384 * J.val + q.val, by omega⟩) := by
  refine shapeCast_apply x _ _ _ ?_
  rw [Shape.rowMajor_val_four, Shape.rowMajor_val_six]
  have hb := b.isLt; have hu := u.isLt; have hI := I.isLt; have hr := r.isLt; have hJ := J.isLt; have hq := q.isLt
  show ((b.val * 1 + u.val) * 768 + (384 * I.val + r.val)) * 768 + (384 * J.val + q.val)
    = ((((b.val * 1 + u.val) * 2 + I.val) * 384 + r.val) * 2 + J.val) * 384 + q.val
  omega

/-- The sums over the blocks of the 2 × 2 grid. -/
theorem cells_2 (x : (⟨S32x1x768x768, .f32⟩ : BufTy).Contents (Elt Ideal)) (c : (⟨S_, .f32⟩ : BufTy).Contents (Elt Ideal)) (hc : c (Shape.Idx.first h_S_) = 0) (b : Fin 32) (I J : Fin 2) :
    Host.reduceAdd (F := Ideal) (φ := .f32) (shapeCast S32x1x2x384x2x384 x shapeCasts_S32x1x768x768_S32x1x2x384x2x384) c
        reducesTo_S32x1x2x384x2x384_S32x1x2x2_d3_5 h_S_ (ix4 b (0 : Fin 1) I J)
      = cellsN 384 2 (imgOf x) b I J := by
  refine (host_reduceAdd_35 (φ := .f32) _ _ c h_S_ b 0 I J).trans ?_
  rw [hc, zero_add]
  unfold cellsN cellN
  refine Finset.sum_congr rfl fun r _ => Finset.sum_congr rfl fun q _ => ?_
  rw [cast_2]
  exact (extI_mk (imgOf x) b _ _ _ _).symm

/-- The level of the 2 × 2 grid. -/
theorem level_2 (x0 x1 : (⟨S32x1x768x768, .f32⟩ : BufTy).Contents (Elt Ideal)) :
    val_main_v21 (F := Ideal) x0 x1 ix0
      = levelSum (cellsN 384 2 (imgOf x0)) (cellsN 384 2 (imgOf x1)) := by
  rw [val_main_v21_apply, zero_word _ _ (val_main_cst_9_apply _), zero_add, sum_idx2]
  unfold Cert.LossSpec.levelSum
  refine Finset.sum_congr rfl fun I _ => Finset.sum_congr rfl fun J _ => ?_
  rw [val_main_v20_apply, val_main_v19_apply, val_main_cst_8_apply]
  have h18 : val_main_v18 (F := Ideal) x0 x1 (ix2 I J)
      = ∑ b : Fin 32, absE (cellsN 384 2 (imgOf x0) b I J - cellsN 384 2 (imgOf x1) b I J) := by
    unfold val_main_v18
    refine (host_reduceAdd_01 (φ := .f32) _ _ _ h_S_ I J).trans ?_
    rw [zero_word _ _ (val_main_cst_7_apply _), zero_add]
    refine Finset.sum_congr rfl fun b _ => ?_
    rw [Fin.sum_univ_one, val_main_v17_apply, val_main_v16_apply]
    unfold val_main_v13 val_main_v15 val_main_v12 val_main_v14
    rw [cells_2 x0 _ (zero_word _ _ (val_main_cst_5_apply _)) b I J, cells_2 x1 _ (zero_word _ _ (val_main_cst_6_apply _)) b I J]
    rfl
  rw [h18]
  rfl

/-! ### The 4 × 4 grid of 192 × 192 blocks -/

/-- The array viewed as [32, 1, 4, 192, 4, 192] at (b, u, I, r, J, q) is the pixel (192 I + r, 192 J + q) of image b. -/
theorem cast_4 (x : (⟨S32x1x768x768, .f32⟩ : BufTy).Contents (Elt Ideal)) (b : Fin 32) (u : Fin 1) (I : Fin 4) (r : Fin 192) (J : Fin 4) (q : Fin 192) :
    shapeCast S32x1x4x192x4x192 x shapeCasts_S32x1x768x768_S32x1x4x192x4x192 (ix6 b u I r J q)
      = x (ix4 b u ⟨192 * I.val + r.val, by omega⟩ ⟨192 * J.val + q.val, by omega⟩) := by
  refine shapeCast_apply x _ _ _ ?_
  rw [Shape.rowMajor_val_four, Shape.rowMajor_val_six]
  have hb := b.isLt; have hu := u.isLt; have hI := I.isLt; have hr := r.isLt; have hJ := J.isLt; have hq := q.isLt
  show ((b.val * 1 + u.val) * 768 + (192 * I.val + r.val)) * 768 + (192 * J.val + q.val)
    = ((((b.val * 1 + u.val) * 4 + I.val) * 192 + r.val) * 4 + J.val) * 192 + q.val
  omega

/-- The sums over the blocks of the 4 × 4 grid. -/
theorem cells_4 (x : (⟨S32x1x768x768, .f32⟩ : BufTy).Contents (Elt Ideal)) (c : (⟨S_, .f32⟩ : BufTy).Contents (Elt Ideal)) (hc : c (Shape.Idx.first h_S_) = 0) (b : Fin 32) (I J : Fin 4) :
    Host.reduceAdd (F := Ideal) (φ := .f32) (shapeCast S32x1x4x192x4x192 x shapeCasts_S32x1x768x768_S32x1x4x192x4x192) c
        reducesTo_S32x1x4x192x4x192_S32x1x4x4_d3_5 h_S_ (ix4 b (0 : Fin 1) I J)
      = cellsN 192 4 (imgOf x) b I J := by
  refine (host_reduceAdd_35 (φ := .f32) _ _ c h_S_ b 0 I J).trans ?_
  rw [hc, zero_add]
  unfold cellsN cellN
  refine Finset.sum_congr rfl fun r _ => Finset.sum_congr rfl fun q _ => ?_
  rw [cast_4]
  exact (extI_mk (imgOf x) b _ _ _ _).symm

/-- The level of the 4 × 4 grid. -/
theorem level_4 (x0 x1 : (⟨S32x1x768x768, .f32⟩ : BufTy).Contents (Elt Ideal)) :
    val_main_v32 (F := Ideal) x0 x1 ix0
      = levelSum (cellsN 192 4 (imgOf x0)) (cellsN 192 4 (imgOf x1)) := by
  rw [val_main_v32_apply, zero_word _ _ (val_main_cst_15_apply _), zero_add, sum_idx2]
  unfold Cert.LossSpec.levelSum
  refine Finset.sum_congr rfl fun I _ => Finset.sum_congr rfl fun J _ => ?_
  rw [val_main_v31_apply, val_main_v30_apply, val_main_cst_14_apply]
  have h18 : val_main_v29 (F := Ideal) x0 x1 (ix2 I J)
      = ∑ b : Fin 32, absE (cellsN 192 4 (imgOf x0) b I J - cellsN 192 4 (imgOf x1) b I J) := by
    unfold val_main_v29
    refine (host_reduceAdd_01 (φ := .f32) _ _ _ h_S_ I J).trans ?_
    rw [zero_word _ _ (val_main_cst_13_apply _), zero_add]
    refine Finset.sum_congr rfl fun b _ => ?_
    rw [Fin.sum_univ_one, val_main_v28_apply, val_main_v27_apply]
    unfold val_main_v24 val_main_v26 val_main_v23 val_main_v25
    rw [cells_4 x0 _ (zero_word _ _ (val_main_cst_11_apply _)) b I J, cells_4 x1 _ (zero_word _ _ (val_main_cst_12_apply _)) b I J]
    rfl
  rw [h18]
  rfl

/-! ### The 8 × 8 grid of 96 × 96 blocks -/

/-- The array viewed as [32, 1, 8, 96, 8, 96] at (b, u, I, r, J, q) is the pixel (96 I + r, 96 J + q) of image b. -/
theorem cast_8 (x : (⟨S32x1x768x768, .f32⟩ : BufTy).Contents (Elt Ideal)) (b : Fin 32) (u : Fin 1) (I : Fin 8) (r : Fin 96) (J : Fin 8) (q : Fin 96) :
    shapeCast S32x1x8x96x8x96 x shapeCasts_S32x1x768x768_S32x1x8x96x8x96 (ix6 b u I r J q)
      = x (ix4 b u ⟨96 * I.val + r.val, by omega⟩ ⟨96 * J.val + q.val, by omega⟩) := by
  refine shapeCast_apply x _ _ _ ?_
  rw [Shape.rowMajor_val_four, Shape.rowMajor_val_six]
  have hb := b.isLt; have hu := u.isLt; have hI := I.isLt; have hr := r.isLt; have hJ := J.isLt; have hq := q.isLt
  show ((b.val * 1 + u.val) * 768 + (96 * I.val + r.val)) * 768 + (96 * J.val + q.val)
    = ((((b.val * 1 + u.val) * 8 + I.val) * 96 + r.val) * 8 + J.val) * 96 + q.val
  omega

/-- The sums over the blocks of the 8 × 8 grid. -/
theorem cells_8 (x : (⟨S32x1x768x768, .f32⟩ : BufTy).Contents (Elt Ideal)) (c : (⟨S_, .f32⟩ : BufTy).Contents (Elt Ideal)) (hc : c (Shape.Idx.first h_S_) = 0) (b : Fin 32) (I J : Fin 8) :
    Host.reduceAdd (F := Ideal) (φ := .f32) (shapeCast S32x1x8x96x8x96 x shapeCasts_S32x1x768x768_S32x1x8x96x8x96) c
        reducesTo_S32x1x8x96x8x96_S32x1x8x8_d3_5 h_S_ (ix4 b (0 : Fin 1) I J)
      = cellsN 96 8 (imgOf x) b I J := by
  refine (host_reduceAdd_35 (φ := .f32) _ _ c h_S_ b 0 I J).trans ?_
  rw [hc, zero_add]
  unfold cellsN cellN
  refine Finset.sum_congr rfl fun r _ => Finset.sum_congr rfl fun q _ => ?_
  rw [cast_8]
  exact (extI_mk (imgOf x) b _ _ _ _).symm

/-- The level of the 8 × 8 grid. -/
theorem level_8 (x0 x1 : (⟨S32x1x768x768, .f32⟩ : BufTy).Contents (Elt Ideal)) :
    val_main_v43 (F := Ideal) x0 x1 ix0
      = levelSum (cellsN 96 8 (imgOf x0)) (cellsN 96 8 (imgOf x1)) := by
  rw [val_main_v43_apply, zero_word _ _ (val_main_cst_20_apply _), zero_add, sum_idx2]
  unfold Cert.LossSpec.levelSum
  refine Finset.sum_congr rfl fun I _ => Finset.sum_congr rfl fun J _ => ?_
  rw [val_main_v42_apply, val_main_v41_apply, val_main_cst_19_apply]
  have h18 : val_main_v40 (F := Ideal) x0 x1 (ix2 I J)
      = ∑ b : Fin 32, absE (cellsN 96 8 (imgOf x0) b I J - cellsN 96 8 (imgOf x1) b I J) := by
    unfold val_main_v40
    refine (host_reduceAdd_01 (φ := .f32) _ _ _ h_S_ I J).trans ?_
    rw [zero_word _ _ (val_main_cst_18_apply _), zero_add]
    refine Finset.sum_congr rfl fun b _ => ?_
    rw [Fin.sum_univ_one, val_main_v39_apply, val_main_v38_apply]
    unfold val_main_v35 val_main_v37 val_main_v34 val_main_v36
    rw [cells_8 x0 _ (zero_word _ _ (val_main_cst_16_apply _)) b I J, cells_8 x1 _ (zero_word _ _ (val_main_cst_17_apply _)) b I J]
    rfl
  rw [h18]
  rfl

/-! ### The whole program -/

theorem ref_value (x0 x1 : (⟨S32x1x768x768, .f32⟩ : BufTy).Contents (Elt Ideal)) (x2 x3 : (⟨S32x2, .f32⟩ : BufTy).Contents (Elt Ideal)) :
    val_main_v68 (F := Ideal) x0 x1 x2 x3 ix0 = Cert.LossSpec.loss (imgOf x0) (imgOf x1) (domR x2 x3) := by
  have hu : val_main_v68 (F := Ideal) x0 x1 x2 x3 ix0
      = combine (val_main_v2 (F := Ideal) x0 x1 ix0) (val_main_v10 (F := Ideal) x0 x1 ix0)
          (((val_main_cst_10 (F := Ideal) ix0 + val_main_v21 (F := Ideal) x0 x1 ix0)
            + val_main_v32 (F := Ideal) x0 x1 ix0) + val_main_v43 (F := Ideal) x0 x1 ix0)
          (val_main_v61 (F := Ideal) x2 x3 ix0) := rfl
  rw [hu, sq_eq, count_eq, level_2, level_4, level_8, zero_word _ _ (val_main_cst_10_apply _), zero_add,
    cells2_eq, cells2_eq, cells4_eq, cells4_eq, cells8_eq, cells8_eq]
  rfl

end Cert.ReferenceIdeal.RefValue

end
-- ==== Proof.Algebraic.lean ====
import proofs.«143279_j39702677684512_1_alg».proof.Defs
import proofs.«143279_j39702677684512_1_alg».proof.Proof.KIValue
import proofs.«143279_j39702677684512_1_alg».proof.Proof.RefValue
import proofs.«143279_j39702677684512_1_alg».proof.Proof.Gen.ReferenceIdeal.Run
import proofs.«143279_j39702677684512_1_alg».proof.Proof.Gen.KernelIdeal
import proofs.«143279_j39702677684512_1_alg».proof.Proof.Gen.ReferenceIdeal
import proofs.«143279_j39702677684512_1_alg».proof.Proof.Gen.Pre_finite_inputs

/-!
# The two idealized programs compute the same loss

Over the extended reals the kernel program's result is the loss of its two density arguments with its own domain
term, and so is the reference's. The two domain terms are the same host operations (a log-softmax and a
take-along-axis on each logit array, two means, a sum, a halving) applied to the same arguments, so they are one
term. Nothing here needs the inputs to be finite: only sums are regrouped.
-/

set_option maxRecDepth 16384

noncomputable section

namespace Cert.Proof

open Idealize.ShloMosaic Idealize.ShloMosaic.ValueIdx Idealize.SL.Sem

/-- The two programs' domain terms are one function of the two logit arrays. -/
theorem dom_eq (x2 x3 : Cert.KernelIdeal.S32x2.Idx → EReal) :
    Cert.ReferenceIdeal.RefValue.domR x2 x3 = Cert.KernelIdeal.TailValue.domK x2 x3 := rfl

/-- The reference's result, from arguments that agree with the kernel program's, is the kernel program's result. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Read.val_main_v68 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Frm.kernelResult m c := by
  funext i
  obtain rfl : i = ix0 := eq_ix0 i
  refine (Cert.ReferenceIdeal.RefValue.ref_value _ _ _ _).trans ?_
  rw [dom_eq]
  exact (Cert.KernelIdeal.Frm.kernel_value m c).symm

theorem algebraic : Cert.algebraic_KernelIdeal_ReferenceIdeal := by
  intro m ρ m' ρ' _ hagree
  refine ⟨fun c => Cert.KernelIdeal.Frm.kernelResult m c, Cert.KernelIdeal.Frm.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, (hagree c).1, (hagree c).2.1, (hagree c).2.2.1, (hagree c).2.2.2]
  exact results_agree m c

end Cert.Proof

end
-- ==== Proof.lean ====
import proofs.«143279_j39702677684512_1_alg».proof.Defs
import proofs.«143279_j39702677684512_1_alg».proof.Proof.KFrame
import proofs.«143279_j39702677684512_1_alg».proof.Proof.KIFrame
import proofs.«143279_j39702677684512_1_alg».proof.Proof.Algebraic
import proofs.«143279_j39702677684512_1_alg».proof.Proof.Gen.Kernel
import proofs.«143279_j39702677684512_1_alg».proof.Proof.Gen.KernelIdeal
import proofs.«143279_j39702677684512_1_alg».proof.Proof.Gen.ReferenceIdeal
import proofs.«143279_j39702677684512_1_alg».proof.Proof.Gen.ReferenceIdeal.Run
import proofs.«143279_j39702677684512_1_alg».proof.Proof.Gen.Pre_finite_inputs

/-!
# The certificate

A loss of two 32 x 1 x 768 x 768 density arrays and two 32 x 2 logit arrays: 100 times the mean squared difference,
0.001 times the mean absolute difference of the per-image totals, the regional loss over grids of 2 x 2, 4 x 4 and
8 x 8 cells divided by 192, and half the domain cross-entropy term. The kernel program computes, in one kernel
launch over the 32 images, the 96 x 96 cell sums of both arrays (row groups by a sublane sum, column groups by a
product with a 0/1 pooling matrix) and three totals per image, and derives every coarser quantity on the host
by adding cells; the reference sums pixels directly. Over the extended reals the two agree because only the
grouping of finite sums differs (and x * 1 = x, x * 0 = 0 hold for every extended real), so the precondition
that the inputs are finite is never opened.

The three frame claims: both kernel programs run through the launch theorem for one pipelined launch continued by
host operations (the body's triple at a generic grid point; the statistics block is written whole at every
point), and the reference is a straight line of host operations. The idealization rewrote nothing.
-/

noncomputable section

namespace Cert.Proof

open Idealize.ShloMosaic Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
